-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v89)) (v2 : (c : Dev Cert.KernelIdeal.nD) → Buf (Elt Ideal) ((c.tc : Thread Cert.KernelIdeal.nD Cert.KernelIdeal.τ).loc Cert.KernelIdeal.main_v99)) (v3 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v89) = v1 c
          ∧ r.2.mem ((c.tc : Thread Cert.KernelIdeal.nD Cert.KernelIdeal.τ).loc Cert.KernelIdeal.main_v99) = v2 c
          ∧ r.2.mem ((c.tc : Thread Cert.KernelIdeal.nD Cert.KernelIdeal.τ).loc Cert.KernelIdeal.main_v36) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v124) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x4 : Shape := ⟨2, ![2000000, 4]⟩
abbrev S_ : Shape := ⟨0, ![]⟩

class Facts : Prop where
  bcast_S_S2000000x4 : S_.BroadcastsInDim S2000000x4 (![] : Fin 0 → Fin S2000000x4.rank)
  reducesTo_S2000000x4_S_d0_1 : S2000000x4.ReducesTo [0, 1] S_
  h_S_ : 0 < S_.numel

variable [Facts]

def fn {F : FTy → Type} [FloatOps F] (main_arg0 : FVec F S2000000x4 .f32) : IVec S_ 1 :=
  let main_v0 : FVec F S2000000x4 .f32 := Host.absf main_arg0
  let main_cst : FVec F S_ .f32 := constant S_ .f32 0x7F800000#32
  let main_v1 : FVec F S2000000x4 .f32 := broadcastInDim S2000000x4 ![] bcast_S_S2000000x4 main_cst
  let main_v2 : IVec S2000000x4 1 := cmpf .olt main_v0 main_v1
  let main_c : IVec S_ 1 := constantI S_ 1 1#1
  let main_v3 : IVec S_ 1 := (fun x v => Host.reduce IntOp.andi x v reducesTo_S2000000x4_S_d0_1 h_S_) main_v2 main_c
  main_v3
-- ==== Kernel.lean ====
abbrev S2000000x4 : Shape := ⟨2, ![2000000, 4]⟩
abbrev S1 : Shape := ⟨1, ![1]⟩
abbrev S1000x4 : Shape := ⟨2, ![1000, 4]⟩
abbrev S1000x1 : Shape := ⟨2, ![1000, 1]⟩
abbrev S1000 : Shape := ⟨1, ![1000]⟩
abbrev S2000000x1 : Shape := ⟨2, ![2000000, 1]⟩
abbrev S2000000 : Shape := ⟨1, ![2000000]⟩
abbrev S2000000x3 : Shape := ⟨2, ![2000000, 3]⟩
abbrev S_ : Shape := ⟨0, ![]⟩
abbrev S1999999 : Shape := ⟨1, ![1999999]⟩
abbrev S120001x32x4 : Shape := ⟨3, ![120001, 32, 4]⟩
abbrev S2000000x2 : Shape := ⟨2, ![2000000, 2]⟩
abbrev S120000x32x4 : Shape := ⟨3, ![120000, 32, 4]⟩
abbrev S120001x3 : Shape := ⟨2, ![120001, 3]⟩
abbrev S120000x3 : Shape := ⟨2, ![120000, 3]⟩
abbrev S120001 : Shape := ⟨1, ![120001]⟩
abbrev S120000 : Shape := ⟨1, ![120000]⟩

abbrev nBuf : Space → Nat
  | .hbm => 150
  | .vmem => 4
  | .smem => 0
  | _ => 0

abbrev hbmTy0_0 (i : Nat) : BufTy := match i % 128 with
  | 0 => ⟨S2000000x4, .f32⟩
  | 1 => ⟨S1, .i1⟩
  | 2 => ⟨S2000000x4, .i32⟩
  | 3 => ⟨S2000000x1, .i32⟩
  | 4 => ⟨S2000000, .i32⟩
  | 5 => ⟨S2000000x3, .i32⟩
  | 6 => ⟨S2000000, .i32⟩
  | 7 => ⟨S2000000, .i32⟩
  | 8 => ⟨S2000000, .i32⟩
  | 9 => ⟨S_, .i32⟩
  | 10 => ⟨S2000000, .i32⟩
  | 11 => ⟨S2000000, .i1⟩
  | 12 => ⟨S_, .i32⟩
  | 13 => ⟨S2000000, .i32⟩
  | 14 => ⟨S2000000, .i32⟩
  | 15 => ⟨S2000000, .i32⟩
  | 16 => ⟨S2000000x1, .i32⟩
  | 17 => ⟨S2000000, .i32⟩
  | 18 => ⟨S2000000, .i32⟩
  | 19 => ⟨S1999999, .i32⟩
  | 20 => ⟨S1999999, .i32⟩
  | 21 => ⟨S1999999, .i1⟩
  | 22 => ⟨S2000000, .i1⟩
  | 23 => ⟨S_, .i32⟩
  | 24 => ⟨S_, .i32⟩
  | 25 => ⟨S2000000, .i32⟩
  | 26 => ⟨S2000000, .i32⟩
  | 27 => ⟨S_, .i32⟩
  | 28 => ⟨S_, .i32⟩
  | 29 => ⟨S2000000, .i32⟩
  | 30 => ⟨S2000000, .i32⟩
  | 31 => ⟨S_, .i32⟩
  | 32 => ⟨S2000000, .i32⟩
  | 33 => ⟨S2000000, .i1⟩
  | 34 => ⟨S2000000, .i1⟩
  | 35 => ⟨S_, .i32⟩
  | 36 => ⟨S_, .i32⟩
  | 37 => ⟨S2000000, .i32⟩
  | 38 => ⟨S2000000, .i32⟩
  | 39 => ⟨S2000000, .i32⟩
  | 40 => ⟨S2000000, .i32⟩
  | 41 => ⟨S2000000, .i32⟩
  | 42 => ⟨S2000000, .i32⟩
  | 43 => ⟨S2000000, .i32⟩
  | 44 => ⟨S2000000, .i32⟩
  | 45 => ⟨S_, .i32⟩
  | 46 => ⟨S2000000, .i32⟩
  | 47 => ⟨S2000000, .i1⟩
  | 48 => ⟨S_, .i32⟩
  | 49 => ⟨S2000000, .i32⟩
  | 50 => ⟨S2000000, .i32⟩
  | 51 => ⟨S2000000, .i32⟩
  | 52 => ⟨S2000000x1, .i32⟩
  | 53 => ⟨S2000000, .i32⟩
  | 54 => ⟨S2000000, .i1⟩
  | 55 => ⟨S2000000, .i32⟩
  | 56 => ⟨S_, .i32⟩
  | 57 => ⟨S_, .i32⟩
  | 58 => ⟨S_, .i32⟩
  | 59 => ⟨S_, .i32⟩
  | 60 => ⟨S_, .i32⟩
  | 61 => ⟨S2000000, .i32⟩
  | 62 => ⟨S2000000, .i1⟩
  | 63 => ⟨S2000000, .i1⟩
  | 64 => ⟨S_, .i32⟩
  | 65 => ⟨S2000000, .i32⟩
  | 66 => ⟨S2000000, .i1⟩
  | 67 => ⟨S2000000, .i1⟩
  | 68 => ⟨S_, .i32⟩
  | 69 => ⟨S_, .i32⟩
  | 70 => ⟨S2000000, .i32⟩
  | 71 => ⟨S2000000, .i32⟩
  | 72 => ⟨S_, .i32⟩
  | 73 => ⟨S_, .i32⟩
  | 74 => ⟨S2000000, .i32⟩
  | 75 => ⟨S2000000, .i32⟩
  | 76 => ⟨S_, .f32⟩
  | 77 => ⟨S120001x32x4, .f32⟩
  | 78 => ⟨S_, .i32⟩
  | 79 => ⟨S2000000, .i32⟩
  | 80 => ⟨S2000000, .i1⟩
  | 81 => ⟨S_, .i32⟩
  | 82 => ⟨S2000000, .i32⟩
  | 83 => ⟨S2000000, .i32⟩
  | 84 => ⟨S2000000, .i32⟩
  | 85 => ⟨S2000000x1, .i32⟩
  | 86 => ⟨S2000000x4, .f32⟩
  | 87 => ⟨S_, .i32⟩
  | 88 => ⟨S2000000, .i32⟩
  | 89 => ⟨S2000000, .i1⟩
  | 90 => ⟨S_, .i32⟩
  | 91 => ⟨S2000000, .i32⟩
  | 92 => ⟨S2000000, .i32⟩
  | 93 => ⟨S2000000, .i32⟩
  | 94 => ⟨S_, .i32⟩
  | 95 => ⟨S2000000, .i32⟩
  | 96 => ⟨S2000000, .i1⟩
  | 97 => ⟨S_, .i32⟩
  | 98 => ⟨S2000000, .i32⟩
  | 99 => ⟨S2000000, .i32⟩
  | 100 => ⟨S2000000, .i32⟩
  | 101 => ⟨S2000000x1, .i32⟩
  | 102 => ⟨S2000000x1, .i32⟩
  | 103 => ⟨S2000000x2, .i32⟩
  | 104 => ⟨S120001x32x4, .f32⟩
  | 105 => ⟨S120000x32x4, .f32⟩
  | 106 => ⟨S_, .i32⟩
  | 107 => ⟨S2000000, .i32⟩
  | 108 => ⟨S2000000, .i1⟩
  | 109 => ⟨S_, .i32⟩
  | 110 => ⟨S2000000, .i32⟩
  | 111 => ⟨S2000000, .i32⟩
  | 112 => ⟨S2000000, .i32⟩
  | 113 => ⟨S2000000x1, .i32⟩
  | 114 => ⟨S2000000x3, .i32⟩
  | 115 => ⟨S2000000x3, .i32⟩
  | 116 => ⟨S2000000, .i1⟩
  | 117 => ⟨S_, .i32⟩
  | 118 => ⟨S2000000, .i32⟩
  | 119 => ⟨S2000000, .i1⟩
  | 120 => ⟨S2000000, .i1⟩
  | 121 => ⟨S_, .i32⟩
  | 122 => ⟨S_, .i32⟩
  | 123 => ⟨S2000000, .i32⟩
  | 124 => ⟨S2000000, .i32⟩
  | 125 => ⟨S_, .i32⟩
  | 126 => ⟨S120001x3, .i32⟩
  | 127 => ⟨S_, .i32⟩
  | _ => ⟨S2000000x4, .f32⟩

abbrev hbmTy0_1 (i : Nat) : BufTy := match i % 128 with
  | 0 => ⟨S2000000, .i32⟩
  | 1 => ⟨S2000000, .i1⟩
  | 2 => ⟨S_, .i32⟩
  | 3 => ⟨S2000000, .i32⟩
  | 4 => ⟨S2000000, .i32⟩
  | 5 => ⟨S2000000, .i32⟩
  | 6 => ⟨S2000000x1, .i32⟩
  | 7 => ⟨S120001x3, .i32⟩
  | 8 => ⟨S120000x3, .i32⟩
  | 9 => ⟨S_, .i32⟩
  | 10 => ⟨S120001, .i32⟩
  | 11 => ⟨S2000000, .i32⟩
  | 12 => ⟨S_, .i32⟩
  | 13 => ⟨S2000000, .i32⟩
  | 14 => ⟨S2000000, .i1⟩
  | 15 => ⟨S_, .i32⟩
  | 16 => ⟨S2000000, .i32⟩
  | 17 => ⟨S2000000, .i32⟩
  | 18 => ⟨S2000000, .i32⟩
  | 19 => ⟨S2000000x1, .i32⟩
  | 20 => ⟨S120001, .i32⟩
  | 21 => ⟨S120000, .i32⟩
  | _ => ⟨S2000000x4, .f32⟩

abbrev hbmTy (i : Nat) : BufTy := match i / 128 with
  | 0 => hbmTy0_0 i
  | 1 => hbmTy0_1 i
  | _ => ⟨S2000000x4, .f32⟩

abbrev bufTy : (tb : Table) → Fin (tcTables nBuf tb) → BufTy
  | .hbm, ⟨i, _⟩ => hbmTy i
  | .local _ .vmem, ⟨0, _⟩ => ⟨S1000x4, .f32⟩
  | .local _ .vmem, ⟨1, _⟩ => ⟨S1000x4, .f32⟩
  | .local _ .vmem, ⟨2, _⟩ => ⟨S1000x4, .i32⟩
  | .local _ .vmem, ⟨3, _⟩ => ⟨S1000x4, .i32⟩
  | _, _ => ⟨S2000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1_0 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_call1_v0 : Ref sig .tc := ⟨.hbm, 24, rfl⟩
abbrev main_call1_v1 : Ref sig .tc := ⟨.hbm, 25, rfl⟩
abbrev main_v17 : Ref sig .tc := ⟨.hbm, 26, rfl⟩
abbrev main_call2_c : Ref sig .tc := ⟨.hbm, 27, rfl⟩
abbrev main_call2_v0 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_call3_v0 : Ref sig .tc := ⟨.hbm, 36, rfl⟩
abbrev main_call3_v1 : Ref sig .tc := ⟨.hbm, 37, rfl⟩
abbrev main_v23 : Ref sig .tc := ⟨.hbm, 38, rfl⟩
abbrev main_call4_v0 : Ref sig .tc := ⟨.hbm, 39, rfl⟩
abbrev main_call4_v1_0 : Ref sig .tc := ⟨.hbm, 40, rfl⟩
abbrev main_v24 : Ref sig .tc := ⟨.hbm, 41, rfl⟩
abbrev main_call5_v0 : Ref sig .tc := ⟨.hbm, 42, rfl⟩
abbrev main_call5_v1_0 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_call6_v0 : Ref sig .tc := ⟨.hbm, 69, rfl⟩
abbrev main_call6_v1 : Ref sig .tc := ⟨.hbm, 70, rfl⟩
abbrev main_v43 : Ref sig .tc := ⟨.hbm, 71, rfl⟩
abbrev main_c_12 : Ref sig .tc := ⟨.hbm, 72, rfl⟩
abbrev main_call7_v0 : Ref sig .tc := ⟨.hbm, 73, rfl⟩
abbrev main_call7_v1 : Ref sig .tc := ⟨.hbm, 74, rfl⟩
abbrev main_v44 : Ref sig .tc := ⟨.hbm, 75, rfl⟩
abbrev main_cst : Ref sig .tc := ⟨.hbm, 76, rfl⟩
abbrev main_v45 : Ref sig .tc := ⟨.hbm, 77, rfl⟩
abbrev main_c_13 : Ref sig .tc := ⟨.hbm, 78, rfl⟩
abbrev main_v46 : Ref sig .tc := ⟨.hbm, 79, rfl⟩
abbrev main_v47 : Ref sig .tc := ⟨.hbm, 80, rfl⟩
abbrev main_c_14 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_15 : Ref sig .tc := ⟨.hbm, 87, rfl⟩
abbrev main_v53 : Ref sig .tc := ⟨.hbm, 88, rfl⟩
abbrev main_v54 : Ref sig .tc := ⟨.hbm, 89, rfl⟩
abbrev main_c_16 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_17 : Ref sig .tc := ⟨.hbm, 94, rfl⟩
abbrev main_v58 : Ref sig .tc := ⟨.hbm, 95, rfl⟩
abbrev main_v59 : Ref sig .tc := ⟨.hbm, 96, rfl⟩
abbrev main_c_18 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_19 : Ref sig .tc := ⟨.hbm, 106, rfl⟩
abbrev main_v68 : Ref sig .tc := ⟨.hbm, 107, rfl⟩
abbrev main_v69 : Ref sig .tc := ⟨.hbm, 108, rfl⟩
abbrev main_c_20 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_c_21 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_c_22 : Ref sig .tc := ⟨.hbm, 121, rfl⟩
abbrev main_call8_v0 : Ref sig .tc := ⟨.hbm, 122, rfl⟩
abbrev main_call8_v1 : Ref sig .tc := ⟨.hbm, 123, rfl⟩
abbrev main_v80 : Ref sig .tc := ⟨.hbm, 124, rfl⟩
abbrev main_c_23 : Ref sig .tc := ⟨.hbm, 125, rfl⟩
abbrev main_v81 : Ref sig .tc := ⟨.hbm, 126, rfl⟩
abbrev main_c_24 : Ref sig .tc := ⟨.hbm, 127, rfl⟩
abbrev main_v82 : Ref sig .tc := ⟨.hbm, 128, rfl⟩
abbrev main_v83 : Ref sig .tc := ⟨.hbm, 129, rfl⟩
abbrev main_c_25 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_c_26 : Ref sig .tc := ⟨.hbm, 137, rfl⟩
abbrev main_v90 : Ref sig .tc := ⟨.hbm, 138, rfl⟩
abbrev main_v91 : Ref sig .tc := ⟨.hbm, 139, rfl⟩
abbrev main_c_27 : Ref sig .tc := ⟨.hbm, 140, rfl⟩
abbrev main_v92 : Ref sig .tc := ⟨.hbm, 141, rfl⟩
abbrev main_v93 : Ref sig .tc := ⟨.hbm, 142, rfl⟩
abbrev main_c_28 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1000x4_S1000x4_0_0 : ∀ a, (![0, 0] : Fin 2 → Nat) a + S1000x4.size a ≤ S1000x4.size a
  h_S1000x4 : 0 < S1000x4.numel
  slices_S1000x4_o0_0_S1000x1 : S1000x4.Slices ![0, 0] S1000x1
  shapeCasts_S1000x1_S1000 : S1000x1.ShapeCasts S1000
  slices_S1000x4_o0_1_S1000x1 : S1000x4.Slices ![0, 1] S1000x1
  slices_S1000x4_o0_2_S1000x1 : S1000x4.Slices ![0, 2] S1000x1
  shapeCasts_S1000_S1000x1 : S1000.ShapeCasts S1000x1
  concatenates_S1000x1_S1000x1_S1000x1_S1000x1_S1000x4_d1 : Shape.Concatenates [S1000x1, S1000x1, S1000x1, S1000x1] S1000x4 1
  slices_S2000000x4_S2000000x1_0_0 : S2000000x4.Slices ![0, 0] S2000000x1
  shapeCasts_S2000000x1_S2000000 : S2000000x1.ShapeCasts S2000000
  slices_S2000000x4_S2000000x3_0_1 : S2000000x4.Slices ![0, 1] S2000000x3
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2000000_S1999999_1 : S2000000.Slices ![1] S1999999
  slices_S2000000_S1999999_0 : S2000000.Slices ![0] S1999999
  concatenates_S1_S1999999_S2000000_d0 : Shape.Concatenates [S1, S1999999] S2000000 0
  bcast_S_S_ : S_.BroadcastsInDim S_ (![] : Fin 0 → Fin S_.rank)
  reduceWindows_S2000000_S2000000_w2000000s1p1999999_0 : S2000000.ReduceWindows (![2000000] : Fin 1 → Nat) ![1] ![1999999] ![0] S2000000
  h_S_ : 0 < S_.numel
  natLt_1_32 : 1 < 32
  reducesTo_S2000000_S_d0 : S2000000.ReducesTo [0] S_
  bcast_S_S120001x32x4 : S_.BroadcastsInDim S120001x32x4 (![] : Fin 0 → Fin S120001x32x4.rank)
  concatenates_S2000000x1_S2000000x1_S2000000x2_d1 : Shape.Concatenates [S2000000x1, S2000000x1] S2000000x2 1
  slices_S120001x32x4_S120000x32x4_0_0_0 : S120001x32x4.Slices ![0, 0, 0] S120000x32x4
  bcast_S_S120001x3 : S_.BroadcastsInDim S120001x3 (![] : Fin 0 → Fin S120001x3.rank)
  slices_S120001x3_S120000x3_0_0 : S120001x3.Slices ![0, 0] S120000x3
  bcast_S_S120001 : S_.BroadcastsInDim S120001 (![] : Fin 0 → Fin S120001.rank)
  slices_S120001_S120000_0 : S120001.Slices ![0] S120000
  gather_S2000000_S2000000x1_S2000000_n_0_n_n_0_1_1_wf : GatherDims.WF S2000000 S2000000x1 S2000000 [] [0] [] [0] [] 1 ![1]
  gather_S2000000x4_S2000000x1_S2000000x4_1_0_n_n_0_1_14_wf : GatherDims.WF S2000000x4 S2000000x1 S2000000x4 [1] [0] [] [0] [] 1 ![1, 4]
  scatter_S120001x32x4_S2000000x2_S2000000x4_1_01_01_1_wf : ScatterDims.WF S120001x32x4 S2000000x2 S2000000x4 [1] [0, 1] [0, 1] 1
  gather_S2000000x3_S2000000x1_S2000000x3_1_0_n_n_0_1_13_wf : GatherDims.WF S2000000x3 S2000000x1 S2000000x3 [1] [0] [] [0] [] 1 ![1, 3]
  scatter_S120001x3_S2000000x1_S2000000x3_1_0_0_1_wf : ScatterDims.WF S120001x3 S2000000x1 S2000000x3 [1] [0] [0] 1
  scatter_S120001_S2000000x1_S2000000_n_0_0_1_wf : ScatterDims.WF S120001 S2000000x1 S2000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x4.size a ≤ S2000000x4.size a
  hwx0_0 : ∀ i : grid0.Coords, EltTy.bits .f32 = 32 ∨ (Rect.block (s := S2000000x4) S1000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x4.size a ≤ S2000000x4.size a
  hwx0_1 : ∀ i : grid0.Coords, EltTy.bits .i32 = 32 ∨ (Rect.block (s := S2000000x4) S1000x4.size (cc0_transform_1 i) (hinb0_1 i)).WholeWords (EltTy.packing .i32)

variable [Facts₀]

def comparator_i32_i32_d0 : BitVec 32 × BitVec 32 → BitVec 32 × BitVec 32 → BitVec 1 :=
  fun l r =>
    let v2 := IntOp.cmpi .slt l.1 r.1
    v2
def gather_S2000000_S2000000x1_S2000000_n_0_n_n_0_1_1 : GatherDims S2000000 S2000000x1 S2000000 where
  offsetDims := []
  collapsedSliceDims := [0]
  operandBatchingDims := []
  startIndicesBatchingDims := []
  startIndexMap := [0]
  indexVectorDim := 1
  sliceSizes := ![1]
  wf := gather_S2000000_S2000000x1_S2000000_n_0_n_n_0_1_1_wf
def gather_S2000000x4_S2000000x1_S2000000x4_1_0_n_n_0_1_14 : GatherDims S2000000x4 S2000000x1 S2000000x4 where
  offsetDims := [1]
  collapsedSliceDims := [0]
  operandBatchingDims := []
  startIndicesBatchingDims := []
  startIndexMap := [0]
  indexVectorDim := 1
  sliceSizes := ![1, 4]
  wf := gather_S2000000x4_S2000000x1_S2000000x4_1_0_n_n_0_1_14_wf
def scatter_S120001x32x4_S2000000x2_S2000000x4_1_01_01_1 : ScatterDims S120001x32x4 S2000000x2 S2000000x4 where
  updateWindowDims := [1]
  insertedWindowDims := [0, 1]
  scatterDimsToOperandDims := [0, 1]
  indexVectorDim := 1
  wf := scatter_S120001x32x4_S2000000x2_S2000000x4_1_01_01_1_wf
def gather_S2000000x3_S2000000x1_S2000000x3_1_0_n_n_0_1_13 : GatherDims S2000000x3 S2000000x1 S2000000x3 where
  offsetDims := [1]
  collapsedSliceDims := [0]
  operandBatchingDims := []
  startIndicesBatchingDims := []
  startIndexMap := [0]
  indexVectorDim := 1
  sliceSizes := ![1, 3]
  wf := gather_S2000000x3_S2000000x1_S2000000x3_1_0_n_n_0_1_13_wf
def scatter_S120001x3_S2000000x1_S2000000x3_1_0_0_1 : ScatterDims S120001x3 S2000000x1 S2000000x3 where
  updateWindowDims := [1]
  insertedWindowDims := [0]
  scatterDimsToOperandDims := [0]
  indexVectorDim := 1
  wf := scatter_S120001x3_S2000000x1_S2000000x3_1_0_0_1_wf
def scatter_S120001_S2000000x1_S2000000_n_0_0_1 : ScatterDims S120001 S2000000x1 S2000000 where
  updateWindowDims := []
  insertedWindowDims := [0]
  scatterDimsToOperandDims := [0]
  indexVectorDim := 1
  wf := scatter_S120001_S2000000x1_S2000000_n_0_0_1_wf

abbrev win0_0 : Pipeline.Window sig grid0 :=
  Pipeline.Window.ofSpec (Memref.whole main_arg0) S1000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2000000x4 : Shape := ⟨2, ![2000000, 4]⟩
abbrev S3 : Shape := ⟨1, ![3]⟩
abbrev S1 : Shape := ⟨1, ![1]⟩
abbrev S2000000x3 : Shape := ⟨2, ![2000000, 3]⟩
abbrev S1x3 : Shape := ⟨2, ![1, 3]⟩
abbrev S_ : Shape := ⟨0, ![]⟩
abbrev S2000000 : Shape := ⟨1, ![2000000]⟩
abbrev S2000000x1 : Shape := ⟨2, ![2000000, 1]⟩
abbrev S1999999 : Shape := ⟨1, ![1999999]⟩
abbrev S120001x32x4 : Shape := ⟨3, ![120001, 32, 4]⟩
abbrev S2000000x2 : Shape := ⟨2, ![2000000, 2]⟩
abbrev S120000x32x4 : Shape := ⟨3, ![120000, 32, 4]⟩
abbrev S120001x3 : Shape := ⟨2, ![120001, 3]⟩
abbrev S120000x3 : Shape := ⟨2, ![120000, 3]⟩
abbrev S120001 : Shape := ⟨1, ![120001]⟩
abbrev S120000 : Shape := ⟨1, ![120000]⟩

abbrev nBuf : Space → Nat
  | .hbm => 185
  | .vmem => 0
  | .smem => 0
  | _ => 0

abbrev hbmTy0_0 (i : Nat) : BufTy := match i % 128 with
  | 0 => ⟨S2000000x4, .f32⟩
  | 1 => ⟨S3, .f32⟩
  | 2 => ⟨S3, .f32⟩
  | 3 => ⟨S3, .i32⟩
  | 4 => ⟨S1, .i1⟩
  | 5 => ⟨S2000000x3, .f32⟩
  | 6 => ⟨S1x3, .f32⟩
  | 7 => ⟨S2000000x3, .f32⟩
  | 8 => ⟨S2000000x3, .f32⟩
  | 9 => ⟨S1x3, .f32⟩
  | 10 => ⟨S2000000x3, .f32⟩
  | 11 => ⟨S2000000x3, .f32⟩
  | 12 => ⟨S2000000x3, .f32⟩
  | 13 => ⟨S2000000x3, .i32⟩
  | 14 => ⟨S_, .i32⟩
  | 15 => ⟨S2000000x3, .i32⟩
  | 16 => ⟨S2000000x3, .i1⟩
  | 17 => ⟨S1x3, .i32⟩
  | 18 => ⟨S2000000x3, .i32⟩
  | 19 => ⟨S2000000x3, .i1⟩
  | 20 => ⟨S2000000x3, .i1⟩
  | 21 => ⟨S_, .i1⟩
  | 22 => ⟨S2000000, .i1⟩
  | 23 => ⟨S2000000x1, .i32⟩
  | 24 => ⟨S2000000, .i32⟩
  | 25 => ⟨S_, .i32⟩
  | 26 => ⟨S2000000, .i32⟩
  | 27 => ⟨S2000000, .i32⟩
  | 28 => ⟨S2000000x1, .i32⟩
  | 29 => ⟨S2000000, .i32⟩
  | 30 => ⟨S_, .i32⟩
  | 31 => ⟨S2000000, .i32⟩
  | 32 => ⟨S2000000, .i32⟩
  | 33 => ⟨S2000000, .i32⟩
  | 34 => ⟨S2000000x1, .i32⟩
  | 35 => ⟨S2000000, .i32⟩
  | 36 => ⟨S2000000, .i32⟩
  | 37 => ⟨S_, .i32⟩
  | 38 => ⟨S_, .i32⟩
  | 39 => ⟨S2000000, .i32⟩
  | 40 => ⟨S2000000, .i32⟩
  | 41 => ⟨S2000000, .i32⟩
  | 42 => ⟨S2000000, .i32⟩
  | 43 => ⟨S2000000, .i32⟩
  | 44 => ⟨S_, .i32⟩
  | 45 => ⟨S2000000, .i32⟩
  | 46 => ⟨S2000000, .i1⟩
  | 47 => ⟨S_, .i32⟩
  | 48 => ⟨S2000000, .i32⟩
  | 49 => ⟨S2000000, .i32⟩
  | 50 => ⟨S2000000, .i32⟩
  | 51 => ⟨S2000000x1, .i32⟩
  | 52 => ⟨S2000000, .i32⟩
  | 53 => ⟨S2000000, .i32⟩
  | 54 => ⟨S1999999, .i32⟩
  | 55 => ⟨S1999999, .i32⟩
  | 56 => ⟨S1999999, .i1⟩
  | 57 => ⟨S2000000, .i1⟩
  | 58 => ⟨S_, .i32⟩
  | 59 => ⟨S_, .i32⟩
  | 60 => ⟨S2000000, .i32⟩
  | 61 => ⟨S2000000, .i32⟩
  | 62 => ⟨S_, .i32⟩
  | 63 => ⟨S_, .i32⟩
  | 64 => ⟨S2000000, .i32⟩
  | 65 => ⟨S2000000, .i32⟩
  | 66 => ⟨S_, .i32⟩
  | 67 => ⟨S2000000, .i32⟩
  | 68 => ⟨S2000000, .i1⟩
  | 69 => ⟨S2000000, .i1⟩
  | 70 => ⟨S_, .i32⟩
  | 71 => ⟨S_, .i32⟩
  | 72 => ⟨S2000000, .i32⟩
  | 73 => ⟨S2000000, .i32⟩
  | 74 => ⟨S2000000, .i32⟩
  | 75 => ⟨S2000000, .i32⟩
  | 76 => ⟨S2000000, .i32⟩
  | 77 => ⟨S2000000, .i32⟩
  | 78 => ⟨S2000000, .i32⟩
  | 79 => ⟨S2000000, .i32⟩
  | 80 => ⟨S_, .i32⟩
  | 81 => ⟨S2000000, .i32⟩
  | 82 => ⟨S2000000, .i1⟩
  | 83 => ⟨S_, .i32⟩
  | 84 => ⟨S2000000, .i32⟩
  | 85 => ⟨S2000000, .i32⟩
  | 86 => ⟨S2000000, .i32⟩
  | 87 => ⟨S2000000x1, .i32⟩
  | 88 => ⟨S2000000, .i32⟩
  | 89 => ⟨S2000000, .i1⟩
  | 90 => ⟨S2000000, .i32⟩
  | 91 => ⟨S_, .i32⟩
  | 92 => ⟨S_, .i32⟩
  | 93 => ⟨S_, .i32⟩
  | 94 => ⟨S_, .i32⟩
  | 95 => ⟨S_, .i32⟩
  | 96 => ⟨S2000000, .i32⟩
  | 97 => ⟨S2000000, .i1⟩
  | 98 => ⟨S2000000, .i1⟩
  | 99 => ⟨S_, .i32⟩
  | 100 => ⟨S2000000, .i32⟩
  | 101 => ⟨S2000000, .i1⟩
  | 102 => ⟨S2000000, .i1⟩
  | 103 => ⟨S_, .i32⟩
  | 104 => ⟨S_, .i32⟩
  | 105 => ⟨S2000000, .i32⟩
  | 106 => ⟨S2000000, .i32⟩
  | 107 => ⟨S_, .i32⟩
  | 108 => ⟨S_, .i32⟩
  | 109 => ⟨S2000000, .i32⟩
  | 110 => ⟨S2000000, .i32⟩
  | 111 => ⟨S_, .f32⟩
  | 112 => ⟨S120001x32x4, .f32⟩
  | 113 => ⟨S_, .i32⟩
  | 114 => ⟨S2000000, .i32⟩
  | 115 => ⟨S2000000, .i1⟩
  | 116 => ⟨S_, .i32⟩
  | 117 => ⟨S2000000, .i32⟩
  | 118 => ⟨S2000000, .i32⟩
  | 119 => ⟨S2000000, .i32⟩
  | 120 => ⟨S2000000x1, .i32⟩
  | 121 => ⟨S2000000x4, .f32⟩
  | 122 => ⟨S_, .i32⟩
  | 123 => ⟨S2000000, .i32⟩
  | 124 => ⟨S2000000, .i1⟩
  | 125 => ⟨S_, .i32⟩
  | 126 => ⟨S2000000, .i32⟩
  | 127 => ⟨S2000000, .i32⟩
  | _ => ⟨S2000000x4, .f32⟩

abbrev hbmTy0_1 (i : Nat) : BufTy := match i % 128 with
  | 0 => ⟨S2000000, .i32⟩
  | 1 => ⟨S_, .i32⟩
  | 2 => ⟨S2000000, .i32⟩
  | 3 => ⟨S2000000, .i1⟩
  | 4 => ⟨S_, .i32⟩
  | 5 => ⟨S2000000, .i32⟩
  | 6 => ⟨S2000000, .i32⟩
  | 7 => ⟨S2000000, .i32⟩
  | 8 => ⟨S2000000x1, .i32⟩
  | 9 => ⟨S2000000x1, .i32⟩
  | 10 => ⟨S2000000x2, .i32⟩
  | 11 => ⟨S120001x32x4, .f32⟩
  | 12 => ⟨S120000x32x4, .f32⟩
  | 13 => ⟨S_, .i32⟩
  | 14 => ⟨S2000000, .i32⟩
  | 15 => ⟨S2000000, .i1⟩
  | 16 => ⟨S_, .i32⟩
  | 17 => ⟨S2000000, .i32⟩
  | 18 => ⟨S2000000, .i32⟩
  | 19 => ⟨S2000000, .i32⟩
  | 20 => ⟨S2000000x1, .i32⟩
  | 21 => ⟨S2000000x3, .i32⟩
  | 22 => ⟨S2000000x3, .i32⟩
  | 23 => ⟨S2000000, .i1⟩
  | 24 => ⟨S_, .i32⟩
  | 25 => ⟨S2000000, .i32⟩
  | 26 => ⟨S2000000, .i1⟩
  | 27 => ⟨S2000000, .i1⟩
  | 28 => ⟨S_, .i32⟩
  | 29 => ⟨S_, .i32⟩
  | 30 => ⟨S2000000, .i32⟩
  | 31 => ⟨S2000000, .i32⟩
  | 32 => ⟨S_, .i32⟩
  | 33 => ⟨S120001x3, .i32⟩
  | 34 => ⟨S_, .i32⟩
  | 35 => ⟨S2000000, .i32⟩
  | 36 => ⟨S2000000, .i1⟩
  | 37 => ⟨S_, .i32⟩
  | 38 => ⟨S2000000, .i32⟩
  | 39 => ⟨S2000000, .i32⟩
  | 40 => ⟨S2000000, .i32⟩
  | 41 => ⟨S2000000x1, .i32⟩
  | 42 => ⟨S120001x3, .i32⟩
  | 43 => ⟨S120000x3, .i32⟩
  | 44 => ⟨S_, .i32⟩
  | 45 => ⟨S120001, .i32⟩
  | 46 => ⟨S2000000, .i32⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S2000000x1, .i32⟩
  | 55 => ⟨S120001, .i32⟩
  | 56 => ⟨S120000, .i32⟩
  | _ => ⟨S2000000x4, .f32⟩

abbrev hbmTy (i : Nat) : BufTy := match i / 128 with
  | 0 => hbmTy0_0 i
  | 1 => hbmTy0_1 i
  | _ => ⟨S2000000x4, .f32⟩

abbrev bufTy : (tb : Table) → Fin (tcTables nBuf tb) → BufTy
  | .hbm, ⟨i, _⟩ => hbmTy i
  | _, _ => ⟨S2000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_c : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_6 : Ref sig .tc := ⟨.hbm, 37, rfl⟩
abbrev main_call0_v0 : Ref sig .tc := ⟨.hbm, 38, rfl⟩
abbrev main_call0_v1 : Ref sig .tc := ⟨.hbm, 39, rfl⟩
abbrev main_v28 : Ref sig .tc := ⟨.hbm, 40, rfl⟩
abbrev main_call1_v0 : Ref sig .tc := ⟨.hbm, 41, rfl⟩
abbrev main_call1_v1_0 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_c_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_9 : Ref sig .tc := ⟨.hbm, 58, rfl⟩
abbrev main_call2_v0 : Ref sig .tc := ⟨.hbm, 59, rfl⟩
abbrev main_call2_v1 : Ref sig .tc := ⟨.hbm, 60, rfl⟩
abbrev main_v42 : Ref sig .tc := ⟨.hbm, 61, rfl⟩
abbrev main_call3_c : Ref sig .tc := ⟨.hbm, 62, rfl⟩
abbrev main_call3_v0 : Ref sig .tc := ⟨.hbm, 63, rfl⟩
abbrev main_v43 : Ref sig .tc := ⟨.hbm, 64, rfl⟩
abbrev main_v44 : Ref sig .tc := ⟨.hbm, 65, rfl⟩
abbrev main_c_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_11 : Ref sig .tc := ⟨.hbm, 70, rfl⟩
abbrev main_call4_v0 : Ref sig .tc := ⟨.hbm, 71, rfl⟩
abbrev main_call4_v1 : Ref sig .tc := ⟨.hbm, 72, rfl⟩
abbrev main_v48 : Ref sig .tc := ⟨.hbm, 73, rfl⟩
abbrev main_call5_v0 : Ref sig .tc := ⟨.hbm, 74, rfl⟩
abbrev main_call5_v1_0 : Ref sig .tc := ⟨.hbm, 75, rfl⟩
abbrev main_v49 : Ref sig .tc := ⟨.hbm, 76, rfl⟩
abbrev main_call6_v0 : Ref sig .tc := ⟨.hbm, 77, rfl⟩
abbrev main_call6_v1_0 : Ref sig .tc := ⟨.hbm, 78, rfl⟩
abbrev main_v50 : Ref sig .tc := ⟨.hbm, 79, rfl⟩
abbrev main_c_12 : Ref sig .tc := ⟨.hbm, 80, rfl⟩
abbrev main_v51 : Ref sig .tc := ⟨.hbm, 81, rfl⟩
abbrev main_v52 : Ref sig .tc := ⟨.hbm, 82, rfl⟩
abbrev main_c_13 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_14 : Ref sig .tc := ⟨.hbm, 91, rfl⟩
abbrev main_v60 : Ref sig .tc := ⟨.hbm, 92, rfl⟩
abbrev main_c_15 : Ref sig .tc := ⟨.hbm, 93, rfl⟩
abbrev main_v61 : Ref sig .tc := ⟨.hbm, 94, rfl⟩
abbrev main_c_16 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_17 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_18 : Ref sig .tc := ⟨.hbm, 103, rfl⟩
abbrev main_call7_v0 : Ref sig .tc := ⟨.hbm, 104, rfl⟩
abbrev main_call7_v1 : Ref sig .tc := ⟨.hbm, 105, rfl⟩
abbrev main_v68 : Ref sig .tc := ⟨.hbm, 106, rfl⟩
abbrev main_c_19 : Ref sig .tc := ⟨.hbm, 107, rfl⟩
abbrev main_call8_v0 : Ref sig .tc := ⟨.hbm, 108, rfl⟩
abbrev main_call8_v1 : Ref sig .tc := ⟨.hbm, 109, rfl⟩
abbrev main_v69 : Ref sig .tc := ⟨.hbm, 110, rfl⟩
abbrev main_cst_20 : Ref sig .tc := ⟨.hbm, 111, rfl⟩
abbrev main_v70 : Ref sig .tc := ⟨.hbm, 112, rfl⟩
abbrev main_c_21 : Ref sig .tc := ⟨.hbm, 113, rfl⟩
abbrev main_v71 : Ref sig .tc := ⟨.hbm, 114, rfl⟩
abbrev main_v72 : Ref sig .tc := ⟨.hbm, 115, rfl⟩
abbrev main_c_22 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_c_23 : Ref sig .tc := ⟨.hbm, 122, rfl⟩
abbrev main_v78 : Ref sig .tc := ⟨.hbm, 123, rfl⟩
abbrev main_v79 : Ref sig .tc := ⟨.hbm, 124, rfl⟩
abbrev main_c_24 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_c_25 : Ref sig .tc := ⟨.hbm, 129, rfl⟩
abbrev main_v83 : Ref sig .tc := ⟨.hbm, 130, rfl⟩
abbrev main_v84 : Ref sig .tc := ⟨.hbm, 131, rfl⟩
abbrev main_c_26 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_c_27 : Ref sig .tc := ⟨.hbm, 141, rfl⟩
abbrev main_v93 : Ref sig .tc := ⟨.hbm, 142, rfl⟩
abbrev main_v94 : Ref sig .tc := ⟨.hbm, 143, rfl⟩
abbrev main_c_28 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_c_29 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_c_30 : Ref sig .tc := ⟨.hbm, 156, rfl⟩
abbrev main_call9_v0 : Ref sig .tc := ⟨.hbm, 157, rfl⟩
abbrev main_call9_v1 : Ref sig .tc := ⟨.hbm, 158, rfl⟩
abbrev main_v105 : Ref sig .tc := ⟨.hbm, 159, rfl⟩
abbrev main_c_31 : Ref sig .tc := ⟨.hbm, 160, rfl⟩
abbrev main_v106 : Ref sig .tc := ⟨.hbm, 161, rfl⟩
abbrev main_c_32 : Ref sig .tc := ⟨.hbm, 162, rfl⟩
abbrev main_v107 : Ref sig .tc := ⟨.hbm, 163, rfl⟩
abbrev main_v108 : Ref sig .tc := ⟨.hbm, 164, rfl⟩
abbrev main_c_33 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_c_34 : Ref sig .tc := ⟨.hbm, 172, rfl⟩
abbrev main_v115 : Ref sig .tc := ⟨.hbm, 173, rfl⟩
abbrev main_v116 : Ref sig .tc := ⟨.hbm, 174, rfl⟩
abbrev main_c_35 : Ref sig .tc := ⟨.hbm, 175, rfl⟩
abbrev main_v117 : Ref sig .tc := ⟨.hbm, 176, rfl⟩
abbrev main_v118 : Ref sig .tc := ⟨.hbm, 177, rfl⟩
abbrev main_c_36 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩

abbrev nD : Nat := 1
abbrev τ : Topo := Topo.v7x

variable {F : FTy → Type} [FloatOps F]

class Facts₀ : Prop where
  slices_S2000000x4_S2000000x3_0_0 : S2000000x4.Slices ![0, 0] S2000000x3
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  bcast_S_S2000000x3 : S_.BroadcastsInDim S2000000x3 (![] : Fin 0 → Fin S2000000x3.rank)
  reducesTo_S2000000x3_S2000000_d1 : S2000000x3.ReducesTo [1] S2000000
  h_S_ : 0 < S_.numel
  slices_S2000000x3_S2000000x1_0_2 : S2000000x3.Slices ![0, 2] S2000000x1
  shapeCasts_S2000000x1_S2000000 : S2000000x1.ShapeCasts S2000000
  bcast_S_S2000000 : S_.BroadcastsInDim S2000000 (![] : Fin 0 → Fin S2000000.rank)
  slices_S2000000x3_S2000000x1_0_1 : S2000000x3.Slices ![0, 1] S2000000x1
  slices_S2000000x3_S2000000x1_0_0 : S2000000x3.Slices ![0, 0] S2000000x1
  bcast_S2000000_S2000000x1_0 : S2000000.BroadcastsInDim S2000000x1 (![0] : Fin 1 → Fin S2000000x1.rank)
  slices_S2000000_S1999999_1 : S2000000.Slices ![1] S1999999
  slices_S2000000_S1999999_0 : S2000000.Slices ![0] S1999999
  concatenates_S1_S1999999_S2000000_d0 : Shape.Concatenates [S1, S1999999] S2000000 0
  bcast_S_S_ : S_.BroadcastsInDim S_ (![] : Fin 0 → Fin S_.rank)
  reduceWindows_S2000000_S2000000_w2000000s1p1999999_0 : S2000000.ReduceWindows (![2000000] : Fin 1 → Nat) ![1] ![1999999] ![0] S2000000
  natLt_1_32 : 1 < 32
  reducesTo_S2000000_S_d0 : S2000000.ReducesTo [0] S_
  bcast_S_S120001x32x4 : S_.BroadcastsInDim S120001x32x4 (![] : Fin 0 → Fin S120001x32x4.rank)
  concatenates_S2000000x1_S2000000x1_S2000000x2_d1 : Shape.Concatenates [S2000000x1, S2000000x1] S2000000x2 1
  slices_S120001x32x4_S120000x32x4_0_0_0 : S120001x32x4.Slices ![0, 0, 0] S120000x32x4
  bcast_S_S120001x3 : S_.BroadcastsInDim S120001x3 (![] : Fin 0 → Fin S120001x3.rank)
  slices_S120001x3_S120000x3_0_0 : S120001x3.Slices ![0, 0] S120000x3
  bcast_S_S120001 : S_.BroadcastsInDim S120001 (![] : Fin 0 → Fin S120001.rank)
  slices_S120001_S120000_0 : S120001.Slices ![0] S120000
  gather_S2000000_S2000000x1_S2000000_n_0_n_n_0_1_1_wf : GatherDims.WF S2000000 S2000000x1 S2000000 [] [0] [] [0] [] 1 ![1]
  gather_S2000000x4_S2000000x1_S2000000x4_1_0_n_n_0_1_14_wf : GatherDims.WF S2000000x4 S2000000x1 S2000000x4 [1] [0] [] [0] [] 1 ![1, 4]
  scatter_S120001x32x4_S2000000x2_S2000000x4_1_01_01_1_wf : ScatterDims.WF S120001x32x4 S2000000x2 S2000000x4 [1] [0, 1] [0, 1] 1
  gather_S2000000x3_S2000000x1_S2000000x3_1_0_n_n_0_1_13_wf : GatherDims.WF S2000000x3 S2000000x1 S2000000x3 [1] [0] [] [0] [] 1 ![1, 3]
  scatter_S120001x3_S2000000x1_S2000000x3_1_0_0_1_wf : ScatterDims.WF S120001x3 S2000000x1 S2000000x3 [1] [0] [0] 1
  scatter_S120001_S2000000x1_S2000000_n_0_0_1_wf : ScatterDims.WF S120001 S2000000x1 S2000000 [] [0] [0] 1

variable [Facts₀]

def comparator_i32_i32_d0 : BitVec 32 × BitVec 32 → BitVec 32 × BitVec 32 → BitVec 1 :=
  fun l r =>
    let v2 := IntOp.cmpi .slt l.1 r.1
    v2
def gather_S2000000_S2000000x1_S2000000_n_0_n_n_0_1_1 : GatherDims S2000000 S2000000x1 S2000000 where
  offsetDims := []
  collapsedSliceDims := [0]
  operandBatchingDims := []
  startIndicesBatchingDims := []
  startIndexMap := [0]
  indexVectorDim := 1
  sliceSizes := ![1]
  wf := gather_S2000000_S2000000x1_S2000000_n_0_n_n_0_1_1_wf
def gather_S2000000x4_S2000000x1_S2000000x4_1_0_n_n_0_1_14 : GatherDims S2000000x4 S2000000x1 S2000000x4 where
  offsetDims := [1]
  collapsedSliceDims := [0]
  operandBatchingDims := []
  startIndicesBatchingDims := []
  startIndexMap := [0]
  indexVectorDim := 1
  sliceSizes := ![1, 4]
  wf := gather_S2000000x4_S2000000x1_S2000000x4_1_0_n_n_0_1_14_wf
def scatter_S120001x32x4_S2000000x2_S2000000x4_1_01_01_1 : ScatterDims S120001x32x4 S2000000x2 S2000000x4 where
  updateWindowDims := [1]
  insertedWindowDims := [0, 1]
  scatterDimsToOperandDims := [0, 1]
  indexVectorDim := 1
  wf := scatter_S120001x32x4_S2000000x2_S2000000x4_1_01_01_1_wf
def gather_S2000000x3_S2000000x1_S2000000x3_1_0_n_n_0_1_13 : GatherDims S2000000x3 S2000000x1 S2000000x3 where
  offsetDims := [1]
  collapsedSliceDims := [0]
  operandBatchingDims := []
  startIndicesBatchingDims := []
  startIndexMap := [0]
  indexVectorDim := 1
  sliceSizes := ![1, 3]
  wf := gather_S2000000x3_S2000000x1_S2000000x3_1_0_n_n_0_1_13_wf
def scatter_S120001x3_S2000000x1_S2000000x3_1_0_0_1 : ScatterDims S120001x3 S2000000x1 S2000000x3 where
  updateWindowDims := [1]
  insertedWindowDims := [0]
  scatterDimsToOperandDims := [0]
  indexVectorDim := 1
  wf := scatter_S120001x3_S2000000x1_S2000000x3_1_0_0_1_wf
def scatter_S120001_S2000000x1_S2000000_n_0_0_1 : ScatterDims S120001 S2000000x1 S2000000 where
  updateWindowDims := []
  insertedWindowDims := [0]
  scatterDimsToOperandDims := [0]
  indexVectorDim := 1
  wf := scatter_S120001_S2000000x1_S2000000_n_0_0_1_wf

class Facts : Prop extends Facts₀ where

variable [Facts]
-- ==== Proof.FrameBits.lean ====
/-
  The frame run of `Kernel`: @main is one host line, the kernel region over a grid of 2000 points, and sixteen
  stretches of host lines. The region stages block t of the argument array (rows 1000·t … 1000·t + 999, all four
  columns) and writes block t of the result array; the body loads the staged block, computes, and stores one whole
  1000×4 block, so after the body the output's staging buffer holds the body's payload of the input block. The host
  lines after the region write neither of the two arrays the region moves, so the argument array ends as launched,
  and every other buffer ends at the fold of the later lines over what the region left.
-/
import proofs.«172231_j28063316312325_2_alg».proof.Proof.Gen.Kernel.Launch
import proofs.«172231_j28063316312325_2_alg».proof.Proof.Gen.Kernel.Skeleton
import proofs.«172231_j28063316312325_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The sixteen stretches of host lines after the region, in order. -/
abbrev tails : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]

/-- The buffers' contents when the region is entered: the one host line before it run over the launch memory. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor

/-- @main is the line before the region, the region, and the region's continuation by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tails (F := F)).map StableHlo.seq)) :=
  Pipeline.hmain_around cfgs 0 defs₀ 𝒱₀ m main [hostOps0] tails (by simp only [List.Forall]; exact hostOps0_sub)
    (by simp only [List.Forall]; exact hostOps0_fresh) main_chain

/-- Each later line touches unscoped TensorCore buffers only. -/
theorem sfx_sub : ∀ ops ∈ (tails : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)

/-- They allocate nothing. -/
theorem sfx_fresh : ∀ ops ∈ (tails : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop

/-- No line of a stretch writes either array the region moves: each writes its own result buffer only. -/
theorem hostOps1_keeps : (hostOps1 : List (HloOp τ sig (Elt F))).Forall fun op =>
    Proc.devRef .tc main_arg0 ∉ op.writes ∧ Proc.devRef .tc main_v0 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_keeps : (hostOps1_1 : List (HloOp τ sig (Elt F))).Forall fun op =>
    Proc.devRef .tc main_arg0 ∉ op.writes ∧ Proc.devRef .tc main_v0 ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_keeps : (hostOps1_2 : List (HloOp τ sig (Elt F))).Forall fun op =>
    Proc.devRef .tc main_arg0 ∉ op.writes ∧ Proc.devRef .tc main_v0 ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_keeps : (hostOps1_3 : List (HloOp τ sig (Elt F))).Forall fun op =>
    Proc.devRef .tc main_arg0 ∉ op.writes ∧ Proc.devRef .tc main_v0 ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_keeps : (hostOps1_4 : List (HloOp τ sig (Elt F))).Forall fun op =>
    Proc.devRef .tc main_arg0 ∉ op.writes ∧ Proc.devRef .tc main_v0 ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_keeps : (hostOps1_5 : List (HloOp τ sig (Elt F))).Forall fun op =>
    Proc.devRef .tc main_arg0 ∉ op.writes ∧ Proc.devRef .tc main_v0 ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_keeps : (hostOps1_6 : List (HloOp τ sig (Elt F))).Forall fun op =>
    Proc.devRef .tc main_arg0 ∉ op.writes ∧ Proc.devRef .tc main_v0 ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_7_keeps : (hostOps1_7 : List (HloOp τ sig (Elt F))).Forall fun op =>
    Proc.devRef .tc main_arg0 ∉ op.writes ∧ Proc.devRef .tc main_v0 ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_8_keeps : (hostOps1_8 : List (HloOp τ sig (Elt F))).Forall fun op =>
    Proc.devRef .tc main_arg0 ∉ op.writes ∧ Proc.devRef .tc main_v0 ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_9_keeps : (hostOps1_9 : List (HloOp τ sig (Elt F))).Forall fun op =>
    Proc.devRef .tc main_arg0 ∉ op.writes ∧ Proc.devRef .tc main_v0 ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_10_keeps : (hostOps1_10 : List (HloOp τ sig (Elt F))).Forall fun op =>
    Proc.devRef .tc main_arg0 ∉ op.writes ∧ Proc.devRef .tc main_v0 ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_11_keeps : (hostOps1_11 : List (HloOp τ sig (Elt F))).Forall fun op =>
    Proc.devRef .tc main_arg0 ∉ op.writes ∧ Proc.devRef .tc main_v0 ∉ op.writes := by
  simp only [hostOps1_11, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_12_keeps : (hostOps1_12 : List (HloOp τ sig (Elt F))).Forall fun op =>
    Proc.devRef .tc main_arg0 ∉ op.writes ∧ Proc.devRef .tc main_v0 ∉ op.writes := by
  simp only [hostOps1_12, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_13_keeps : (hostOps1_13 : List (HloOp τ sig (Elt F))).Forall fun op =>
    Proc.devRef .tc main_arg0 ∉ op.writes ∧ Proc.devRef .tc main_v0 ∉ op.writes := by
  simp only [hostOps1_13, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_14_keeps : (hostOps1_14 : List (HloOp τ sig (Elt F))).Forall fun op =>
    Proc.devRef .tc main_arg0 ∉ op.writes ∧ Proc.devRef .tc main_v0 ∉ op.writes := by
  simp only [hostOps1_14, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_15_keeps : (hostOps1_15 : List (HloOp τ sig (Elt F))).Forall fun op =>
    Proc.devRef .tc main_arg0 ∉ op.writes ∧ Proc.devRef .tc main_v0 ∉ op.writes := by
  simp only [hostOps1_15, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem sfx_keeps : ∀ ops ∈ (tails : List (List (HloOp τ sig (Elt F)))), ∀ op ∈ ops,
    ∀ w, Proc.devRef .tc (Pipeline.arrRef spec0 w) ∉ op.writes := by
  intro ops hops op hop
  have key : Proc.devRef .tc main_arg0 ∉ op.writes ∧ Proc.devRef .tc main_v0 ∉ op.writes := by
    simp only [List.mem_cons, List.mem_nil_iff, or_false] at hops
    rcases hops with rfl | rfl | rfl | rfl | rfl | rfl | rfl | rfl | rfl | rfl | rfl | rfl | rfl | rfl | rfl | rfl
    · exact (List.forall_iff_forall_mem.mp hostOps1_keeps) op hop
    · exact (List.forall_iff_forall_mem.mp hostOps1_1_keeps) op hop
    · exact (List.forall_iff_forall_mem.mp hostOps1_2_keeps) op hop
    · exact (List.forall_iff_forall_mem.mp hostOps1_3_keeps) op hop
    · exact (List.forall_iff_forall_mem.mp hostOps1_4_keeps) op hop
    · exact (List.forall_iff_forall_mem.mp hostOps1_5_keeps) op hop
    · exact (List.forall_iff_forall_mem.mp hostOps1_6_keeps) op hop
    · exact (List.forall_iff_forall_mem.mp hostOps1_7_keeps) op hop
    · exact (List.forall_iff_forall_mem.mp hostOps1_8_keeps) op hop
    · exact (List.forall_iff_forall_mem.mp hostOps1_9_keeps) op hop
    · exact (List.forall_iff_forall_mem.mp hostOps1_10_keeps) op hop
    · exact (List.forall_iff_forall_mem.mp hostOps1_11_keeps) op hop
    · exact (List.forall_iff_forall_mem.mp hostOps1_12_keeps) op hop
    · exact (List.forall_iff_forall_mem.mp hostOps1_13_keeps) op hop
    · exact (List.forall_iff_forall_mem.mp hostOps1_14_keeps) op hop
    · exact (List.forall_iff_forall_mem.mp hostOps1_15_keeps) op hop
  intro w
  match w with
  | ⟨0, _⟩ => exact key.1
  | ⟨1, _⟩ => exact key.2

/-- The host line before the region does not write the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tails))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The body -/

abbrev r0_0 : Rect S1000x4 := Rect.unit (s := S1000x4) ![0, 0] S1000x4.size inb_S1000x4_S1000x4_0_0

/-- What the body stores into the output's staging buffer, as a function of the loaded input block. -/
def pay (x0 : Vec F S1000x4 .f32) : IVec S1000x4 32 :=
  k0_pay1 (k0_pay2 x0) (k0_pay3 x0) (k0_pay4 x0) (k0_pay5 x0) (k0_pay6 x0)

/-- The output's staging buffer after the body: its one store, of the whole block. -/
def out0_1 (x0 : Vec F S1000x4 .f32) : Vec F S1000x4 .i32 :=
  View.canon [⟨r0_0, pay (View.ld x0 r0_0)⟩]

theorem cover0_1 (p0 : Vec F S1000x4 .i32) (y : S1000x4.Idx) :
    ∃ pc ∈ ([⟨r0_0, p0⟩] : List (View.Piece (Elt F) S1000x4 .i32)), y ∈ pc.1.set :=
  View.cover_of_tiled [⟨r0_0, p0⟩] S1000x4.size (by rfl) y

set_option maxHeartbeats 1000000 in
/-- The body on whole staging memrefs: the input's buffer is read and kept, the output's ends at `out0_1` of the input's. -/
theorem sound_kernel (c : Dev nD) (E : Set ℕ) (i : grid0.Coords) (arg1 : Memref sig .tc .vmem S1000x4 .f32) (harg1 : arg1.IsWhole) (arg2 : Memref sig .tc .vmem S1000x4 .i32) (harg2 : arg2.IsWhole)
    (x0 : Vec F S1000x4 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__hash_kernel i arg1 harg1 arg2 harg2) K := by
  simp only [cc0__hash_kernel_eq_skeleton]; unfold cc0__hash_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the two arrays the region moves end at what the pipeline
    computes from the proof data, every other unscoped buffer at the later lines' fold over what the region left. -/
theorem run_main : θ_run defs (onTc (τ := τ) (main (F := F))) (s₀ m ρ) (Pipeline.FramePost cfgs (dats m) 0 (Pipeline.afterTail₀ cfgs (dats m) 0 (V0 m) tails)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tails) (hsub := sfx_sub) (hfresh := sfx_fresh) (hkeep := sfx_keeps)
    (hmain := hmain m Variants.none) (hA := A_eq m) (hΦ := fun _ _ => rfl)

/-- The frame: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.FrameIdeal.lean ====
/-
  The frame run of `KernelIdeal`: @main is one host line, the kernel region over a grid of 2000 points, and sixteen
  stretches of host lines. The region stages block t of the argument array (rows 1000·t … 1000·t + 999, all four
  columns) and writes block t of the result array; the body loads the staged block, computes, and stores one whole
  1000×4 block, so after the body the output's staging buffer holds the body's payload of the input block. The host
  lines after the region write neither of the two arrays the region moves, so the argument array ends as launched,
  and every other buffer ends at the fold of the later lines over what the region left.
-/
import proofs.«172231_j28063316312325_2_alg».proof.Proof.Gen.KernelIdeal.Launch
import proofs.«172231_j28063316312325_2_alg».proof.Proof.Gen.KernelIdeal.Skeleton
import proofs.«172231_j28063316312325_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The sixteen stretches of host lines after the region, in order. -/
abbrev tails : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]

/-- The buffers' contents when the region is entered: the one host line before it run over the launch memory. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor

/-- @main is the line before the region, the region, and the region's continuation by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tails (F := F)).map StableHlo.seq)) :=
  Pipeline.hmain_around cfgs 0 defs₀ 𝒱₀ m main [hostOps0] tails (by simp only [List.Forall]; exact hostOps0_sub)
    (by simp only [List.Forall]; exact hostOps0_fresh) main_chain

/-- Each later line touches unscoped TensorCore buffers only. -/
theorem sfx_sub : ∀ ops ∈ (tails : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)

/-- They allocate nothing. -/
theorem sfx_fresh : ∀ ops ∈ (tails : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop

/-- No line of a stretch writes either array the region moves: each writes its own result buffer only. -/
theorem hostOps1_keeps : (hostOps1 : List (HloOp τ sig (Elt F))).Forall fun op =>
    Proc.devRef .tc main_arg0 ∉ op.writes ∧ Proc.devRef .tc main_v0 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_keeps : (hostOps1_1 : List (HloOp τ sig (Elt F))).Forall fun op =>
    Proc.devRef .tc main_arg0 ∉ op.writes ∧ Proc.devRef .tc main_v0 ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_keeps : (hostOps1_2 : List (HloOp τ sig (Elt F))).Forall fun op =>
    Proc.devRef .tc main_arg0 ∉ op.writes ∧ Proc.devRef .tc main_v0 ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_keeps : (hostOps1_3 : List (HloOp τ sig (Elt F))).Forall fun op =>
    Proc.devRef .tc main_arg0 ∉ op.writes ∧ Proc.devRef .tc main_v0 ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_keeps : (hostOps1_4 : List (HloOp τ sig (Elt F))).Forall fun op =>
    Proc.devRef .tc main_arg0 ∉ op.writes ∧ Proc.devRef .tc main_v0 ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_keeps : (hostOps1_5 : List (HloOp τ sig (Elt F))).Forall fun op =>
    Proc.devRef .tc main_arg0 ∉ op.writes ∧ Proc.devRef .tc main_v0 ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_keeps : (hostOps1_6 : List (HloOp τ sig (Elt F))).Forall fun op =>
    Proc.devRef .tc main_arg0 ∉ op.writes ∧ Proc.devRef .tc main_v0 ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_7_keeps : (hostOps1_7 : List (HloOp τ sig (Elt F))).Forall fun op =>
    Proc.devRef .tc main_arg0 ∉ op.writes ∧ Proc.devRef .tc main_v0 ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_8_keeps : (hostOps1_8 : List (HloOp τ sig (Elt F))).Forall fun op =>
    Proc.devRef .tc main_arg0 ∉ op.writes ∧ Proc.devRef .tc main_v0 ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_9_keeps : (hostOps1_9 : List (HloOp τ sig (Elt F))).Forall fun op =>
    Proc.devRef .tc main_arg0 ∉ op.writes ∧ Proc.devRef .tc main_v0 ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_10_keeps : (hostOps1_10 : List (HloOp τ sig (Elt F))).Forall fun op =>
    Proc.devRef .tc main_arg0 ∉ op.writes ∧ Proc.devRef .tc main_v0 ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_11_keeps : (hostOps1_11 : List (HloOp τ sig (Elt F))).Forall fun op =>
    Proc.devRef .tc main_arg0 ∉ op.writes ∧ Proc.devRef .tc main_v0 ∉ op.writes := by
  simp only [hostOps1_11, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_12_keeps : (hostOps1_12 : List (HloOp τ sig (Elt F))).Forall fun op =>
    Proc.devRef .tc main_arg0 ∉ op.writes ∧ Proc.devRef .tc main_v0 ∉ op.writes := by
  simp only [hostOps1_12, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_13_keeps : (hostOps1_13 : List (HloOp τ sig (Elt F))).Forall fun op =>
    Proc.devRef .tc main_arg0 ∉ op.writes ∧ Proc.devRef .tc main_v0 ∉ op.writes := by
  simp only [hostOps1_13, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_14_keeps : (hostOps1_14 : List (HloOp τ sig (Elt F))).Forall fun op =>
    Proc.devRef .tc main_arg0 ∉ op.writes ∧ Proc.devRef .tc main_v0 ∉ op.writes := by
  simp only [hostOps1_14, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_15_keeps : (hostOps1_15 : List (HloOp τ sig (Elt F))).Forall fun op =>
    Proc.devRef .tc main_arg0 ∉ op.writes ∧ Proc.devRef .tc main_v0 ∉ op.writes := by
  simp only [hostOps1_15, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem sfx_keeps : ∀ ops ∈ (tails : List (List (HloOp τ sig (Elt F)))), ∀ op ∈ ops,
    ∀ w, Proc.devRef .tc (Pipeline.arrRef spec0 w) ∉ op.writes := by
  intro ops hops op hop
  have key : Proc.devRef .tc main_arg0 ∉ op.writes ∧ Proc.devRef .tc main_v0 ∉ op.writes := by
    simp only [List.mem_cons, List.mem_nil_iff, or_false] at hops
    rcases hops with rfl | rfl | rfl | rfl | rfl | rfl | rfl | rfl | rfl | rfl | rfl | rfl | rfl | rfl | rfl | rfl
    · exact (List.forall_iff_forall_mem.mp hostOps1_keeps) op hop
    · exact (List.forall_iff_forall_mem.mp hostOps1_1_keeps) op hop
    · exact (List.forall_iff_forall_mem.mp hostOps1_2_keeps) op hop
    · exact (List.forall_iff_forall_mem.mp hostOps1_3_keeps) op hop
    · exact (List.forall_iff_forall_mem.mp hostOps1_4_keeps) op hop
    · exact (List.forall_iff_forall_mem.mp hostOps1_5_keeps) op hop
    · exact (List.forall_iff_forall_mem.mp hostOps1_6_keeps) op hop
    · exact (List.forall_iff_forall_mem.mp hostOps1_7_keeps) op hop
    · exact (List.forall_iff_forall_mem.mp hostOps1_8_keeps) op hop
    · exact (List.forall_iff_forall_mem.mp hostOps1_9_keeps) op hop
    · exact (List.forall_iff_forall_mem.mp hostOps1_10_keeps) op hop
    · exact (List.forall_iff_forall_mem.mp hostOps1_11_keeps) op hop
    · exact (List.forall_iff_forall_mem.mp hostOps1_12_keeps) op hop
    · exact (List.forall_iff_forall_mem.mp hostOps1_13_keeps) op hop
    · exact (List.forall_iff_forall_mem.mp hostOps1_14_keeps) op hop
    · exact (List.forall_iff_forall_mem.mp hostOps1_15_keeps) op hop
  intro w
  match w with
  | ⟨0, _⟩ => exact key.1
  | ⟨1, _⟩ => exact key.2

/-- The host line before the region does not write the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tails))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The body -/

abbrev r0_0 : Rect S1000x4 := Rect.unit (s := S1000x4) ![0, 0] S1000x4.size inb_S1000x4_S1000x4_0_0

/-- What the body stores into the output's staging buffer, as a function of the loaded input block. -/
def pay (x0 : Vec F S1000x4 .f32) : IVec S1000x4 32 :=
  k0_pay1 (k0_pay2 x0) (k0_pay3 x0) (k0_pay4 x0) (k0_pay5 x0) (k0_pay6 x0)

/-- The output's staging buffer after the body: its one store, of the whole block. -/
def out0_1 (x0 : Vec F S1000x4 .f32) : Vec F S1000x4 .i32 :=
  View.canon [⟨r0_0, pay (View.ld x0 r0_0)⟩]

theorem cover0_1 (p0 : Vec F S1000x4 .i32) (y : S1000x4.Idx) :
    ∃ pc ∈ ([⟨r0_0, p0⟩] : List (View.Piece (Elt F) S1000x4 .i32)), y ∈ pc.1.set :=
  View.cover_of_tiled [⟨r0_0, p0⟩] S1000x4.size (by rfl) y

set_option maxHeartbeats 1000000 in
/-- The body on whole staging memrefs: the input's buffer is read and kept, the output's ends at `out0_1` of the input's. -/
theorem sound_kernel (c : Dev nD) (E : Set ℕ) (i : grid0.Coords) (arg1 : Memref sig .tc .vmem S1000x4 .f32) (harg1 : arg1.IsWhole) (arg2 : Memref sig .tc .vmem S1000x4 .i32) (harg2 : arg2.IsWhole)
    (x0 : Vec F S1000x4 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__hash_kernel i arg1 harg1 arg2 harg2) K := by
  simp only [cc0__hash_kernel_eq_skeleton]; unfold cc0__hash_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the two arrays the region moves end at what the pipeline
    computes from the proof data, every other unscoped buffer at the later lines' fold over what the region left. -/
theorem run_main : θ_run defs (onTc (τ := τ) (main (F := F))) (s₀ m ρ) (Pipeline.FramePost cfgs (dats m) 0 (Pipeline.afterTail₀ cfgs (dats m) 0 (V0 m) tails)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tails) (hsub := sfx_sub) (hfresh := sfx_fresh) (hkeep := sfx_keeps)
    (hmain := hmain m Variants.none) (hA := A_eq m) (hΦ := fun _ _ => rfl)

/-- The frame: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.KValue.lean ====
/-
  The kernel's result array as one function of the argument array. Point t of the grid stages rows
  1000·t … 1000·t + 999 of the argument and writes back rows 1000·t … 1000·t + 999 of the result; the 2000 blocks
  tile the 2000000 rows, so once each written block is the matching block of a whole-array function `G`, the
  result array after the region is `G` of the argument array. The function `G` and the fact that the body's
  payload of a block is `G`'s block (`hG`) are parameters here.
-/
import proofs.«172231_j28063316312325_2_alg».proof.Proof.FrameIdeal
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.HandValue

open Cert.KernelIdeal Cert.KernelIdeal.Gen Cert.KernelIdeal.Hand

variable {F : FTy → Type} [FloatOps F]
variable (m : (ℓ : Loc nD τ sig) → Buf (Elt F) ℓ) (ρ : Dev nD → PrngReg)

/-- Row `y` of block `t` is row `1000·t + y` of the array. -/
def rowAt (t : Fin 2000) (y : Fin 1000) : Fin 2000000 := ⟨1000 * t.val + y.val, by have := t.isLt; have := y.isLt; omega⟩

theorem hz : (![0, 0] : Fin 2 → Nat) = fun _ => 0 := funext fun a => by fin_cases a <;> rfl

/-- Both windows' block index at point `t` is `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

theorem tlt (t : Fin cfg0.N) : t.val < 2000 := by have h := t.isLt; have hN : cfg0.N = 2000 := N_0; omega

section
variable (G : (S2000000x4.Idx → Elt F .f32) → (S2000000x4.Idx → BitVec 32))
variable (hG : ∀ (pts : S2000000x4.Idx → Elt F .f32) (x0 : Vec F S1000x4 .f32) (t : Fin 2000),
    (∀ (y : Fin 1000) (a : Fin 4), x0 (ValueIdx.ix2 y a) = pts (ValueIdx.ix2 (rowAt t y) a)) →
    ∀ (y : Fin 1000) (j : Fin 4), pay x0 (ValueIdx.ix2 y j) = G pts (ValueIdx.ix2 (rowAt t y) j))

include hG in
/-- What point `t` writes back is block `t` of `G` of the argument array as the region finds it. -/
theorem flushed_eq (c : Dev nD) (t : Fin cfg0.N) :
    (dats m 0 c).flushed 1 t = ((cfg0.win 1).blk t).view.read (Elt F) (G (V m c main_arg0)) := by
  show (cfg0.win 1).cut (grid0.coords t) ((dats m 0 c).after 1 t) = _
  rw [after0_1]
  unfold out0_1
  rw [View.canon_unit_zero hz]
  simp only [View.ld_unit_zero (S := S1000x4) hz]
  obtain ⟨e0, e1, e2, e3⟩ := idx_facts t
  funext j
  have hj := ValueIdx.eq_ix2 (n0 := 1000) (n1 := 4) j
  have hj0 : (j 0).val < 1000 := (j 0).isLt
  have hj1 : (j 1).val < 4 := (j 1).isLt
  show pay (iblk m c 0 t) j = G (V m c main_arg0) (((cfg0.win 1).blk t).view.emb j)
  rw [hj]
  refine (hG (V m c main_arg0) (iblk m c 0 t) ⟨t.val, tlt t⟩ ?_ (j 0) (j 1)).trans ?_
  · intro y a
    show V m c main_arg0 (((cfg0.win 0).blk t).view.emb (ValueIdx.ix2 y a)) = V m c main_arg0 (ValueIdx.ix2 (rowAt ⟨t.val, tlt t⟩ y) a)
    refine congrArg (V m c main_arg0) ?_
    funext d; apply Fin.ext
    match d with
    | ⟨0, _⟩ => show win0_0.index t (0 : Fin 2) * 1000 + 1 * y.val = 1000 * t.val + y.val; omega
    | ⟨1, _⟩ => show win0_0.index t (1 : Fin 2) * 4 + 1 * a.val = a.val; omega
  · refine congrArg (G (V m c main_arg0)) ?_
    funext d; apply Fin.ext
    match d with
    | ⟨0, _⟩ => show 1000 * t.val + (j 0).val = win0_1.index t (0 : Fin 2) * 1000 + 1 * (j 0).val; omega
    | ⟨1, _⟩ => show (j 1).val = win0_1.index t (1 : Fin 2) * 4 + 1 * (j 1).val; omega

/-- An index of the result array is in point `t`'s block iff each coordinate is in the block's range. -/
theorem mem_blk (t : Fin cfg0.N) (i : S2000000x4.Idx) :
    i ∈ ((cfg0.win 1).blk t).view.set ↔ ∀ a : Fin 2, win0_1.index t a * S1000x4.size a ≤ (i a).val ∧ (i a).val < win0_1.index t a * S1000x4.size a + S1000x4.size a := by
  show i ∈ ((View.whole main_v0).slice (win0_1.rect t)).set ↔ _
  rw [View.set_slice_whole, Rect.mem_set_unit]
  exact Iff.rfl

/-- Every index of the result array lies in the block of the point its row belongs to. -/
theorem cover (i : S2000000x4.Idx) : ∃ t : Fin cfg0.N, (cfg0.win 1).flush t = true ∧ i ∈ ((cfg0.win 1).blk t).view.set := by
  have hi0 : (i 0).val < 2000000 := (i 0).isLt
  have hi1 : (i 1).val < 4 := (i 1).isLt
  have hN : cfg0.N = 2000 := N_0
  refine ⟨⟨(i 0).val / 1000, by omega⟩, flush0_1 _, ?_⟩
  rw [mem_blk]
  obtain ⟨e0, e1, e2, e3⟩ := idx_facts ⟨(i 0).val / 1000, by omega⟩
  intro a
  match a with
  | ⟨0, _⟩ =>
    show win0_1.index _ (0 : Fin 2) * 1000 ≤ (i 0).val ∧ (i 0).val < win0_1.index _ (0 : Fin 2) * 1000 + 1000
    rw [e2]; show (i 0).val / 1000 * 1000 ≤ (i 0).val ∧ (i 0).val < (i 0).val / 1000 * 1000 + 1000; omega
  | ⟨1, _⟩ =>
    show win0_1.index _ (1 : Fin 2) * 4 ≤ (i 1).val ∧ (i 1).val < win0_1.index _ (1 : Fin 2) * 4 + 4
    rw [e3]; omega

include hG in
/-- The result array after the region is `G` of the argument array as the region finds it. -/
theorem final (c : Dev nD) : (dats m 0 c).arrAt 1 cfg0.N = G (V m c main_arg0) :=
  (dats m 0 c).arrAt_eq_of_cover 1 (G (V m c main_arg0)) (fun t _ => flushed_eq m G hG c t) cover

end

end Cert.KernelIdeal.HandValue

end
-- ==== Proof.KLeaves.lean ====
/-
  What the host lines after the region start from. After the region the result array holds what the pipeline wrote
  and every other buffer what it held on entry. The first three later lines read the result array back: column 0
  as a vector (a slice and a reshape), columns 1…3 as a three-column array (a slice). The remaining lines read these
  two, the argument array, and the one-element constant the line before the region wrote.
-/
import proofs.«172231_j28063316312325_2_alg».proof.Proof.FrameIdeal
import Idealize.ShloMosaic.Lib.StableHlo.Run

noncomputable section

open Idealize.ShloMosaic Idealize.ShloMosaic.TcCoe Idealize.SL.Sem
open Idealize.ShloMosaic.Pipeline (Dat)

namespace Cert.KernelIdeal.HandLeaves

open Cert.KernelIdeal Cert.KernelIdeal.Gen Cert.KernelIdeal.Hand StableHlo

variable {F : FTy → Type} [FloatOps F]
variable (m : (ℓ : Loc nD τ sig) → Buf (Elt F) ℓ) (ρ : Dev nD → PrngReg)

/-- The fifteen stretches after the first three later lines. -/
abbrev tailK : List (HloOp τ sig (Elt F)) :=
  List.flatten [hostOps1_1, hostOps1_2, hostOps1_3, hostOps1_4, hostOps1_5, hostOps1_6, hostOps1_7, hostOps1_8, hostOps1_9, hostOps1_10, hostOps1_11, hostOps1_12, hostOps1_13, hostOps1_14, hostOps1_15]

/-- The later lines are the first three, then the rest. -/
theorem tails_split : (tails : List (List (HloOp τ sig (Elt F)))).flatten = hostOps1 ++ tailK := by
  simp only [List.flatten_cons]

/-- The buffers' contents when the region is left: the two arrays the region moves at what the pipeline computes,
    every other buffer as on entry. -/
abbrev WA (c : Dev nD) : Valuation τ sig (Elt F) :=
  Pipeline.withArrays spec0 c (V0 m c) fun w => (dats m 0 c).arrAt w cfg0.N

/-- What the remaining lines start from: the first three later lines run over that. -/
abbrev WK (c : Dev nD) : Valuation τ sig (Elt F) := StableHlo.after hostOps1 (WA m c)

/-- A buffer the region does not move ends at the remaining lines' fold over `WK`. -/
theorem afterTail_eq (c : Dev nD) (b : Ref sig .tc) :
    Pipeline.afterTail₀ cfgs (dats m) 0 (V0 m) tails c b = StableHlo.after tailK (WK m c) (Proc.devRef .tc b) := by
  unfold Pipeline.afterTail₀
  rw [tails_split, StableHlo.after_append]

/-- The result array when the region is left. -/
theorem WA_v0 (c : Dev nD) : WA m c (Proc.devRef .tc main_v0) = (dats m 0 c).arrAt 1 cfg0.N :=
  Pipeline.withArrays_arr spec0 launch0.win.arr_inj c _ _ 1

/-- The argument array when the region is left: as launched. -/
theorem WA_arg0 (c : Dev nD) : WA m c (Proc.devRef .tc main_arg0) = m ((c : Thread nD τ).loc main_arg0) :=
  (Pipeline.withArrays_arr spec0 launch0.win.arr_inj c _ _ 0).trans
    (((dats m 0 c).arrAt_in 0 rfl _).trans ((A_eq m c 0).trans (V_main_arg0 m c)))

/-- The one-element constant the line before the region wrote. -/
theorem WA_c (c : Dev nD) : WA m c (Proc.devRef .tc main_c) = (constantI S1 1 1#1 : IVec S1 1) := by
  show Pipeline.withArrays spec0 c (V0 m c) _ (Proc.devRef .tc main_c) = _
  rw [Pipeline.withArrays_of_ne spec0 c (V0 m c) _ main_c (by decide)]
  show StableHlo.after (List.flatten [hostOps0]) (fun b => m (c, b)) (Proc.devRef .tc main_c) = _
  simp only [hostOps0, List.flatten_cons, List.flatten_nil, List.append_nil]
  after_results

/-- The first three later lines over any contents: column 0 of the result array as a vector, -/
theorem first3_v2 (W : Valuation τ sig (Elt F)) : StableHlo.after hostOps1 W (Proc.devRef .tc main_v2)
    = shapeCast S2000000 (extractStridedSlice S2000000x1 ![0, 0] (W (Proc.devRef .tc main_v0)) slices_S2000000x4_S2000000x1_0_0) shapeCasts_S2000000x1_S2000000 := by
  after_results
  rfl

/-- columns 1…3 as a three-column array, -/
theorem first3_v3 (W : Valuation τ sig (Elt F)) : StableHlo.after hostOps1 W (Proc.devRef .tc main_v3)
    = extractStridedSlice S2000000x3 ![0, 1] (W (Proc.devRef .tc main_v0)) slices_S2000000x4_S2000000x3_0_1 := by
  after_results

/-- the argument array untouched, -/
theorem first3_arg0 (W : Valuation τ sig (Elt F)) : StableHlo.after hostOps1 W (Proc.devRef .tc main_arg0) = W (Proc.devRef .tc main_arg0) := by
  after_results

/-- and the one-element constant untouched. -/
theorem first3_c (W : Valuation τ sig (Elt F)) : StableHlo.after hostOps1 W (Proc.devRef .tc main_c) = W (Proc.devRef .tc main_c) := by
  after_results

/-- Column 0 of the result array, as the remaining lines read it. -/
theorem WK_v2 (c : Dev nD) : WK m c (Proc.devRef .tc main_v2)
    = shapeCast S2000000 (extractStridedSlice S2000000x1 ![0, 0] ((dats m 0 c).arrAt 1 cfg0.N) slices_S2000000x4_S2000000x1_0_0) shapeCasts_S2000000x1_S2000000 :=
  (first3_v2 (WA m c)).trans (by rw [WA_v0])

/-- Columns 1…3 of the result array, as the remaining lines read them. -/
theorem WK_v3 (c : Dev nD) : WK m c (Proc.devRef .tc main_v3)
    = extractStridedSlice S2000000x3 ![0, 1] ((dats m 0 c).arrAt 1 cfg0.N) slices_S2000000x4_S2000000x3_0_1 :=
  (first3_v3 (WA m c)).trans (by rw [WA_v0])

/-- The argument array, as the remaining lines read it. -/
theorem WK_arg0 (c : Dev nD) : WK m c (Proc.devRef .tc main_arg0) = m ((c : Thread nD τ).loc main_arg0) :=
  (first3_arg0 (WA m c)).trans (WA_arg0 m c)

/-- The one-element constant, as the remaining lines read it. -/
theorem WK_c (c : Dev nD) : WK m c (Proc.devRef .tc main_c) = (constantI S1 1 1#1 : IVec S1 1) :=
  (first3_c (WA m c)).trans (WA_c m c)

end Cert.KernelIdeal.HandLeaves

end
-- ==== Proof.HeadDefs.lean ====
import proofs.«172231_j28063316312325_2_alg».proof.ReferenceIdeal
import Idealize.ShloMosaic.Lib.ValueIdx
import Idealize.ShloMosaic.Lib.Pipeline.Value

/-!
The head of the reference program as pure functions of the argument array.

For an array of points `pts : f32[2000000,4]` the reference computes, per point, the voxel
coordinates `c = fptosi (floor ((p - lo) / vs))` of its first three columns, the validity bit
`0 ≤ c < [1408, 1600, 40]` reduced with `and` over the three columns, and the linear key
`(c₂ * 2252800 + c₁ * 1408) + c₀` of a valid point, `90112000` of an invalid one.
`cR` and `linR` are those two values, written operation by operation; `G` is the
`[2000000,4]` array whose column 0 is the key and whose columns 1, 2, 3 are the coordinates.
-/

noncomputable section

namespace Cert.ReferenceIdeal.Head

open Idealize.ShloMosaic Idealize.SL.Sem
open Cert.ReferenceIdeal

variable {F : FTy → Type} [FloatOps F] [Facts]
open Facts₀ Facts

/-- Row `y` of block `t` of the 2000 blocks of 1000 rows. -/
def rowAt (t : Fin 2000) (y : Fin 1000) : Fin 2000000 := ⟨1000 * t.val + y.val, by omega⟩

theorem rowAt_val (t : Fin 2000) (y : Fin 1000) : (rowAt t y).val = 1000 * t.val + y.val := rfl

/-- The voxel coordinates of every point: `fptosi (floor ((pts[:, :3] - lo) / vs))`. -/
def cR (pts : FVec F S2000000x4 .f32) : IVec S2000000x3 32 :=
  fptosi 32 (Host.floor (Host.divf
    (subf (extractStridedSlice S2000000x3 ![0, 0] pts slices_S2000000x4_S2000000x3_0_0)
      (broadcastInDim S2000000x3 ![0, 1] bcast_S1x3_S2000000x3_0_1
        (broadcastInDim S1x3 ![1] bcast_S3_S1x3_1 (fun i => FloatOps.ofBits .f32 (lit1 (S3.rowMajor i))))))
    (broadcastInDim S2000000x3 ![0, 1] bcast_S1x3_S2000000x3_0_1
      (broadcastInDim S1x3 ![1] bcast_S3_S1x3_1 (fun i => FloatOps.ofBits .f32 (lit0 (S3.rowMajor i)))))))

/-- The validity bit of every point: `and` over the three columns of `0 ≤ c ∧ c < [1408, 1600, 40]`. -/
def validR (pts : FVec F S2000000x4 .f32) : IVec S2000000 1 :=
  Host.reduce IntOp.andi
    (andi
      (cmpi .sge (cR pts) (broadcastInDim S2000000x3 ![] bcast_S_S2000000x3 (constantI S_ 32 0#32)))
      (cmpi .slt (cR pts)
        (broadcastInDim S2000000x3 ![0, 1] bcast_S1x3_S2000000x3_0_1
          (broadcastInDim S1x3 ![1] bcast_S3_S1x3_1 (fun i => lit2 (S3.rowMajor i))))))
    (constantI S_ 1 1#1) reducesTo_S2000000x3_S2000000_d1 h_S_

/-- The linear key before the validity select: `(c₂ * 2252800 + c₁ * 1408) + c₀`. -/
def keyR (pts : FVec F S2000000x4 .f32) : IVec S2000000 32 :=
  addi
    (addi
      (muli
        (shapeCast S2000000 (extractStridedSlice S2000000x1 ![0, 2] (cR pts) slices_S2000000x3_S2000000x1_0_2)
          shapeCasts_S2000000x1_S2000000)
        (broadcastInDim S2000000 ![] bcast_S_S2000000 (constantI S_ 32 2252800#32)))
      (muli
        (shapeCast S2000000 (extractStridedSlice S2000000x1 ![0, 1] (cR pts) slices_S2000000x3_S2000000x1_0_1)
          shapeCasts_S2000000x1_S2000000)
        (broadcastInDim S2000000 ![] bcast_S_S2000000 (constantI S_ 32 1408#32))))
    (shapeCast S2000000 (extractStridedSlice S2000000x1 ![0, 0] (cR pts) slices_S2000000x3_S2000000x1_0_0)
      shapeCasts_S2000000x1_S2000000)

/-- The linear key of every point: the key of a valid point, `90112000` of an invalid one. -/
def linR (pts : FVec F S2000000x4 .f32) : IVec S2000000 32 :=
  select (validR pts) (keyR pts)
    (broadcastInDim S2000000 ![] bcast_S_S2000000 (id (constantI S_ 32 90112000#32)))

/-- The `[2000000,4]` array of `[key, c₀, c₁, c₂]` per point. -/
def G (pts : FVec F S2000000x4 .f32) : IVec S2000000x4 32 := fun i =>
  match (show Fin 4 from i 1) with
  | ⟨0, _⟩ => linR pts (ValueIdx.ix1 (i 0))
  | ⟨a + 1, h⟩ => cR pts (ValueIdx.ix2 (i 0) (⟨a, Nat.lt_of_succ_lt_succ h⟩ : Fin 3))

/-- Column 0 of `G` is the linear key. -/
theorem G_col0 (pts : FVec F S2000000x4 .f32) (r : Fin 2000000) :
    G pts (ValueIdx.ix2 r (0 : Fin 4)) = linR pts (ValueIdx.ix1 r) := rfl

/-- Column `a + 1` of `G` is coordinate `a`. -/
theorem G_colS (pts : FVec F S2000000x4 .f32) (r : Fin 2000000) (a : Fin 3) :
    G pts (ValueIdx.ix2 r a.succ) = cR pts (ValueIdx.ix2 r a) := by
  obtain ⟨a, ha⟩ := a
  rfl

/-- Column 0 of `G`, sliced out and reshaped to a vector, read at row `r`. -/
theorem lin_of_G_at (pts : FVec F S2000000x4 .f32) (h1 : S2000000x4.Slices ![0, 0] S2000000x1)
    (h2 : S2000000x1.ShapeCasts S2000000) (r : Fin 2000000) :
    shapeCast S2000000 (extractStridedSlice S2000000x1 ![0, 0] (G pts) h1) h2 (ValueIdx.ix1 r)
      = linR pts (ValueIdx.ix1 r) := by
  refine (shapeCast_apply _ h2 _ (ValueIdx.ix2 r (0 : Fin 1)) ?_).trans ?_
  · have e1 := Shape.rowMajor_val_two (d := ![2000000, 1]) (ValueIdx.ix2 r (0 : Fin 1))
    have e2 := Shape.rowMajor_val_one (d := ![2000000]) (ValueIdx.ix1 r)
    refine e1.trans (Eq.trans ?_ e2.symm)
    show r.val * 1 + 0 = r.val
    omega
  refine (extractStridedSlice_apply _ _ h1 _ (ValueIdx.ix2 r (0 : Fin 4)) (fun a => ?_)).trans ?_
  · match a with
    | ⟨0, _⟩ => show r.val = 0 + r.val; omega
    | ⟨1, _⟩ => rfl
  exact G_col0 pts r

/-- Column 0 of `G`, sliced out and reshaped to a vector, is the linear key. -/
theorem lin_of_G (pts : FVec F S2000000x4 .f32) (h1 : S2000000x4.Slices ![0, 0] S2000000x1)
    (h2 : S2000000x1.ShapeCasts S2000000) :
    shapeCast S2000000 (extractStridedSlice S2000000x1 ![0, 0] (G pts) h1) h2 = linR pts := by
  funext j
  rw [ValueIdx.eq_ix1 j]
  exact lin_of_G_at pts h1 h2 (j 0)

/-- Columns 1, 2, 3 of `G`, sliced out, read at row `r` and column `a`. -/
theorem c_of_G_at (pts : FVec F S2000000x4 .f32) (h : S2000000x4.Slices ![0, 1] S2000000x3)
    (r : Fin 2000000) (a : Fin 3) :
    extractStridedSlice S2000000x3 ![0, 1] (G pts) h (ValueIdx.ix2 r a) = cR pts (ValueIdx.ix2 r a) := by
  refine (extractStridedSlice_apply _ _ h _ (ValueIdx.ix2 r a.succ) (fun b => ?_)).trans ?_
  · match b with
    | ⟨0, _⟩ => show r.val = 0 + r.val; omega
    | ⟨1, _⟩ => show a.val + 1 = 1 + a.val; omega
  exact G_colS pts r a

/-- Columns 1, 2, 3 of `G`, sliced out, are the coordinates. -/
theorem c_of_G (pts : FVec F S2000000x4 .f32) (h : S2000000x4.Slices ![0, 1] S2000000x3) :
    extractStridedSlice S2000000x3 ![0, 1] (G pts) h = cR pts := by
  funext j
  rw [ValueIdx.eq_ix2 j]
  exact c_of_G_at pts h (j 0) (j 1)

end Cert.ReferenceIdeal.Head
-- ==== Proof.HeadPoint.lean ====
import proofs.«172231_j28063316312325_2_alg».proof.Proof.HeadDefs
import Idealize.ShloMosaic.Lib.IdealHost

/-!
The head of the reference program read at one point.

At row `r` the coordinates are `coordAt pts r a = fptosi (floor ((p_a - lo_a) / vs_a))`, the validity
bit is the `and` of the three column bits `0 ≤ c_a ∧ c_a < lim_a`, and the key is
`(c₂ * 2252800 + c₁ * 1408) + c₀`, selected against `90112000`.
-/

noncomputable section

namespace Cert.ReferenceIdeal.Head

open Idealize.ShloMosaic Idealize.SL.Sem Idealize.ShloMosaic.ValueIdx
open Cert.ReferenceIdeal

variable {F : FTy → Type} [FloatOps F] [Facts]
open Facts₀ Facts

/-- Coordinate `a` of the point in row `r`, by the host's operations. -/
def coordAt (pts : FVec F S2000000x4 .f32) (r : Fin 2000000) (a : Fin 3) : BitVec 32 :=
  FloatOps.fptosi 32 (FloatOps.hostUnary .floor (FloatOps.hostDivf
    (FloatOps.subf (pts (ix2 r a.castSucc)) (FloatOps.ofBits .f32 (lit1 a))) (FloatOps.ofBits .f32 (lit0 a))))

/-- The column bit `0 ≤ c_a ∧ c_a < lim_a` of the point in row `r`. -/
def bitAt (pts : FVec F S2000000x4 .f32) (r : Fin 2000000) (a : Fin 3) : BitVec 1 :=
  IntOp.andi (IntOp.cmpi .sge (coordAt pts r a) 0#32) (IntOp.cmpi .slt (coordAt pts r a) (lit2 a))

/-- The row-major position of an index of a 3-vector is its coordinate. -/
theorem rowMajor_S3 (a : Fin 3) : S3.rowMajor (ix1 a) = a :=
  Fin.ext (Shape.rowMajor_val_one (d := ![3]) (ix1 a))

/-- A 3-vector broadcast along the rows of a `[2000000,3]` array reads its entry at the column. -/
theorem bcast3_apply {α : Type} (f : S3.Idx → α) (r : Fin 2000000) (a : Fin 3) :
    broadcastInDim S2000000x3 ![0, 1] bcast_S1x3_S2000000x3_0_1
      (broadcastInDim S1x3 ![1] bcast_S3_S1x3_1 f) (ix2 r a) = f (ix1 a) := by
  refine (broadcastInDim_apply _ _ _ _ (ix2 (0 : Fin 1) a) (fun b => ?_)).trans ?_
  · match b with
    | ⟨0, _⟩ => rfl
    | ⟨1, _⟩ => rfl
  refine broadcastInDim_apply _ _ _ _ (ix1 a) (fun b => ?_)
  match b with
  | ⟨0, _⟩ => rfl

/-- The coordinates at an index. -/
theorem cR_apply (pts : FVec F S2000000x4 .f32) (r : Fin 2000000) (a : Fin 3) :
    cR pts (ix2 r a) = coordAt pts r a := by
  have hs : extractStridedSlice S2000000x3 ![0, 0] pts slices_S2000000x4_S2000000x3_0_0 (ix2 r a)
      = pts (ix2 r a.castSucc) :=
    extractStridedSlice_apply _ _ _ _ (ix2 r a.castSucc) (fun b => by
      match b with
      | ⟨0, _⟩ => show r.val = 0 + r.val; omega
      | ⟨1, _⟩ => show a.val = 0 + a.val; omega)
  unfold cR coordAt
  simp only [fptosi, Host.floor, Host.divf, subf]
  rw [hs, bcast3_apply, bcast3_apply]
  simp only [rowMajor_S3]

/-- One column of a `[2000000,3]` array, sliced out and reshaped to a vector, at a row. -/
theorem col_apply {α : Type} (x : S2000000x3.Idx → α) (o : Nat) (ho : o < 3)
    (h : S2000000x3.Slices ![0, o] S2000000x1) (h' : S2000000x1.ShapeCasts S2000000) (r : Fin 2000000) :
    shapeCast S2000000 (extractStridedSlice S2000000x1 ![0, o] x h) h' (ix1 r) = x (ix2 r (⟨o, ho⟩ : Fin 3)) := by
  refine (shapeCast_apply _ h' _ (ix2 r (0 : Fin 1)) ?_).trans ?_
  · have e1 := Shape.rowMajor_val_two (d := ![2000000, 1]) (ix2 r (0 : Fin 1))
    have e2 := Shape.rowMajor_val_one (d := ![2000000]) (ix1 r)
    refine e1.trans (Eq.trans ?_ e2.symm)
    show r.val * 1 + 0 = r.val
    omega
  refine extractStridedSlice_apply _ _ h _ (ix2 r (⟨o, ho⟩ : Fin 3)) (fun b => ?_)
  match b with
  | ⟨0, _⟩ => show r.val = 0 + r.val; omega
  | ⟨1, _⟩ => show o = o + 0; omega

/-- The key before the validity select, at a row. -/
theorem keyR_apply (pts : FVec F S2000000x4 .f32) (r : Fin 2000000) :
    keyR pts (ix1 r)
      = IntOp.addi (IntOp.addi (IntOp.muli (coordAt pts r 2) 2252800#32) (IntOp.muli (coordAt pts r 1) 1408#32))
          (coordAt pts r 0) := by
  unfold keyR
  simp only [addi, muli]
  rw [col_apply _ 2 (by omega), col_apply _ 1 (by omega), col_apply _ 0 (by omega),
    broadcastInDim_scalar_apply, broadcastInDim_scalar_apply]
  rw [cR_apply, cR_apply, cR_apply]
  rfl

/-- A fold of a commutative, associative operation over the three coordinates of an axis. -/
theorem fold_fin3 {α : Type} (op : α → α → α) [Std.Commutative op] [Std.Associative op] (b : α) (f : Fin 3 → α) :
    (Finset.univ : Finset (Fin 3)).fold op b f = op (f 0) (op (f 1) (op (f 2) b)) := by
  rw [Fin.univ_succ, Finset.fold_cons, Finset.fold_map, Fin.univ_succ, Finset.fold_cons, Finset.fold_map,
    Fin.univ_succ, Finset.fold_cons, Finset.fold_map, Finset.univ_eq_empty, Finset.fold_empty]
  rfl

/-- Row `r` with column `k` inserted on the reduced axis. -/
theorem lift_ix (h : S2000000x3.Reduces [1] S2000000) (r : Fin 2000000) (k : Fin 3) :
    h.lift (ix1 r) k = ix2 r k := by
  funext c
  apply Fin.ext
  refine (Shape.Reduces.lift_val h (ix1 r) k c).trans ?_
  unfold Shape.Reduces.liftVal
  match c with
  | ⟨0, _⟩ => rfl
  | ⟨1, _⟩ => rfl

/-- The validity bit at a row: the `and` of the three column bits. -/
theorem validR_apply (pts : FVec F S2000000x4 .f32) (r : Fin 2000000) :
    validR pts (ix1 r)
      = IntOp.andi (bitAt pts r 0) (IntOp.andi (bitAt pts r 1) (IntOp.andi (bitAt pts r 2) 1#1)) := by
  have hR : S2000000x3.Reduces [1] S2000000 := by decide
  unfold validR
  refine (Host.reduce_eq_fold_single IntOp.andi _ _ reducesTo_S2000000x3_S2000000_d1 hR h_S_ (ix1 r)).trans ?_
  refine (fold_fin3 IntOp.andi _ _).trans ?_
  simp only [Function.comp, lift_ix, andi, cmpi, bcast3_apply, broadcastInDim_scalar_apply, cR_apply, rowMajor_S3]
  rfl

/-- The linear key at a row. -/
theorem linR_apply (pts : FVec F S2000000x4 .f32) (r : Fin 2000000) :
    linR pts (ix1 r)
      = Scalar.select
          (IntOp.andi (bitAt pts r 0) (IntOp.andi (bitAt pts r 1) (IntOp.andi (bitAt pts r 2) 1#1)))
          (IntOp.addi (IntOp.addi (IntOp.muli (coordAt pts r 2) 2252800#32) (IntOp.muli (coordAt pts r 1) 1408#32))
            (coordAt pts r 0))
          90112000#32 := by
  unfold linR
  rw [select_apply, validR_apply, keyR_apply, broadcastInDim_scalar_apply]
  rfl

end Cert.ReferenceIdeal.Head
-- ==== Proof.KernelPoint.lean ====
import proofs.«172231_j28063316312325_2_alg».proof.Proof.Gen.KernelIdeal.Skeleton
import Idealize.ShloMosaic.Lib.ValueIdx
import Idealize.ShloMosaic.Lib.Pipeline.Value

/-!
The kernel's block payload read at one point.

For a loaded block `x0 : f32[1000,4]` the body stores, in row `y`, the four words
`[select valid ((c₂ * 2252800 + c₁ * 1408) + c₀) 90112000, c₀, c₁, c₂]`, where
`c_a = fptosi (floor ((x0[y,a] - lo_a) / vs_a))` and `valid` is the `and`, left to right, of
`0 ≤ c₀, c₀ < 1408, 0 ≤ c₁, c₁ < 1600, 0 ≤ c₂, c₂ < 40`.
-/

noncomputable section

namespace Cert.KernelIdeal.Point

open Idealize.ShloMosaic Idealize.SL.Sem Idealize.ShloMosaic.ValueIdx
open Cert.KernelIdeal Cert.KernelIdeal.Gen

variable {F : FTy → Type} [FloatOps F]

/-- One column of a `[1000,4]` block, sliced out and reshaped to a vector, at a row. -/
theorem colK_apply {α : Type} (x : S1000x4.Idx → α) (o : Nat) (ho : o < 4)
    (h : S1000x4.Slices ![0, o] S1000x1) (h' : S1000x1.ShapeCasts S1000) (y : Fin 1000) :
    shapeCast S1000 (extractStridedSlice S1000x1 ![0, o] x h) h' (ix1 y) = x (ix2 y (⟨o, ho⟩ : Fin 4)) := by
  refine (shapeCast_apply _ h' _ (ix2 y (0 : Fin 1)) ?_).trans ?_
  · have e1 := Shape.rowMajor_val_two (d := ![1000, 1]) (ix2 y (0 : Fin 1))
    have e2 := Shape.rowMajor_val_one (d := ![1000]) (ix1 y)
    refine e1.trans (Eq.trans ?_ e2.symm)
    show y.val * 1 + 0 = y.val
    omega
  refine extractStridedSlice_apply _ _ h _ (ix2 y (⟨o, ho⟩ : Fin 4)) (fun b => ?_)
  match b with
  | ⟨0, _⟩ => show y.val = 0 + y.val; omega
  | ⟨1, _⟩ => show o = o + 0; omega

/-- A vector reshaped to a unit-width column, at a row. -/
theorem unitcol_apply {α : Type} (v : S1000.Idx → α) (h : S1000.ShapeCasts S1000x1) (y : Fin 1000) :
    shapeCast S1000x1 v h (ix2 y (0 : Fin 1)) = v (ix1 y) := by
  refine shapeCast_apply _ h _ (ix1 y) ?_
  have e1 := Shape.rowMajor_val_two (d := ![1000, 1]) (ix2 y (0 : Fin 1))
  have e2 := Shape.rowMajor_val_one (d := ![1000]) (ix1 y)
  refine e2.trans (Eq.trans ?_ e1.symm)
  show y.val = y.val * 1 + 0
  omega

/-- Coordinate `o` of the point in row `y` of the block, by the kernel's operations, for the
    origin word `lo` and the voxel-size word `vs`. -/
def coordK (x0 : Vec F S1000x4 .f32) (y : Fin 1000) (o : Fin 4) (lo vs : BitVec 32) : BitVec 32 :=
  FloatOps.fptosi 32 (FloatOps.floor (FloatOps.divf
    (FloatOps.subf (x0 (ix2 y o)) (FloatOps.ofBits .f32 lo)) (FloatOps.ofBits .f32 vs)))

theorem pay2_apply (x0 : Vec F S1000x4 .f32) (y : Fin 1000) :
    k0_pay2 x0 (ix1 y) = coordK x0 y 0 0x00000000#32 0x3D4CCCCD#32 := by
  unfold k0_pay2 coordK
  simp only [fptosi, floor, divf, subf, broadcast]
  rw [colK_apply _ 0 (by omega)]
  rfl

theorem pay3_apply (x0 : Vec F S1000x4 .f32) (y : Fin 1000) :
    k0_pay3 x0 (ix1 y) = coordK x0 y 1 0xC2200000#32 0x3D4CCCCD#32 := by
  unfold k0_pay3 coordK
  simp only [fptosi, floor, divf, subf, broadcast]
  rw [colK_apply _ 1 (by omega)]
  rfl

theorem pay4_apply (x0 : Vec F S1000x4 .f32) (y : Fin 1000) :
    k0_pay4 x0 (ix1 y) = coordK x0 y 2 0xC0400000#32 0x3DCCCCCD#32 := by
  unfold k0_pay4 coordK
  simp only [fptosi, floor, divf, subf, broadcast]
  rw [colK_apply _ 2 (by omega)]
  rfl

/-- The kernel's validity bit at a row: the six comparisons and-ed left to right. -/
theorem pay5_apply (x0 : Vec F S1000x4 .f32) (y : Fin 1000) :
    k0_pay5 x0 (ix1 y)
      = IntOp.andi (IntOp.andi (IntOp.andi (IntOp.andi (IntOp.andi
          (IntOp.cmpi .sge (k0_pay2 x0 (ix1 y)) 0#32) (IntOp.cmpi .slt (k0_pay2 x0 (ix1 y)) 1408#32))
          (IntOp.cmpi .sge (k0_pay3 x0 (ix1 y)) 0#32)) (IntOp.cmpi .slt (k0_pay3 x0 (ix1 y)) 1600#32))
          (IntOp.cmpi .sge (k0_pay4 x0 (ix1 y)) 0#32)) (IntOp.cmpi .slt (k0_pay4 x0 (ix1 y)) 40#32) := rfl

theorem pay6_apply (x0 : Vec F S1000x4 .f32) (y : Fin 1000) :
    k0_pay6 x0 (ix1 y) = IntOp.muli (k0_pay4 x0 (ix1 y)) 2252800#32 := rfl

/-- Column 0 of the stored block: the selected key. -/
theorem pay1_col0 (v12 v18 v24 : IVec S1000 32) (v41 : IVec S1000 1) (v43 : IVec S1000 32) (y : Fin 1000) :
    k0_pay1 v12 v18 v24 v41 v43 (ix2 y (0 : Fin 4))
      = Scalar.select (v41 (ix1 y))
          (IntOp.addi (IntOp.addi (v43 (ix1 y)) (IntOp.muli (v18 (ix1 y)) 1408#32)) (v12 (ix1 y))) 90112000#32 := by
  unfold k0_pay1
  refine (concatenate_apply_piece 1 _ _ (ix2 y (0 : Fin 4)) 0 (by show 0 < 4; omega) S1000x1 _ rfl rfl 0 rfl
    (ix2 y (0 : Fin 1)) (fun b hb => ?_) rfl).trans ?_
  · match b with
    | ⟨0, _⟩ => rfl
    | ⟨1, _⟩ => exact absurd rfl hb
  refine (unitcol_apply _ _ y).trans ?_
  rfl

/-- Column 1 of the stored block: the first coordinate. -/
theorem pay1_col1 (v12 v18 v24 : IVec S1000 32) (v41 : IVec S1000 1) (v43 : IVec S1000 32) (y : Fin 1000) :
    k0_pay1 v12 v18 v24 v41 v43 (ix2 y (1 : Fin 4)) = v12 (ix1 y) := by
  unfold k0_pay1
  refine (concatenate_apply_piece 1 _ _ (ix2 y (1 : Fin 4)) 1 (by show 1 < 4; omega) S1000x1 _ rfl rfl 1 rfl
    (ix2 y (0 : Fin 1)) (fun b hb => ?_) rfl).trans ?_
  · match b with
    | ⟨0, _⟩ => rfl
    | ⟨1, _⟩ => exact absurd rfl hb
  exact unitcol_apply _ _ y

/-- Column 2 of the stored block: the second coordinate. -/
theorem pay1_col2 (v12 v18 v24 : IVec S1000 32) (v41 : IVec S1000 1) (v43 : IVec S1000 32) (y : Fin 1000) :
    k0_pay1 v12 v18 v24 v41 v43 (ix2 y (2 : Fin 4)) = v18 (ix1 y) := by
  unfold k0_pay1
  refine (concatenate_apply_piece 1 _ _ (ix2 y (2 : Fin 4)) 2 (by show 2 < 4; omega) S1000x1 _ rfl rfl 2 rfl
    (ix2 y (0 : Fin 1)) (fun b hb => ?_) rfl).trans ?_
  · match b with
    | ⟨0, _⟩ => rfl
    | ⟨1, _⟩ => exact absurd rfl hb
  exact unitcol_apply _ _ y

/-- Column 3 of the stored block: the third coordinate. -/
theorem pay1_col3 (v12 v18 v24 : IVec S1000 32) (v41 : IVec S1000 1) (v43 : IVec S1000 32) (y : Fin 1000) :
    k0_pay1 v12 v18 v24 v41 v43 (ix2 y (3 : Fin 4)) = v24 (ix1 y) := by
  unfold k0_pay1
  refine (concatenate_apply_piece 1 _ _ (ix2 y (3 : Fin 4)) 3 (by show 3 < 4; omega) S1000x1 _ rfl rfl 3 rfl
    (ix2 y (0 : Fin 1)) (fun b hb => ?_) rfl).trans ?_
  · match b with
    | ⟨0, _⟩ => rfl
    | ⟨1, _⟩ => exact absurd rfl hb
  exact unitcol_apply _ _ y

end Cert.KernelIdeal.Point
-- ==== Proof.BlockPoint.lean ====
import proofs.«172231_j28063316312325_2_alg».proof.Proof.HeadPoint
import proofs.«172231_j28063316312325_2_alg».proof.Proof.KernelPoint

/-!
The kernel's stored block against the reference's head, point by point, at the ideal instance.

If the loaded block `x0` is rows `1000 t … 1000 t + 999` of the argument array `pts`, the block the
body stores is the same rows of `G pts`: at the ideal instance the kernel's `divf`, `floor`, `fptosi`
and the host's are the same functions of an extended real, the origin and voxel-size words are the
same words, both validity bits are the `and` of the same six comparisons, and both keys are
`(c₂ * 2252800 + c₁ * 1408) + c₀` in 32-bit arithmetic.
-/

noncomputable section

namespace Cert.BlockPoint

open Idealize.ShloMosaic Idealize.SL.Sem Idealize.ShloMosaic.ValueIdx

variable [Cert.ReferenceIdeal.Facts]

/-- The `and` of six bits, grouped per column from the unit, is their `and` left to right. -/
theorem and6 (a b c d e f : BitVec 1) :
    IntOp.andi (IntOp.andi a b) (IntOp.andi (IntOp.andi c d) (IntOp.andi (IntOp.andi e f) 1#1))
      = IntOp.andi (IntOp.andi (IntOp.andi (IntOp.andi (IntOp.andi a b) c) d) e) f := by
  rcases BitVec.eq_zero_or_eq_one a with rfl | rfl <;> rcases BitVec.eq_zero_or_eq_one b with rfl | rfl <;>
  rcases BitVec.eq_zero_or_eq_one c with rfl | rfl <;> rcases BitVec.eq_zero_or_eq_one d with rfl | rfl <;>
  rcases BitVec.eq_zero_or_eq_one e with rfl | rfl <;> rcases BitVec.eq_zero_or_eq_one f with rfl | rfl <;>
  decide

section
variable (pts : FVec Ideal Cert.ReferenceIdeal.S2000000x4 .f32) (x0 : Vec Ideal Cert.KernelIdeal.S1000x4 .f32)
  (t : Fin 2000)
  (hx : ∀ (y : Fin 1000) (a : Fin 4),
    x0 (ix2 y a) = pts (ix2 (Cert.ReferenceIdeal.Head.rowAt t y) a))
include hx

/-- The first coordinate: the kernel's and the host's operations agree at the ideal instance. -/
theorem c0_eq (y : Fin 1000) :
    Cert.KernelIdeal.Gen.k0_pay2 x0 (ix1 y)
      = Cert.ReferenceIdeal.Head.coordAt pts (Cert.ReferenceIdeal.Head.rowAt t y) 0 := by
  rw [Cert.KernelIdeal.Point.pay2_apply]
  unfold Cert.KernelIdeal.Point.coordK Cert.ReferenceIdeal.Head.coordAt
  rw [hx y 0]
  rfl

/-- The second coordinate. -/
theorem c1_eq (y : Fin 1000) :
    Cert.KernelIdeal.Gen.k0_pay3 x0 (ix1 y)
      = Cert.ReferenceIdeal.Head.coordAt pts (Cert.ReferenceIdeal.Head.rowAt t y) 1 := by
  rw [Cert.KernelIdeal.Point.pay3_apply]
  unfold Cert.KernelIdeal.Point.coordK Cert.ReferenceIdeal.Head.coordAt
  rw [hx y 1]
  rfl

/-- The third coordinate. -/
theorem c2_eq (y : Fin 1000) :
    Cert.KernelIdeal.Gen.k0_pay4 x0 (ix1 y)
      = Cert.ReferenceIdeal.Head.coordAt pts (Cert.ReferenceIdeal.Head.rowAt t y) 2 := by
  rw [Cert.KernelIdeal.Point.pay4_apply]
  unfold Cert.KernelIdeal.Point.coordK Cert.ReferenceIdeal.Head.coordAt
  rw [hx y 2]
  rfl

/-- The key column. -/
theorem key_eq (y : Fin 1000) :
    Cert.KernelIdeal.Gen.k0_pay1 (Cert.KernelIdeal.Gen.k0_pay2 x0) (Cert.KernelIdeal.Gen.k0_pay3 x0)
        (Cert.KernelIdeal.Gen.k0_pay4 x0) (Cert.KernelIdeal.Gen.k0_pay5 x0) (Cert.KernelIdeal.Gen.k0_pay6 x0)
        (ix2 y (0 : Fin 4))
      = Cert.ReferenceIdeal.Head.linR pts (ix1 (Cert.ReferenceIdeal.Head.rowAt t y)) := by
  refine (Cert.KernelIdeal.Point.pay1_col0 _ _ _ _ _ y).trans ?_
  rw [Cert.ReferenceIdeal.Head.linR_apply, Cert.KernelIdeal.Point.pay5_apply, Cert.KernelIdeal.Point.pay6_apply,
    c0_eq pts x0 t hx y, c1_eq pts x0 t hx y, c2_eq pts x0 t hx y]
  unfold Cert.ReferenceIdeal.Head.bitAt
  rw [and6]
  rfl

/-- **The stored block is the block of `G`.** -/
theorem block_eq (y : Fin 1000) (j : Fin 4) :
    Cert.KernelIdeal.Gen.k0_pay1 (Cert.KernelIdeal.Gen.k0_pay2 x0) (Cert.KernelIdeal.Gen.k0_pay3 x0)
        (Cert.KernelIdeal.Gen.k0_pay4 x0) (Cert.KernelIdeal.Gen.k0_pay5 x0) (Cert.KernelIdeal.Gen.k0_pay6 x0)
        (ix2 y j)
      = Cert.ReferenceIdeal.Head.G pts (ix2 (Cert.ReferenceIdeal.Head.rowAt t y) j) := by
  match j with
  | ⟨0, _⟩ =>
    exact (key_eq pts x0 t hx y).trans (Cert.ReferenceIdeal.Head.G_col0 pts _).symm
  | ⟨1, _⟩ =>
    exact (Cert.KernelIdeal.Point.pay1_col1 _ _ _ _ _ y).trans ((c0_eq pts x0 t hx y).trans
      ((Cert.ReferenceIdeal.Head.cR_apply pts _ 0).symm.trans (Cert.ReferenceIdeal.Head.G_colS pts _ 0).symm))
  | ⟨2, _⟩ =>
    exact (Cert.KernelIdeal.Point.pay1_col2 _ _ _ _ _ y).trans ((c1_eq pts x0 t hx y).trans
      ((Cert.ReferenceIdeal.Head.cR_apply pts _ 1).symm.trans (Cert.ReferenceIdeal.Head.G_colS pts _ 1).symm))
  | ⟨3, _⟩ =>
    exact (Cert.KernelIdeal.Point.pay1_col3 _ _ _ _ _ y).trans ((c2_eq pts x0 t hx y).trans
      ((Cert.ReferenceIdeal.Head.cR_apply pts _ 2).symm.trans (Cert.ReferenceIdeal.Head.G_colS pts _ 2).symm))

end

end Cert.BlockPoint
-- ==== Proof.RefRun.lean ====
/-
  The reference program's run. Its @main is a straight line of host operations once the module-local functions
  (`_where`, `argsort`, `cummax`, `argsort_0`) are unfolded at their calls over the calls' buffer records:
  `headR` (the arithmetic from the literal tables to the linear cell index `%28`, 40 operations) followed by
  `tailR` (the sorts, the running maximum, the gathers and the three scatters, 144 operations). Hence every weakly
  fair execution terminates with each buffer at the fold of these operations over the launch contents, and the
  argument, which no operation writes, is kept.
-/
import proofs.«172231_j28063316312325_2_alg».proof.Proof.Gen.ReferenceIdeal
import Idealize.ShloMosaic.Lib.StableHlo.Run
import Idealize.ShloMosaic.Lib.Pipeline.Regions

-- decided enumerations over the signature's 185 references recurse past the default depth
set_option maxRecDepth 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- @main from `%cst` to `%28 = call @_where(%15, %27, %c_6)`: the cell coordinates `%8`, the validity mask `%15`, the
    linear index `%27` and its selection against the out-of-range code. -/
abbrev headR : List (HloOp τ sig (Elt F)) :=
  [ StableHlo.nullary main_cst (fun i => FloatOps.ofBits .f32 (lit0 (S3.rowMajor i))),
    StableHlo.nullary main_cst_0 (fun i => FloatOps.ofBits .f32 (lit1 (S3.rowMajor i))),
    StableHlo.nullary main_c (fun i => lit2 (S3.rowMajor i)),
    StableHlo.nullary main_c_1 (constantI S1 1 1#1),
    StableHlo.unary main_arg0 main_v0 ((extractStridedSlice S2000000x3 ![0, 0] · slices_S2000000x4_S2000000x3_0_0) : (⟨S2000000x4, .f32⟩ : BufTy).Contents (Elt F) → (⟨S2000000x3, .f32⟩ : BufTy).Contents (Elt F)),
    StableHlo.unary main_cst_0 main_v1 (broadcastInDim S1x3 ![1] bcast_S3_S1x3_1 : (⟨S3, .f32⟩ : BufTy).Contents (Elt F) → (⟨S1x3, .f32⟩ : BufTy).Contents (Elt F)),
    StableHlo.unary main_v1 main_v2 (broadcastInDim S2000000x3 ![0, 1] bcast_S1x3_S2000000x3_0_1 : (⟨S1x3, .f32⟩ : BufTy).Contents (Elt F) → (⟨S2000000x3, .f32⟩ : BufTy).Contents (Elt F)),
    StableHlo.binary main_v0 main_v2 main_v3 (subf : (⟨S2000000x3, .f32⟩ : BufTy).Contents (Elt F) → (⟨S2000000x3, .f32⟩ : BufTy).Contents (Elt F) → (⟨S2000000x3, .f32⟩ : BufTy).Contents (Elt F)),
    StableHlo.unary main_cst main_v4 (broadcastInDim S1x3 ![1] bcast_S3_S1x3_1 : (⟨S3, .f32⟩ : BufTy).Contents (Elt F) → (⟨S1x3, .f32⟩ : BufTy).Contents (Elt F)),
    StableHlo.unary main_v4 main_v5 (broadcastInDim S2000000x3 ![0, 1] bcast_S1x3_S2000000x3_0_1 : (⟨S1x3, .f32⟩ : BufTy).Contents (Elt F) → (⟨S2000000x3, .f32⟩ : BufTy).Contents (Elt F)),
    StableHlo.binary main_v3 main_v5 main_v6 (Host.divf : (⟨S2000000x3, .f32⟩ : BufTy).Contents (Elt F) → (⟨S2000000x3, .f32⟩ : BufTy).Contents (Elt F) → (⟨S2000000x3, .f32⟩ : BufTy).Contents (Elt F)),
    StableHlo.unary main_v6 main_v7 (Host.floor : (⟨S2000000x3, .f32⟩ : BufTy).Contents (Elt F) → (⟨S2000000x3, .f32⟩ : BufTy).Contents (Elt F)),
    StableHlo.unary main_v7 main_v8 (fptosi 32 : (⟨S2000000x3, .f32⟩ : BufTy).Contents (Elt F) → (⟨S2000000x3, .i32⟩ : BufTy).Contents (Elt F)),
    StableHlo.nullary main_c_2 (constantI S_ 32 0#32),
    StableHlo.unary main_c_2 main_v9 (broadcastInDim S2000000x3 ![] bcast_S_S2000000x3 : (⟨S_, .i32⟩ : BufTy).Contents (Elt F) → (⟨S2000000x3, .i32⟩ : BufTy).Contents (Elt F)),
    StableHlo.binary main_v8 main_v9 main_v10 (cmpi .sge : (⟨S2000000x3, .i32⟩ : BufTy).Contents (Elt F) → (⟨S2000000x3, .i32⟩ : BufTy).Contents (Elt F) → (⟨S2000000x3, .i1⟩ : BufTy).Contents (Elt F)),
    StableHlo.unary main_c main_v11 (broadcastInDim S1x3 ![1] bcast_S3_S1x3_1 : (⟨S3, .i32⟩ : BufTy).Contents (Elt F) → (⟨S1x3, .i32⟩ : BufTy).Contents (Elt F)),
    StableHlo.unary main_v11 main_v12 (broadcastInDim S2000000x3 ![0, 1] bcast_S1x3_S2000000x3_0_1 : (⟨S1x3, .i32⟩ : BufTy).Contents (Elt F) → (⟨S2000000x3, .i32⟩ : BufTy).Contents (Elt F)),
    StableHlo.binary main_v8 main_v12 main_v13 (cmpi .slt : (⟨S2000000x3, .i32⟩ : BufTy).Contents (Elt F) → (⟨S2000000x3, .i32⟩ : BufTy).Contents (Elt F) → (⟨S2000000x3, .i1⟩ : BufTy).Contents (Elt F)),
    StableHlo.binary main_v10 main_v13 main_v14 (andi : (⟨S2000000x3, .i1⟩ : BufTy).Contents (Elt F) → (⟨S2000000x3, .i1⟩ : BufTy).Contents (Elt F) → (⟨S2000000x3, .i1⟩ : BufTy).Contents (Elt F)),
    StableHlo.nullary main_c_3 (constantI S_ 1 1#1),
    StableHlo.binary main_v14 main_c_3 main_v15 ((fun x v => Host.reduce IntOp.andi x v reducesTo_S2000000x3_S2000000_d1 h_S_) : (⟨S2000000x3, .i1⟩ : BufTy).Contents (Elt F) → (⟨S_, .i1⟩ : BufTy).Contents (Elt F) → (⟨S2000000, .i1⟩ : BufTy).Contents (Elt F)),
    StableHlo.unary main_v8 main_v16 ((extractStridedSlice S2000000x1 ![0, 2] · slices_S2000000x3_S2000000x1_0_2) : (⟨S2000000x3, .i32⟩ : BufTy).Contents (Elt F) → (⟨S2000000x1, .i32⟩ : BufTy).Contents (Elt F)),
    StableHlo.reshape main_v16 main_v17 rfl shapeCasts_S2000000x1_S2000000,
    StableHlo.nullary main_c_4 (constantI S_ 32 2252800#32),
    StableHlo.unary main_c_4 main_v18 (broadcastInDim S2000000 ![] bcast_S_S2000000 : (⟨S_, .i32⟩ : BufTy).Contents (Elt F) → (⟨S2000000, .i32⟩ : BufTy).Contents (Elt F)),
    StableHlo.binary main_v17 main_v18 main_v19 (muli : (⟨S2000000, .i32⟩ : BufTy).Contents (Elt F) → (⟨S2000000, .i32⟩ : BufTy).Contents (Elt F) → (⟨S2000000, .i32⟩ : BufTy).Contents (Elt F)),
    StableHlo.unary main_v8 main_v20 ((extractStridedSlice S2000000x1 ![0, 1] · slices_S2000000x3_S2000000x1_0_1) : (⟨S2000000x3, .i32⟩ : BufTy).Contents (Elt F) → (⟨S2000000x1, .i32⟩ : BufTy).Contents (Elt F)),
    StableHlo.reshape main_v20 main_v21 rfl shapeCasts_S2000000x1_S2000000,
    StableHlo.nullary main_c_5 (constantI S_ 32 1408#32),
    StableHlo.unary main_c_5 main_v22 (broadcastInDim S2000000 ![] bcast_S_S2000000 : (⟨S_, .i32⟩ : BufTy).Contents (Elt F) → (⟨S2000000, .i32⟩ : BufTy).Contents (Elt F)),
    StableHlo.binary main_v21 main_v22 main_v23 (muli : (⟨S2000000, .i32⟩ : BufTy).Contents (Elt F) → (⟨S2000000, .i32⟩ : BufTy).Contents (Elt F) → (⟨S2000000, .i32⟩ : BufTy).Contents (Elt F)),
    StableHlo.binary main_v19 main_v23 main_v24 (addi : (⟨S2000000, .i32⟩ : BufTy).Contents (Elt F) → (⟨S2000000, .i32⟩ : BufTy).Contents (Elt F) → (⟨S2000000, .i32⟩ : BufTy).Contents (Elt F)),
    StableHlo.unary main_v8 main_v25 ((extractStridedSlice S2000000x1 ![0, 0] · slices_S2000000x3_S2000000x1_0_0) : (⟨S2000000x3, .i32⟩ : BufTy).Contents (Elt F) → (⟨S2000000x1, .i32⟩ : BufTy).Contents (Elt F)),
    StableHlo.reshape main_v25 main_v26 rfl shapeCasts_S2000000x1_S2000000,
    StableHlo.binary main_v24 main_v26 main_v27 (addi : (⟨S2000000, .i32⟩ : BufTy).Contents (Elt F) → (⟨S2000000, .i32⟩ : BufTy).Contents (Elt F) → (⟨S2000000, .i32⟩ : BufTy).Contents (Elt F)),
    StableHlo.nullary main_c_6 (constantI S_ 32 90112000#32),
    StableHlo.TRef.unary (.of main_c_6 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S2000000, .i32⟩) (broadcastInDim S2000000 ![] bcast_S_S2000000),
    StableHlo.TRef.ternary (.of main_v15 : StableHlo.TRef sig ⟨S2000000, .i1⟩) (.of main_v27 : StableHlo.TRef sig ⟨S2000000, .i32⟩) (.of main_call0_v1 : StableHlo.TRef sig ⟨S2000000, .i32⟩) (.of main_v28 : StableHlo.TRef sig ⟨S2000000, .i32⟩) select ]

/-- @main from `%29 = call @argsort(%28)` to `%124`. -/
abbrev tailR : List (HloOp τ sig (Elt F)) :=
  [ StableHlo.TRef.nullary (.of main_call1_v0 : StableHlo.TRef sig ⟨S2000000, .i32⟩) (iotaInDim S2000000 32 0),
    StableHlo.TRef.binary (.of main_v28 : StableHlo.TRef sig ⟨S2000000, .i32⟩) (.of main_call1_v0 : StableHlo.TRef sig ⟨S2000000, .i32⟩) (.of main_call1_v1_0 : StableHlo.TRef sig ⟨S2000000, .i32⟩) (fun x y => (Host.sort2 S2000000 0 comparator_i32_i32_d0 x y).1),
    StableHlo.TRef.binary (.of main_v28 : StableHlo.TRef sig ⟨S2000000, .i32⟩) (.of main_call1_v0 : StableHlo.TRef sig ⟨S2000000, .i32⟩) (.of main_v29 : StableHlo.TRef sig ⟨S2000000, .i32⟩) (fun x y => (Host.sort2 S2000000 0 comparator_i32_i32_d0 x y).2),
    StableHlo.nullary main_c_7 (constantI S_ 32 0#32),
    StableHlo.unary main_c_7 main_v30 (broadcastInDim S2000000 ![] bcast_S_S2000000 : (⟨S_, .i32⟩ : BufTy).Contents (Elt F) → (⟨S2000000, .i32⟩ : BufTy).Contents (Elt F)),
    StableHlo.binary main_v29 main_v30 main_v31 (cmpi .slt : (⟨S2000000, .i32⟩ : BufTy).Contents (Elt F) → (⟨S2000000, .i32⟩ : BufTy).Contents (Elt F) → (⟨S2000000, .i1⟩ : BufTy).Contents (Elt F)),
    StableHlo.nullary main_c_8 (constantI S_ 32 2000000#32),
    StableHlo.unary main_c_8 main_v32 (broadcastInDim S2000000 ![] bcast_S_S2000000 : (⟨S_, .i32⟩ : BufTy).Contents (Elt F) → (⟨S2000000, .i32⟩ : BufTy).Contents (Elt F)),
    StableHlo.binary main_v29 main_v32 main_v33 (addi : (⟨S2000000, .i32⟩ : BufTy).Contents (Elt F) → (⟨S2000000, .i32⟩ : BufTy).Contents (Elt F) → (⟨S2000000, .i32⟩ : BufTy).Contents (Elt F)),
    StableHlo.ternary main_v31 main_v33 main_v29 main_v34 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v34 main_v35 (broadcastInDim S2000000x1 ![0] bcast_S2000000_S2000000x1_0 : (⟨S2000000, .i32⟩ : BufTy).Contents (Elt F) → (⟨S2000000x1, .i32⟩ : BufTy).Contents (Elt F)),
    StableHlo.binary main_v28 main_v35 main_v36 ((fun x i => Host.gather gather_S2000000_S2000000x1_S2000000_n_0_n_n_0_1_1 x i) : (⟨S2000000, .i32⟩ : BufTy).Contents (Elt F) → (⟨S2000000x1, .i32⟩ : BufTy).Contents (Elt F) → (⟨S2000000, .i32⟩ : BufTy).Contents (Elt F)),
    StableHlo.nullary main_v37 (iotaInDim S2000000 32 0),
    StableHlo.unary main_v36 main_v38 ((extractStridedSlice S1999999 ![1] · slices_S2000000_S1999999_1) : (⟨S2000000, .i32⟩ : BufTy).Contents (Elt F) → (⟨S1999999, .i32⟩ : BufTy).Contents (Elt F)),
    StableHlo.unary main_v36 main_v39 ((extractStridedSlice S1999999 ![0] · slices_S2000000_S1999999_0) : (⟨S2000000, .i32⟩ : BufTy).Contents (Elt F) → (⟨S1999999, .i32⟩ : BufTy).Contents (Elt F)),
    StableHlo.binary main_v38 main_v39 main_v40 (cmpi .ne : (⟨S1999999, .i32⟩ : BufTy).Contents (Elt F) → (⟨S1999999, .i32⟩ : BufTy).Contents (Elt F) → (⟨S1999999, .i1⟩ : BufTy).Contents (Elt F)),
    StableHlo.binary main_c_1 main_v40 main_v41 ((fun a b => concatenate S2000000 0 [⟨S1, a⟩, ⟨S1999999, b⟩] concatenates_S1_S1999999_S2000000_d0) : (⟨S1, .i1⟩ : BufTy).Contents (Elt F) → (⟨S1999999, .i1⟩ : BufTy).Contents (Elt F) → (⟨S2000000, .i1⟩ : BufTy).Contents (Elt F)),
    StableHlo.nullary main_c_9 (constantI S_ 32 0#32),
    StableHlo.TRef.unary (.of main_c_9 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S2000000, .i32⟩) (broadcastInDim S2000000 ![] bcast_S_S2000000),
    StableHlo.TRef.ternary (.of main_v41 : StableHlo.TRef sig ⟨S2000000, .i1⟩) (.of main_v37 : StableHlo.TRef sig ⟨S2000000, .i32⟩) (.of main_call2_v1 : StableHlo.TRef sig ⟨S2000000, .i32⟩) (.of main_v42 : StableHlo.TRef sig ⟨S2000000, .i32⟩) select,
    StableHlo.TRef.nullary (.of main_call3_c : StableHlo.TRef sig ⟨S_, .i32⟩) (constantI S_ 32 2147483648#32),
    StableHlo.TRef.unary (.of main_call3_c : StableHlo.TRef sig ⟨S_, .i32⟩) (.of main_call3_v0 : StableHlo.TRef sig ⟨S_, .i32⟩) (broadcastInDim S_ ![] bcast_S_S_),
    StableHlo.TRef.binary (.of main_v42 : StableHlo.TRef sig ⟨S2000000, .i32⟩) (.of main_call3_v0 : StableHlo.TRef sig ⟨S_, .i32⟩) (.of main_v43 : StableHlo.TRef sig ⟨S2000000, .i32⟩) (fun x v => Host.reduceWindow IntOp.maxsi ![2000000] ![1] ![1999999] ![0] x v reduceWindows_S2000000_S2000000_w2000000s1p1999999_0 h_S_),
    StableHlo.binary main_v37 main_v43 main_v44 (subi : (⟨S2000000, .i32⟩ : BufTy).Contents (Elt F) → (⟨S2000000, .i32⟩ : BufTy).Contents (Elt F) → (⟨S2000000, .i32⟩ : BufTy).Contents (Elt F)),
    StableHlo.nullary main_c_10 (constantI S_ 32 90112000#32),
    StableHlo.unary main_c_10 main_v45 (broadcastInDim S2000000 ![] bcast_S_S2000000 : (⟨S_, .i32⟩ : BufTy).Contents (Elt F) → (⟨S2000000, .i32⟩ : BufTy).Contents (Elt F)),
    StableHlo.binary main_v36 main_v45 main_v46 (cmpi .slt : (⟨S2000000, .i32⟩ : BufTy).Contents (Elt F) → (⟨S2000000, .i32⟩ : BufTy).Contents (Elt F) → (⟨S2000000, .i1⟩ : BufTy).Contents (Elt F)),
    StableHlo.binary main_v41 main_v46 main_v47 (andi : (⟨S2000000, .i1⟩ : BufTy).Contents (Elt F) → (⟨S2000000, .i1⟩ : BufTy).Contents (Elt F) → (⟨S2000000, .i1⟩ : BufTy).Contents (Elt F)),
    StableHlo.nullary main_c_11 (constantI S_ 32 2000000#32),
    StableHlo.TRef.unary (.of main_c_11 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S2000000, .i32⟩) (broadcastInDim S2000000 ![] bcast_S_S2000000),
    StableHlo.TRef.ternary (.of main_v47 : StableHlo.TRef sig ⟨S2000000, .i1⟩) (.of main_v29 : StableHlo.TRef sig ⟨S2000000, .i32⟩) (.of main_call4_v1 : StableHlo.TRef sig ⟨S2000000, .i32⟩) (.of main_v48 : StableHlo.TRef sig ⟨S2000000, .i32⟩) select,
    StableHlo.TRef.nullary (.of main_call5_v0 : StableHlo.TRef sig ⟨S2000000, .i32⟩) (iotaInDim S2000000 32 0),
    StableHlo.TRef.binary (.of main_v48 : StableHlo.TRef sig ⟨S2000000, .i32⟩) (.of main_call5_v0 : StableHlo.TRef sig ⟨S2000000, .i32⟩) (.of main_call5_v1_0 : StableHlo.TRef sig ⟨S2000000, .i32⟩) (fun x y => (Host.sort2 S2000000 0 comparator_i32_i32_d0 x y).1),
    StableHlo.TRef.binary (.of main_v48 : StableHlo.TRef sig ⟨S2000000, .i32⟩) (.of main_call5_v0 : StableHlo.TRef sig ⟨S2000000, .i32⟩) (.of main_v49 : StableHlo.TRef sig ⟨S2000000, .i32⟩) (fun x y => (Host.sort2 S2000000 0 comparator_i32_i32_d0 x y).2),
    StableHlo.TRef.nullary (.of main_call6_v0 : StableHlo.TRef sig ⟨S2000000, .i32⟩) (iotaInDim S2000000 32 0),
    StableHlo.TRef.binary (.of main_v49 : StableHlo.TRef sig ⟨S2000000, .i32⟩) (.of main_call6_v0 : StableHlo.TRef sig ⟨S2000000, .i32⟩) (.of main_call6_v1_0 : StableHlo.TRef sig ⟨S2000000, .i32⟩) (fun x y => (Host.sort2 S2000000 0 comparator_i32_i32_d0 x y).1),
    StableHlo.TRef.binary (.of main_v49 : StableHlo.TRef sig ⟨S2000000, .i32⟩) (.of main_call6_v0 : StableHlo.TRef sig ⟨S2000000, .i32⟩) (.of main_v50 : StableHlo.TRef sig ⟨S2000000, .i32⟩) (fun x y => (Host.sort2 S2000000 0 comparator_i32_i32_d0 x y).2),
    StableHlo.nullary main_c_12 (constantI S_ 32 0#32),
    StableHlo.unary main_c_12 main_v51 (broadcastInDim S2000000 ![] bcast_S_S2000000 : (⟨S_, .i32⟩ : BufTy).Contents (Elt F) → (⟨S2000000, .i32⟩ : BufTy).Contents (Elt F)),
    StableHlo.binary main_v43 main_v51 main_v52 (cmpi .slt : (⟨S2000000, .i32⟩ : BufTy).Contents (Elt F) → (⟨S2000000, .i32⟩ : BufTy).Contents (Elt F) → (⟨S2000000, .i1⟩ : BufTy).Contents (Elt F)),
    StableHlo.nullary main_c_13 (constantI S_ 32 2000000#32),
    StableHlo.unary main_c_13 main_v53 (broadcastInDim S2000000 ![] bcast_S_S2000000 : (⟨S_, .i32⟩ : BufTy).Contents (Elt F) → (⟨S2000000, .i32⟩ : BufTy).Contents (Elt F)),
    StableHlo.binary main_v43 main_v53 main_v54 (addi : (⟨S2000000, .i32⟩ : BufTy).Contents (Elt F) → (⟨S2000000, .i32⟩ : BufTy).Contents (Elt F) → (⟨S2000000, .i32⟩ : BufTy).Contents (Elt F)),
    StableHlo.ternary main_v52 main_v54 main_v43 main_v55 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v55 main_v56 (broadcastInDim S2000000x1 ![0] bcast_S2000000_S2000000x1_0 : (⟨S2000000, .i32⟩ : BufTy).Contents (Elt F) → (⟨S2000000x1, .i32⟩ : BufTy).Contents (Elt F)),
    StableHlo.binary main_v50 main_v56 main_v57 ((fun x i => Host.gather gather_S2000000_S2000000x1_S2000000_n_0_n_n_0_1_1 x i) : (⟨S2000000, .i32⟩ : BufTy).Contents (Elt F) → (⟨S2000000x1, .i32⟩ : BufTy).Contents (Elt F) → (⟨S2000000, .i32⟩ : BufTy).Contents (Elt F)),
    StableHlo.binary main_v41 main_v46 main_v58 (andi : (⟨S2000000, .i1⟩ : BufTy).Contents (Elt F) → (⟨S2000000, .i1⟩ : BufTy).Contents (Elt F) → (⟨S2000000, .i1⟩ : BufTy).Contents (Elt F)),
    StableHlo.unary main_v58 main_v59 ((extui 32 · natLt_1_32) : (⟨S2000000, .i1⟩ : BufTy).Contents (Elt F) → (⟨S2000000, .i32⟩ : BufTy).Contents (Elt F)),
    StableHlo.nullary main_c_14 (constantI S_ 32 0#32),
    StableHlo.binary main_v59 main_c_14 main_v60 ((fun x v => Host.reduce IntOp.addi x v reducesTo_S2000000_S_d0 h_S_) : (⟨S2000000, .i32⟩ : BufTy).Contents (Elt F) → (⟨S_, .i32⟩ : BufTy).Contents (Elt F) → (⟨S_, .i32⟩ : BufTy).Contents (Elt F)),
    StableHlo.nullary main_c_15 (constantI S_ 32 120000#32),
    StableHlo.binary main_v60 main_c_15 main_v61 (minsi : (⟨S_, .i32⟩ : BufTy).Contents (Elt F) → (⟨S_, .i32⟩ : BufTy).Contents (Elt F) → (⟨S_, .i32⟩ : BufTy).Contents (Elt F)),
    StableHlo.nullary main_c_16 (constantI S_ 32 32#32),
    StableHlo.unary main_c_16 main_v62 (broadcastInDim S2000000 ![] bcast_S_S2000000 : (⟨S_, .i32⟩ : BufTy).Contents (Elt F) → (⟨S2000000, .i32⟩ : BufTy).Contents (Elt F)),
    StableHlo.binary main_v44 main_v62 main_v63 (cmpi .slt : (⟨S2000000, .i32⟩ : BufTy).Contents (Elt F) → (⟨S2000000, .i32⟩ : BufTy).Contents (Elt F) → (⟨S2000000, .i1⟩ : BufTy).Contents (Elt F)),
    StableHlo.binary main_v46 main_v63 main_v64 (andi : (⟨S2000000, .i1⟩ : BufTy).Contents (Elt F) → (⟨S2000000, .i1⟩ : BufTy).Contents (Elt F) → (⟨S2000000, .i1⟩ : BufTy).Contents (Elt F)),
    StableHlo.nullary main_c_17 (constantI S_ 32 120000#32),
    StableHlo.unary main_c_17 main_v65 (broadcastInDim S2000000 ![] bcast_S_S2000000 : (⟨S_, .i32⟩ : BufTy).Contents (Elt F) → (⟨S2000000, .i32⟩ : BufTy).Contents (Elt F)),
    StableHlo.binary main_v57 main_v65 main_v66 (cmpi .slt : (⟨S2000000, .i32⟩ : BufTy).Contents (Elt F) → (⟨S2000000, .i32⟩ : BufTy).Contents (Elt F) → (⟨S2000000, .i1⟩ : BufTy).Contents (Elt F)),
    StableHlo.binary main_v64 main_v66 main_v67 (andi : (⟨S2000000, .i1⟩ : BufTy).Contents (Elt F) → (⟨S2000000, .i1⟩ : BufTy).Contents (Elt F) → (⟨S2000000, .i1⟩ : BufTy).Contents (Elt F)),
    StableHlo.nullary main_c_18 (constantI S_ 32 120000#32),
    StableHlo.TRef.unary (.of main_c_18 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S2000000, .i32⟩) (broadcastInDim S2000000 ![] bcast_S_S2000000),
    StableHlo.TRef.ternary (.of main_v67 : StableHlo.TRef sig ⟨S2000000, .i1⟩) (.of main_v57 : StableHlo.TRef sig ⟨S2000000, .i32⟩) (.of main_call7_v1 : StableHlo.TRef sig ⟨S2000000, .i32⟩) (.of main_v68 : StableHlo.TRef sig ⟨S2000000, .i32⟩) select,
    StableHlo.nullary main_c_19 (constantI S_ 32 0#32),
    StableHlo.TRef.unary (.of main_c_19 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S2000000, .i32⟩) (broadcastInDim S2000000 ![] bcast_S_S2000000),
    StableHlo.TRef.ternary (.of main_v67 : StableHlo.TRef sig ⟨S2000000, .i1⟩) (.of main_v44 : StableHlo.TRef sig ⟨S2000000, .i32⟩) (.of main_call8_v1 : StableHlo.TRef sig ⟨S2000000, .i32⟩) (.of main_v69 : StableHlo.TRef sig ⟨S2000000, .i32⟩) select,
    StableHlo.nullary main_cst_20 (constant S_ .f32 0x00000000#32),
    StableHlo.unary main_cst_20 main_v70 (broadcastInDim S120001x32x4 ![] bcast_S_S120001x32x4 : (⟨S_, .f32⟩ : BufTy).Contents (Elt F) → (⟨S120001x32x4, .f32⟩ : BufTy).Contents (Elt F)),
    StableHlo.nullary main_c_21 (constantI S_ 32 0#32),
    StableHlo.unary main_c_21 main_v71 (broadcastInDim S2000000 ![] bcast_S_S2000000 : (⟨S_, .i32⟩ : BufTy).Contents (Elt F) → (⟨S2000000, .i32⟩ : BufTy).Contents (Elt F)),
    StableHlo.binary main_v29 main_v71 main_v72 (cmpi .slt : (⟨S2000000, .i32⟩ : BufTy).Contents (Elt F) → (⟨S2000000, .i32⟩ : BufTy).Contents (Elt F) → (⟨S2000000, .i1⟩ : BufTy).Contents (Elt F)),
    StableHlo.nullary main_c_22 (constantI S_ 32 2000000#32),
    StableHlo.unary main_c_22 main_v73 (broadcastInDim S2000000 ![] bcast_S_S2000000 : (⟨S_, .i32⟩ : BufTy).Contents (Elt F) → (⟨S2000000, .i32⟩ : BufTy).Contents (Elt F)),
    StableHlo.binary main_v29 main_v73 main_v74 (addi : (⟨S2000000, .i32⟩ : BufTy).Contents (Elt F) → (⟨S2000000, .i32⟩ : BufTy).Contents (Elt F) → (⟨S2000000, .i32⟩ : BufTy).Contents (Elt F)),
    StableHlo.ternary main_v72 main_v74 main_v29 main_v75 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v75 main_v76 (broadcastInDim S2000000x1 ![0] bcast_S2000000_S2000000x1_0 : (⟨S2000000, .i32⟩ : BufTy).Contents (Elt F) → (⟨S2000000x1, .i32⟩ : BufTy).Contents (Elt F)),
    StableHlo.binary main_arg0 main_v76 main_v77 ((fun x i => Host.gather gather_S2000000x4_S2000000x1_S2000000x4_1_0_n_n_0_1_14 x i) : (⟨S2000000x4, .f32⟩ : BufTy).Contents (Elt F) → (⟨S2000000x1, .i32⟩ : BufTy).Contents (Elt F) → (⟨S2000000x4, .f32⟩ : BufTy).Contents (Elt F)),
    StableHlo.nullary main_c_23 (constantI S_ 32 0#32),
    StableHlo.unary main_c_23 main_v78 (broadcastInDim S2000000 ![] bcast_S_S2000000 : (⟨S_, .i32⟩ : BufTy).Contents (Elt F) → (⟨S2000000, .i32⟩ : BufTy).Contents (Elt F)),
    StableHlo.binary main_v68 main_v78 main_v79 (cmpi .slt : (⟨S2000000, .i32⟩ : BufTy).Contents (Elt F) → (⟨S2000000, .i32⟩ : BufTy).Contents (Elt F) → (⟨S2000000, .i1⟩ : BufTy).Contents (Elt F)),
    StableHlo.nullary main_c_24 (constantI S_ 32 120001#32),
    StableHlo.unary main_c_24 main_v80 (broadcastInDim S2000000 ![] bcast_S_S2000000 : (⟨S_, .i32⟩ : BufTy).Contents (Elt F) → (⟨S2000000, .i32⟩ : BufTy).Contents (Elt F)),
    StableHlo.binary main_v68 main_v80 main_v81 (addi : (⟨S2000000, .i32⟩ : BufTy).Contents (Elt F) → (⟨S2000000, .i32⟩ : BufTy).Contents (Elt F) → (⟨S2000000, .i32⟩ : BufTy).Contents (Elt F)),
    StableHlo.ternary main_v79 main_v81 main_v68 main_v82 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_25 (constantI S_ 32 0#32),
    StableHlo.unary main_c_25 main_v83 (broadcastInDim S2000000 ![] bcast_S_S2000000 : (⟨S_, .i32⟩ : BufTy).Contents (Elt F) → (⟨S2000000, .i32⟩ : BufTy).Contents (Elt F)),
    StableHlo.binary main_v69 main_v83 main_v84 (cmpi .slt : (⟨S2000000, .i32⟩ : BufTy).Contents (Elt F) → (⟨S2000000, .i32⟩ : BufTy).Contents (Elt F) → (⟨S2000000, .i1⟩ : BufTy).Contents (Elt F)),
    StableHlo.nullary main_c_26 (constantI S_ 32 32#32),
    StableHlo.unary main_c_26 main_v85 (broadcastInDim S2000000 ![] bcast_S_S2000000 : (⟨S_, .i32⟩ : BufTy).Contents (Elt F) → (⟨S2000000, .i32⟩ : BufTy).Contents (Elt F)),
    StableHlo.binary main_v69 main_v85 main_v86 (addi : (⟨S2000000, .i32⟩ : BufTy).Contents (Elt F) → (⟨S2000000, .i32⟩ : BufTy).Contents (Elt F) → (⟨S2000000, .i32⟩ : BufTy).Contents (Elt F)),
    StableHlo.ternary main_v84 main_v86 main_v69 main_v87 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v82 main_v88 (broadcastInDim S2000000x1 ![0] bcast_S2000000_S2000000x1_0 : (⟨S2000000, .i32⟩ : BufTy).Contents (Elt F) → (⟨S2000000x1, .i32⟩ : BufTy).Contents (Elt F)),
    StableHlo.unary main_v87 main_v89 (broadcastInDim S2000000x1 ![0] bcast_S2000000_S2000000x1_0 : (⟨S2000000, .i32⟩ : BufTy).Contents (Elt F) → (⟨S2000000x1, .i32⟩ : BufTy).Contents (Elt F)),
    StableHlo.binary main_v88 main_v89 main_v90 ((fun a b => concatenate S2000000x2 1 [⟨S2000000x1, a⟩, ⟨S2000000x1, b⟩] concatenates_S2000000x1_S2000000x1_S2000000x2_d1) : (⟨S2000000x1, .i32⟩ : BufTy).Contents (Elt F) → (⟨S2000000x1, .i32⟩ : BufTy).Contents (Elt F) → (⟨S2000000x2, .i32⟩ : BufTy).Contents (Elt F)),
    StableHlo.ternary main_v70 main_v90 main_v77 main_v91 ((fun x i u => Host.scatter scatter_S120001x32x4_S2000000x2_S2000000x4_1_01_01_1 (fun _ b => b) x i u) : (⟨S120001x32x4, .f32⟩ : BufTy).Contents (Elt F) → (⟨S2000000x2, .i32⟩ : BufTy).Contents (Elt F) → (⟨S2000000x4, .f32⟩ : BufTy).Contents (Elt F) → (⟨S120001x32x4, .f32⟩ : BufTy).Contents (Elt F)),
    StableHlo.unary main_v91 main_v92 ((extractStridedSlice S120000x32x4 ![0, 0, 0] · slices_S120001x32x4_S120000x32x4_0_0_0) : (⟨S120001x32x4, .f32⟩ : BufTy).Contents (Elt F) → (⟨S120000x32x4, .f32⟩ : BufTy).Contents (Elt F)),
    StableHlo.nullary main_c_27 (constantI S_ 32 0#32),
    StableHlo.unary main_c_27 main_v93 (broadcastInDim S2000000 ![] bcast_S_S2000000 : (⟨S_, .i32⟩ : BufTy).Contents (Elt F) → (⟨S2000000, .i32⟩ : BufTy).Contents (Elt F)),
    StableHlo.binary main_v29 main_v93 main_v94 (cmpi .slt : (⟨S2000000, .i32⟩ : BufTy).Contents (Elt F) → (⟨S2000000, .i32⟩ : BufTy).Contents (Elt F) → (⟨S2000000, .i1⟩ : BufTy).Contents (Elt F)),
    StableHlo.nullary main_c_28 (constantI S_ 32 2000000#32),
    StableHlo.unary main_c_28 main_v95 (broadcastInDim S2000000 ![] bcast_S_S2000000 : (⟨S_, .i32⟩ : BufTy).Contents (Elt F) → (⟨S2000000, .i32⟩ : BufTy).Contents (Elt F)),
    StableHlo.binary main_v29 main_v95 main_v96 (addi : (⟨S2000000, .i32⟩ : BufTy).Contents (Elt F) → (⟨S2000000, .i32⟩ : BufTy).Contents (Elt F) → (⟨S2000000, .i32⟩ : BufTy).Contents (Elt F)),
    StableHlo.ternary main_v94 main_v96 main_v29 main_v97 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v97 main_v98 (broadcastInDim S2000000x1 ![0] bcast_S2000000_S2000000x1_0 : (⟨S2000000, .i32⟩ : BufTy).Contents (Elt F) → (⟨S2000000x1, .i32⟩ : BufTy).Contents (Elt F)),
    StableHlo.binary main_v8 main_v98 main_v99 ((fun x i => Host.gather gather_S2000000x3_S2000000x1_S2000000x3_1_0_n_n_0_1_13 x i) : (⟨S2000000x3, .i32⟩ : BufTy).Contents (Elt F) → (⟨S2000000x1, .i32⟩ : BufTy).Contents (Elt F) → (⟨S2000000x3, .i32⟩ : BufTy).Contents (Elt F)),
    StableHlo.unary main_v99 main_v100 (Host.reverse [1] : (⟨S2000000x3, .i32⟩ : BufTy).Contents (Elt F) → (⟨S2000000x3, .i32⟩ : BufTy).Contents (Elt F)),
    StableHlo.binary main_v41 main_v46 main_v101 (andi : (⟨S2000000, .i1⟩ : BufTy).Contents (Elt F) → (⟨S2000000, .i1⟩ : BufTy).Contents (Elt F) → (⟨S2000000, .i1⟩ : BufTy).Contents (Elt F)),
    StableHlo.nullary main_c_29 (constantI S_ 32 120000#32),
    StableHlo.unary main_c_29 main_v102 (broadcastInDim S2000000 ![] bcast_S_S2000000 : (⟨S_, .i32⟩ : BufTy).Contents (Elt F) → (⟨S2000000, .i32⟩ : BufTy).Contents (Elt F)),
    StableHlo.binary main_v57 main_v102 main_v103 (cmpi .slt : (⟨S2000000, .i32⟩ : BufTy).Contents (Elt F) → (⟨S2000000, .i32⟩ : BufTy).Contents (Elt F) → (⟨S2000000, .i1⟩ : BufTy).Contents (Elt F)),
    StableHlo.binary main_v101 main_v103 main_v104 (andi : (⟨S2000000, .i1⟩ : BufTy).Contents (Elt F) → (⟨S2000000, .i1⟩ : BufTy).Contents (Elt F) → (⟨S2000000, .i1⟩ : BufTy).Contents (Elt F)),
    StableHlo.nullary main_c_30 (constantI S_ 32 120000#32),
    StableHlo.TRef.unary (.of main_c_30 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S2000000, .i32⟩) (broadcastInDim S2000000 ![] bcast_S_S2000000),
    StableHlo.TRef.ternary (.of main_v104 : StableHlo.TRef sig ⟨S2000000, .i1⟩) (.of main_v57 : StableHlo.TRef sig ⟨S2000000, .i32⟩) (.of main_call9_v1 : StableHlo.TRef sig ⟨S2000000, .i32⟩) (.of main_v105 : StableHlo.TRef sig ⟨S2000000, .i32⟩) select,
    StableHlo.nullary main_c_31 (constantI S_ 32 0#32),
    StableHlo.unary main_c_31 main_v106 (broadcastInDim S120001x3 ![] bcast_S_S120001x3 : (⟨S_, .i32⟩ : BufTy).Contents (Elt F) → (⟨S120001x3, .i32⟩ : BufTy).Contents (Elt F)),
    StableHlo.nullary main_c_32 (constantI S_ 32 0#32),
    StableHlo.unary main_c_32 main_v107 (broadcastInDim S2000000 ![] bcast_S_S2000000 : (⟨S_, .i32⟩ : BufTy).Contents (Elt F) → (⟨S2000000, .i32⟩ : BufTy).Contents (Elt F)),
    StableHlo.binary main_v105 main_v107 main_v108 (cmpi .slt : (⟨S2000000, .i32⟩ : BufTy).Contents (Elt F) → (⟨S2000000, .i32⟩ : BufTy).Contents (Elt F) → (⟨S2000000, .i1⟩ : BufTy).Contents (Elt F)),
    StableHlo.nullary main_c_33 (constantI S_ 32 120001#32),
    StableHlo.unary main_c_33 main_v109 (broadcastInDim S2000000 ![] bcast_S_S2000000 : (⟨S_, .i32⟩ : BufTy).Contents (Elt F) → (⟨S2000000, .i32⟩ : BufTy).Contents (Elt F)),
    StableHlo.binary main_v105 main_v109 main_v110 (addi : (⟨S2000000, .i32⟩ : BufTy).Contents (Elt F) → (⟨S2000000, .i32⟩ : BufTy).Contents (Elt F) → (⟨S2000000, .i32⟩ : BufTy).Contents (Elt F)),
    StableHlo.ternary main_v108 main_v110 main_v105 main_v111 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v111 main_v112 (broadcastInDim S2000000x1 ![0] bcast_S2000000_S2000000x1_0 : (⟨S2000000, .i32⟩ : BufTy).Contents (Elt F) → (⟨S2000000x1, .i32⟩ : BufTy).Contents (Elt F)),
    StableHlo.ternary main_v106 main_v112 main_v100 main_v113 ((fun x i u => Host.scatter scatter_S120001x3_S2000000x1_S2000000x3_1_0_0_1 (fun _ b => b) x i u) : (⟨S120001x3, .i32⟩ : BufTy).Contents (Elt F) → (⟨S2000000x1, .i32⟩ : BufTy).Contents (Elt F) → (⟨S2000000x3, .i32⟩ : BufTy).Contents (Elt F) → (⟨S120001x3, .i32⟩ : BufTy).Contents (Elt F)),
    StableHlo.unary main_v113 main_v114 ((extractStridedSlice S120000x3 ![0, 0] · slices_S120001x3_S120000x3_0_0) : (⟨S120001x3, .i32⟩ : BufTy).Contents (Elt F) → (⟨S120000x3, .i32⟩ : BufTy).Contents (Elt F)),
    StableHlo.nullary main_c_34 (constantI S_ 32 0#32),
    StableHlo.unary main_c_34 main_v115 (broadcastInDim S120001 ![] bcast_S_S120001 : (⟨S_, .i32⟩ : BufTy).Contents (Elt F) → (⟨S120001, .i32⟩ : BufTy).Contents (Elt F)),
    StableHlo.unary main_v67 main_v116 ((extui 32 · natLt_1_32) : (⟨S2000000, .i1⟩ : BufTy).Contents (Elt F) → (⟨S2000000, .i32⟩ : BufTy).Contents (Elt F)),
    StableHlo.nullary main_c_35 (constantI S_ 32 0#32),
    StableHlo.unary main_c_35 main_v117 (broadcastInDim S2000000 ![] bcast_S_S2000000 : (⟨S_, .i32⟩ : BufTy).Contents (Elt F) → (⟨S2000000, .i32⟩ : BufTy).Contents (Elt F)),
    StableHlo.binary main_v68 main_v117 main_v118 (cmpi .slt : (⟨S2000000, .i32⟩ : BufTy).Contents (Elt F) → (⟨S2000000, .i32⟩ : BufTy).Contents (Elt F) → (⟨S2000000, .i1⟩ : BufTy).Contents (Elt F)),
    StableHlo.nullary main_c_36 (constantI S_ 32 120001#32),
    StableHlo.unary main_c_36 main_v119 (broadcastInDim S2000000 ![] bcast_S_S2000000 : (⟨S_, .i32⟩ : BufTy).Contents (Elt F) → (⟨S2000000, .i32⟩ : BufTy).Contents (Elt F)),
    StableHlo.binary main_v68 main_v119 main_v120 (addi : (⟨S2000000, .i32⟩ : BufTy).Contents (Elt F) → (⟨S2000000, .i32⟩ : BufTy).Contents (Elt F) → (⟨S2000000, .i32⟩ : BufTy).Contents (Elt F)),
    StableHlo.ternary main_v118 main_v120 main_v68 main_v121 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v121 main_v122 (broadcastInDim S2000000x1 ![0] bcast_S2000000_S2000000x1_0 : (⟨S2000000, .i32⟩ : BufTy).Contents (Elt F) → (⟨S2000000x1, .i32⟩ : BufTy).Contents (Elt F)),
    StableHlo.ternary main_v115 main_v122 main_v116 main_v123 ((fun x i u => Host.scatter scatter_S120001_S2000000x1_S2000000_n_0_0_1 IntOp.addi x i u) : (⟨S120001, .i32⟩ : BufTy).Contents (Elt F) → (⟨S2000000x1, .i32⟩ : BufTy).Contents (Elt F) → (⟨S2000000, .i32⟩ : BufTy).Contents (Elt F) → (⟨S120001, .i32⟩ : BufTy).Contents (Elt F)),
    StableHlo.unary main_v123 main_v124 ((extractStridedSlice S120000 ![0] · slices_S120001_S120000_0) : (⟨S120001, .i32⟩ : BufTy).Contents (Elt F) → (⟨S120000, .i32⟩ : BufTy).Contents (Elt F)) ]

/-! ## @main is that line

Each window of @main is the chain of its stretches, a call's unfolded body a stretch of its own; the chain of all
the stretches is the line of their concatenation. -/

/-- Window 0, stretch 0 (main). -/
abbrev w0_0 : List (HloOp τ sig (Elt F)) :=
  [ StableHlo.nullary main_cst (fun i => FloatOps.ofBits .f32 (lit0 (S3.rowMajor i))),
    StableHlo.nullary main_cst_0 (fun i => FloatOps.ofBits .f32 (lit1 (S3.rowMajor i))),
    StableHlo.nullary main_c (fun i => lit2 (S3.rowMajor i)),
    StableHlo.nullary main_c_1 (constantI S1 1 1#1),
    StableHlo.unary main_arg0 main_v0 ((extractStridedSlice S2000000x3 ![0, 0] · slices_S2000000x4_S2000000x3_0_0) : (⟨S2000000x4, .f32⟩ : BufTy).Contents (Elt F) → (⟨S2000000x3, .f32⟩ : BufTy).Contents (Elt F)),
    StableHlo.unary main_cst_0 main_v1 (broadcastInDim S1x3 ![1] bcast_S3_S1x3_1 : (⟨S3, .f32⟩ : BufTy).Contents (Elt F) → (⟨S1x3, .f32⟩ : BufTy).Contents (Elt F)),
    StableHlo.unary main_v1 main_v2 (broadcastInDim S2000000x3 ![0, 1] bcast_S1x3_S2000000x3_0_1 : (⟨S1x3, .f32⟩ : BufTy).Contents (Elt F) → (⟨S2000000x3, .f32⟩ : BufTy).Contents (Elt F)),
    StableHlo.binary main_v0 main_v2 main_v3 (subf : (⟨S2000000x3, .f32⟩ : BufTy).Contents (Elt F) → (⟨S2000000x3, .f32⟩ : BufTy).Contents (Elt F) → (⟨S2000000x3, .f32⟩ : BufTy).Contents (Elt F)),
    StableHlo.unary main_cst main_v4 (broadcastInDim S1x3 ![1] bcast_S3_S1x3_1 : (⟨S3, .f32⟩ : BufTy).Contents (Elt F) → (⟨S1x3, .f32⟩ : BufTy).Contents (Elt F)),
    StableHlo.unary main_v4 main_v5 (broadcastInDim S2000000x3 ![0, 1] bcast_S1x3_S2000000x3_0_1 : (⟨S1x3, .f32⟩ : BufTy).Contents (Elt F) → (⟨S2000000x3, .f32⟩ : BufTy).Contents (Elt F)),
    StableHlo.binary main_v3 main_v5 main_v6 (Host.divf : (⟨S2000000x3, .f32⟩ : BufTy).Contents (Elt F) → (⟨S2000000x3, .f32⟩ : BufTy).Contents (Elt F) → (⟨S2000000x3, .f32⟩ : BufTy).Contents (Elt F)),
    StableHlo.unary main_v6 main_v7 (Host.floor : (⟨S2000000x3, .f32⟩ : BufTy).Contents (Elt F) → (⟨S2000000x3, .f32⟩ : BufTy).Contents (Elt F)),
    StableHlo.unary main_v7 main_v8 (fptosi 32 : (⟨S2000000x3, .f32⟩ : BufTy).Contents (Elt F) → (⟨S2000000x3, .i32⟩ : BufTy).Contents (Elt F)),
    StableHlo.nullary main_c_2 (constantI S_ 32 0#32),
    StableHlo.unary main_c_2 main_v9 (broadcastInDim S2000000x3 ![] bcast_S_S2000000x3 : (⟨S_, .i32⟩ : BufTy).Contents (Elt F) → (⟨S2000000x3, .i32⟩ : BufTy).Contents (Elt F)),
    StableHlo.binary main_v8 main_v9 main_v10 (cmpi .sge : (⟨S2000000x3, .i32⟩ : BufTy).Contents (Elt F) → (⟨S2000000x3, .i32⟩ : BufTy).Contents (Elt F) → (⟨S2000000x3, .i1⟩ : BufTy).Contents (Elt F)),
    StableHlo.unary main_c main_v11 (broadcastInDim S1x3 ![1] bcast_S3_S1x3_1 : (⟨S3, .i32⟩ : BufTy).Contents (Elt F) → (⟨S1x3, .i32⟩ : BufTy).Contents (Elt F)),
    StableHlo.unary main_v11 main_v12 (broadcastInDim S2000000x3 ![0, 1] bcast_S1x3_S2000000x3_0_1 : (⟨S1x3, .i32⟩ : BufTy).Contents (Elt F) → (⟨S2000000x3, .i32⟩ : BufTy).Contents (Elt F)),
    StableHlo.binary main_v8 main_v12 main_v13 (cmpi .slt : (⟨S2000000x3, .i32⟩ : BufTy).Contents (Elt F) → (⟨S2000000x3, .i32⟩ : BufTy).Contents (Elt F) → (⟨S2000000x3, .i1⟩ : BufTy).Contents (Elt F)),
    StableHlo.binary main_v10 main_v13 main_v14 (andi : (⟨S2000000x3, .i1⟩ : BufTy).Contents (Elt F) → (⟨S2000000x3, .i1⟩ : BufTy).Contents (Elt F) → (⟨S2000000x3, .i1⟩ : BufTy).Contents (Elt F)),
    StableHlo.nullary main_c_3 (constantI S_ 1 1#1),
    StableHlo.binary main_v14 main_c_3 main_v15 ((fun x v => Host.reduce IntOp.andi x v reducesTo_S2000000x3_S2000000_d1 h_S_) : (⟨S2000000x3, .i1⟩ : BufTy).Contents (Elt F) → (⟨S_, .i1⟩ : BufTy).Contents (Elt F) → (⟨S2000000, .i1⟩ : BufTy).Contents (Elt F)),
    StableHlo.unary main_v8 main_v16 ((extractStridedSlice S2000000x1 ![0, 2] · slices_S2000000x3_S2000000x1_0_2) : (⟨S2000000x3, .i32⟩ : BufTy).Contents (Elt F) → (⟨S2000000x1, .i32⟩ : BufTy).Contents (Elt F)),
    StableHlo.reshape main_v16 main_v17 rfl shapeCasts_S2000000x1_S2000000,
    StableHlo.nullary main_c_4 (constantI S_ 32 2252800#32),
    StableHlo.unary main_c_4 main_v18 (broadcastInDim S2000000 ![] bcast_S_S2000000 : (⟨S_, .i32⟩ : BufTy).Contents (Elt F) → (⟨S2000000, .i32⟩ : BufTy).Contents (Elt F)),
    StableHlo.binary main_v17 main_v18 main_v19 (muli : (⟨S2000000, .i32⟩ : BufTy).Contents (Elt F) → (⟨S2000000, .i32⟩ : BufTy).Contents (Elt F) → (⟨S2000000, .i32⟩ : BufTy).Contents (Elt F)),
    StableHlo.unary main_v8 main_v20 ((extractStridedSlice S2000000x1 ![0, 1] · slices_S2000000x3_S2000000x1_0_1) : (⟨S2000000x3, .i32⟩ : BufTy).Contents (Elt F) → (⟨S2000000x1, .i32⟩ : BufTy).Contents (Elt F)),
    StableHlo.reshape main_v20 main_v21 rfl shapeCasts_S2000000x1_S2000000,
    StableHlo.nullary main_c_5 (constantI S_ 32 1408#32),
    StableHlo.unary main_c_5 main_v22 (broadcastInDim S2000000 ![] bcast_S_S2000000 : (⟨S_, .i32⟩ : BufTy).Contents (Elt F) → (⟨S2000000, .i32⟩ : BufTy).Contents (Elt F)),
    StableHlo.binary main_v21 main_v22 main_v23 (muli : (⟨S2000000, .i32⟩ : BufTy).Contents (Elt F) → (⟨S2000000, .i32⟩ : BufTy).Contents (Elt F) → (⟨S2000000, .i32⟩ : BufTy).Contents (Elt F)),
    StableHlo.binary main_v19 main_v23 main_v24 (addi : (⟨S2000000, .i32⟩ : BufTy).Contents (Elt F) → (⟨S2000000, .i32⟩ : BufTy).Contents (Elt F) → (⟨S2000000, .i32⟩ : BufTy).Contents (Elt F)),
    StableHlo.unary main_v8 main_v25 ((extractStridedSlice S2000000x1 ![0, 0] · slices_S2000000x3_S2000000x1_0_0) : (⟨S2000000x3, .i32⟩ : BufTy).Contents (Elt F) → (⟨S2000000x1, .i32⟩ : BufTy).Contents (Elt F)),
    StableHlo.reshape main_v25 main_v26 rfl shapeCasts_S2000000x1_S2000000,
    StableHlo.binary main_v24 main_v26 main_v27 (addi : (⟨S2000000, .i32⟩ : BufTy).Contents (Elt F) → (⟨S2000000, .i32⟩ : BufTy).Contents (Elt F) → (⟨S2000000, .i32⟩ : BufTy).Contents (Elt F)),
    StableHlo.nullary main_c_6 (constantI S_ 32 90112000#32) ]
/-- Window 0, stretch 1 (@where, call 0). -/
abbrev w0_1 : List (HloOp τ sig (Elt F)) :=
  [ StableHlo.TRef.unary (.of main_c_6 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S2000000, .i32⟩) (broadcastInDim S2000000 ![] bcast_S_S2000000),
    StableHlo.TRef.ternary (.of main_v15 : StableHlo.TRef sig ⟨S2000000, .i1⟩) (.of main_v27 : StableHlo.TRef sig ⟨S2000000, .i32⟩) (.of main_call0_v1 : StableHlo.TRef sig ⟨S2000000, .i32⟩) (.of main_v28 : StableHlo.TRef sig ⟨S2000000, .i32⟩) select ]
/-- Window 0, stretch 2 (@argsort, call 1). -/
abbrev w0_2 : List (HloOp τ sig (Elt F)) :=
  [ StableHlo.TRef.nullary (.of main_call1_v0 : StableHlo.TRef sig ⟨S2000000, .i32⟩) (iotaInDim S2000000 32 0),
    StableHlo.TRef.binary (.of main_v28 : StableHlo.TRef sig ⟨S2000000, .i32⟩) (.of main_call1_v0 : StableHlo.TRef sig ⟨S2000000, .i32⟩) (.of main_call1_v1_0 : StableHlo.TRef sig ⟨S2000000, .i32⟩) (fun x y => (Host.sort2 S2000000 0 comparator_i32_i32_d0 x y).1),
    StableHlo.TRef.binary (.of main_v28 : StableHlo.TRef sig ⟨S2000000, .i32⟩) (.of main_call1_v0 : StableHlo.TRef sig ⟨S2000000, .i32⟩) (.of main_v29 : StableHlo.TRef sig ⟨S2000000, .i32⟩) (fun x y => (Host.sort2 S2000000 0 comparator_i32_i32_d0 x y).2) ]
/-- Window 0, stretch 3 (main). -/
abbrev w0_3 : List (HloOp τ sig (Elt F)) :=
  [ StableHlo.nullary main_c_7 (constantI S_ 32 0#32),
    StableHlo.unary main_c_7 main_v30 (broadcastInDim S2000000 ![] bcast_S_S2000000 : (⟨S_, .i32⟩ : BufTy).Contents (Elt F) → (⟨S2000000, .i32⟩ : BufTy).Contents (Elt F)),
    StableHlo.binary main_v29 main_v30 main_v31 (cmpi .slt : (⟨S2000000, .i32⟩ : BufTy).Contents (Elt F) → (⟨S2000000, .i32⟩ : BufTy).Contents (Elt F) → (⟨S2000000, .i1⟩ : BufTy).Contents (Elt F)),
    StableHlo.nullary main_c_8 (constantI S_ 32 2000000#32),
    StableHlo.unary main_c_8 main_v32 (broadcastInDim S2000000 ![] bcast_S_S2000000 : (⟨S_, .i32⟩ : BufTy).Contents (Elt F) → (⟨S2000000, .i32⟩ : BufTy).Contents (Elt F)),
    StableHlo.binary main_v29 main_v32 main_v33 (addi : (⟨S2000000, .i32⟩ : BufTy).Contents (Elt F) → (⟨S2000000, .i32⟩ : BufTy).Contents (Elt F) → (⟨S2000000, .i32⟩ : BufTy).Contents (Elt F)),
    StableHlo.ternary main_v31 main_v33 main_v29 main_v34 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v34 main_v35 (broadcastInDim S2000000x1 ![0] bcast_S2000000_S2000000x1_0 : (⟨S2000000, .i32⟩ : BufTy).Contents (Elt F) → (⟨S2000000x1, .i32⟩ : BufTy).Contents (Elt F)),
    StableHlo.binary main_v28 main_v35 main_v36 ((fun x i => Host.gather gather_S2000000_S2000000x1_S2000000_n_0_n_n_0_1_1 x i) : (⟨S2000000, .i32⟩ : BufTy).Contents (Elt F) → (⟨S2000000x1, .i32⟩ : BufTy).Contents (Elt F) → (⟨S2000000, .i32⟩ : BufTy).Contents (Elt F)),
    StableHlo.nullary main_v37 (iotaInDim S2000000 32 0),
    StableHlo.unary main_v36 main_v38 ((extractStridedSlice S1999999 ![1] · slices_S2000000_S1999999_1) : (⟨S2000000, .i32⟩ : BufTy).Contents (Elt F) → (⟨S1999999, .i32⟩ : BufTy).Contents (Elt F)),
    StableHlo.unary main_v36 main_v39 ((extractStridedSlice S1999999 ![0] · slices_S2000000_S1999999_0) : (⟨S2000000, .i32⟩ : BufTy).Contents (Elt F) → (⟨S1999999, .i32⟩ : BufTy).Contents (Elt F)),
    StableHlo.binary main_v38 main_v39 main_v40 (cmpi .ne : (⟨S1999999, .i32⟩ : BufTy).Contents (Elt F) → (⟨S1999999, .i32⟩ : BufTy).Contents (Elt F) → (⟨S1999999, .i1⟩ : BufTy).Contents (Elt F)),
    StableHlo.binary main_c_1 main_v40 main_v41 ((fun a b => concatenate S2000000 0 [⟨S1, a⟩, ⟨S1999999, b⟩] concatenates_S1_S1999999_S2000000_d0) : (⟨S1, .i1⟩ : BufTy).Contents (Elt F) → (⟨S1999999, .i1⟩ : BufTy).Contents (Elt F) → (⟨S2000000, .i1⟩ : BufTy).Contents (Elt F)),
    StableHlo.nullary main_c_9 (constantI S_ 32 0#32) ]
/-- Window 0, stretch 4 (@where, call 2). -/
abbrev w0_4 : List (HloOp τ sig (Elt F)) :=
  [ StableHlo.TRef.unary (.of main_c_9 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S2000000, .i32⟩) (broadcastInDim S2000000 ![] bcast_S_S2000000),
    StableHlo.TRef.ternary (.of main_v41 : StableHlo.TRef sig ⟨S2000000, .i1⟩) (.of main_v37 : StableHlo.TRef sig ⟨S2000000, .i32⟩) (.of main_call2_v1 : StableHlo.TRef sig ⟨S2000000, .i32⟩) (.of main_v42 : StableHlo.TRef sig ⟨S2000000, .i32⟩) select ]
/-- Window 0, stretch 5 (@cummax, call 3). -/
abbrev w0_5 : List (HloOp τ sig (Elt F)) :=
  [ StableHlo.TRef.nullary (.of main_call3_c : StableHlo.TRef sig ⟨S_, .i32⟩) (constantI S_ 32 2147483648#32),
    StableHlo.TRef.unary (.of main_call3_c : StableHlo.TRef sig ⟨S_, .i32⟩) (.of main_call3_v0 : StableHlo.TRef sig ⟨S_, .i32⟩) (broadcastInDim S_ ![] bcast_S_S_),
    StableHlo.TRef.binary (.of main_v42 : StableHlo.TRef sig ⟨S2000000, .i32⟩) (.of main_call3_v0 : StableHlo.TRef sig ⟨S_, .i32⟩) (.of main_v43 : StableHlo.TRef sig ⟨S2000000, .i32⟩) (fun x v => Host.reduceWindow IntOp.maxsi ![2000000] ![1] ![1999999] ![0] x v reduceWindows_S2000000_S2000000_w2000000s1p1999999_0 h_S_) ]
/-- Window 0, stretch 6 (main). -/
abbrev w0_6 : List (HloOp τ sig (Elt F)) :=
  [ StableHlo.binary main_v37 main_v43 main_v44 (subi : (⟨S2000000, .i32⟩ : BufTy).Contents (Elt F) → (⟨S2000000, .i32⟩ : BufTy).Contents (Elt F) → (⟨S2000000, .i32⟩ : BufTy).Contents (Elt F)),
    StableHlo.nullary main_c_10 (constantI S_ 32 90112000#32),
    StableHlo.unary main_c_10 main_v45 (broadcastInDim S2000000 ![] bcast_S_S2000000 : (⟨S_, .i32⟩ : BufTy).Contents (Elt F) → (⟨S2000000, .i32⟩ : BufTy).Contents (Elt F)),
    StableHlo.binary main_v36 main_v45 main_v46 (cmpi .slt : (⟨S2000000, .i32⟩ : BufTy).Contents (Elt F) → (⟨S2000000, .i32⟩ : BufTy).Contents (Elt F) → (⟨S2000000, .i1⟩ : BufTy).Contents (Elt F)) ]
/-- Window 1, stretch 0 (main). -/
abbrev w1_0 : List (HloOp τ sig (Elt F)) :=
  [ StableHlo.binary main_v41 main_v46 main_v47 (andi : (⟨S2000000, .i1⟩ : BufTy).Contents (Elt F) → (⟨S2000000, .i1⟩ : BufTy).Contents (Elt F) → (⟨S2000000, .i1⟩ : BufTy).Contents (Elt F)),
    StableHlo.nullary main_c_11 (constantI S_ 32 2000000#32) ]
/-- Window 1, stretch 1 (@where, call 4). -/
abbrev w1_1 : List (HloOp τ sig (Elt F)) :=
  [ StableHlo.TRef.unary (.of main_c_11 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S2000000, .i32⟩) (broadcastInDim S2000000 ![] bcast_S_S2000000),
    StableHlo.TRef.ternary (.of main_v47 : StableHlo.TRef sig ⟨S2000000, .i1⟩) (.of main_v29 : StableHlo.TRef sig ⟨S2000000, .i32⟩) (.of main_call4_v1 : StableHlo.TRef sig ⟨S2000000, .i32⟩) (.of main_v48 : StableHlo.TRef sig ⟨S2000000, .i32⟩) select ]
/-- Window 1, stretch 2 (@argsort_0, call 5). -/
abbrev w1_2 : List (HloOp τ sig (Elt F)) :=
  [ StableHlo.TRef.nullary (.of main_call5_v0 : StableHlo.TRef sig ⟨S2000000, .i32⟩) (iotaInDim S2000000 32 0),
    StableHlo.TRef.binary (.of main_v48 : StableHlo.TRef sig ⟨S2000000, .i32⟩) (.of main_call5_v0 : StableHlo.TRef sig ⟨S2000000, .i32⟩) (.of main_call5_v1_0 : StableHlo.TRef sig ⟨S2000000, .i32⟩) (fun x y => (Host.sort2 S2000000 0 comparator_i32_i32_d0 x y).1),
    StableHlo.TRef.binary (.of main_v48 : StableHlo.TRef sig ⟨S2000000, .i32⟩) (.of main_call5_v0 : StableHlo.TRef sig ⟨S2000000, .i32⟩) (.of main_v49 : StableHlo.TRef sig ⟨S2000000, .i32⟩) (fun x y => (Host.sort2 S2000000 0 comparator_i32_i32_d0 x y).2) ]
/-- Window 1, stretch 3 (@argsort_0, call 6). -/
abbrev w1_3 : List (HloOp τ sig (Elt F)) :=
  [ StableHlo.TRef.nullary (.of main_call6_v0 : StableHlo.TRef sig ⟨S2000000, .i32⟩) (iotaInDim S2000000 32 0),
    StableHlo.TRef.binary (.of main_v49 : StableHlo.TRef sig ⟨S2000000, .i32⟩) (.of main_call6_v0 : StableHlo.TRef sig ⟨S2000000, .i32⟩) (.of main_call6_v1_0 : StableHlo.TRef sig ⟨S2000000, .i32⟩) (fun x y => (Host.sort2 S2000000 0 comparator_i32_i32_d0 x y).1),
    StableHlo.TRef.binary (.of main_v49 : StableHlo.TRef sig ⟨S2000000, .i32⟩) (.of main_call6_v0 : StableHlo.TRef sig ⟨S2000000, .i32⟩) (.of main_v50 : StableHlo.TRef sig ⟨S2000000, .i32⟩) (fun x y => (Host.sort2 S2000000 0 comparator_i32_i32_d0 x y).2) ]
/-- Window 1, stretch 4 (main). -/
abbrev w1_4 : List (HloOp τ sig (Elt F)) :=
  [ StableHlo.nullary main_c_12 (constantI S_ 32 0#32),
    StableHlo.unary main_c_12 main_v51 (broadcastInDim S2000000 ![] bcast_S_S2000000 : (⟨S_, .i32⟩ : BufTy).Contents (Elt F) → (⟨S2000000, .i32⟩ : BufTy).Contents (Elt F)),
    StableHlo.binary main_v43 main_v51 main_v52 (cmpi .slt : (⟨S2000000, .i32⟩ : BufTy).Contents (Elt F) → (⟨S2000000, .i32⟩ : BufTy).Contents (Elt F) → (⟨S2000000, .i1⟩ : BufTy).Contents (Elt F)),
    StableHlo.nullary main_c_13 (constantI S_ 32 2000000#32),
    StableHlo.unary main_c_13 main_v53 (broadcastInDim S2000000 ![] bcast_S_S2000000 : (⟨S_, .i32⟩ : BufTy).Contents (Elt F) → (⟨S2000000, .i32⟩ : BufTy).Contents (Elt F)),
    StableHlo.binary main_v43 main_v53 main_v54 (addi : (⟨S2000000, .i32⟩ : BufTy).Contents (Elt F) → (⟨S2000000, .i32⟩ : BufTy).Contents (Elt F) → (⟨S2000000, .i32⟩ : BufTy).Contents (Elt F)),
    StableHlo.ternary main_v52 main_v54 main_v43 main_v55 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v55 main_v56 (broadcastInDim S2000000x1 ![0] bcast_S2000000_S2000000x1_0 : (⟨S2000000, .i32⟩ : BufTy).Contents (Elt F) → (⟨S2000000x1, .i32⟩ : BufTy).Contents (Elt F)),
    StableHlo.binary main_v50 main_v56 main_v57 ((fun x i => Host.gather gather_S2000000_S2000000x1_S2000000_n_0_n_n_0_1_1 x i) : (⟨S2000000, .i32⟩ : BufTy).Contents (Elt F) → (⟨S2000000x1, .i32⟩ : BufTy).Contents (Elt F) → (⟨S2000000, .i32⟩ : BufTy).Contents (Elt F)),
    StableHlo.binary main_v41 main_v46 main_v58 (andi : (⟨S2000000, .i1⟩ : BufTy).Contents (Elt F) → (⟨S2000000, .i1⟩ : BufTy).Contents (Elt F) → (⟨S2000000, .i1⟩ : BufTy).Contents (Elt F)),
    StableHlo.unary main_v58 main_v59 ((extui 32 · natLt_1_32) : (⟨S2000000, .i1⟩ : BufTy).Contents (Elt F) → (⟨S2000000, .i32⟩ : BufTy).Contents (Elt F)),
    StableHlo.nullary main_c_14 (constantI S_ 32 0#32),
    StableHlo.binary main_v59 main_c_14 main_v60 ((fun x v => Host.reduce IntOp.addi x v reducesTo_S2000000_S_d0 h_S_) : (⟨S2000000, .i32⟩ : BufTy).Contents (Elt F) → (⟨S_, .i32⟩ : BufTy).Contents (Elt F) → (⟨S_, .i32⟩ : BufTy).Contents (Elt F)),
    StableHlo.nullary main_c_15 (constantI S_ 32 120000#32),
    StableHlo.binary main_v60 main_c_15 main_v61 (minsi : (⟨S_, .i32⟩ : BufTy).Contents (Elt F) → (⟨S_, .i32⟩ : BufTy).Contents (Elt F) → (⟨S_, .i32⟩ : BufTy).Contents (Elt F)),
    StableHlo.nullary main_c_16 (constantI S_ 32 32#32),
    StableHlo.unary main_c_16 main_v62 (broadcastInDim S2000000 ![] bcast_S_S2000000 : (⟨S_, .i32⟩ : BufTy).Contents (Elt F) → (⟨S2000000, .i32⟩ : BufTy).Contents (Elt F)),
    StableHlo.binary main_v44 main_v62 main_v63 (cmpi .slt : (⟨S2000000, .i32⟩ : BufTy).Contents (Elt F) → (⟨S2000000, .i32⟩ : BufTy).Contents (Elt F) → (⟨S2000000, .i1⟩ : BufTy).Contents (Elt F)),
    StableHlo.binary main_v46 main_v63 main_v64 (andi : (⟨S2000000, .i1⟩ : BufTy).Contents (Elt F) → (⟨S2000000, .i1⟩ : BufTy).Contents (Elt F) → (⟨S2000000, .i1⟩ : BufTy).Contents (Elt F)),
    StableHlo.nullary main_c_17 (constantI S_ 32 120000#32),
    StableHlo.unary main_c_17 main_v65 (broadcastInDim S2000000 ![] bcast_S_S2000000 : (⟨S_, .i32⟩ : BufTy).Contents (Elt F) → (⟨S2000000, .i32⟩ : BufTy).Contents (Elt F)),
    StableHlo.binary main_v57 main_v65 main_v66 (cmpi .slt : (⟨S2000000, .i32⟩ : BufTy).Contents (Elt F) → (⟨S2000000, .i32⟩ : BufTy).Contents (Elt F) → (⟨S2000000, .i1⟩ : BufTy).Contents (Elt F)),
    StableHlo.binary main_v64 main_v66 main_v67 (andi : (⟨S2000000, .i1⟩ : BufTy).Contents (Elt F) → (⟨S2000000, .i1⟩ : BufTy).Contents (Elt F) → (⟨S2000000, .i1⟩ : BufTy).Contents (Elt F)),
    StableHlo.nullary main_c_18 (constantI S_ 32 120000#32) ]
/-- Window 1, stretch 5 (@where, call 7). -/
abbrev w1_5 : List (HloOp τ sig (Elt F)) :=
  [ StableHlo.TRef.unary (.of main_c_18 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S2000000, .i32⟩) (broadcastInDim S2000000 ![] bcast_S_S2000000),
    StableHlo.TRef.ternary (.of main_v67 : StableHlo.TRef sig ⟨S2000000, .i1⟩) (.of main_v57 : StableHlo.TRef sig ⟨S2000000, .i32⟩) (.of main_call7_v1 : StableHlo.TRef sig ⟨S2000000, .i32⟩) (.of main_v68 : StableHlo.TRef sig ⟨S2000000, .i32⟩) select ]
/-- Window 1, stretch 6 (main). -/
abbrev w1_6 : List (HloOp τ sig (Elt F)) :=
  [ StableHlo.nullary main_c_19 (constantI S_ 32 0#32) ]
/-- Window 1, stretch 7 (@where, call 8). -/
abbrev w1_7 : List (HloOp τ sig (Elt F)) :=
  [ StableHlo.TRef.unary (.of main_c_19 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S2000000, .i32⟩) (broadcastInDim S2000000 ![] bcast_S_S2000000),
    StableHlo.TRef.ternary (.of main_v67 : StableHlo.TRef sig ⟨S2000000, .i1⟩) (.of main_v44 : StableHlo.TRef sig ⟨S2000000, .i32⟩) (.of main_call8_v1 : StableHlo.TRef sig ⟨S2000000, .i32⟩) (.of main_v69 : StableHlo.TRef sig ⟨S2000000, .i32⟩) select ]
/-- Window 1, stretch 8 (main). -/
abbrev w1_8 : List (HloOp τ sig (Elt F)) :=
  [ StableHlo.nullary main_cst_20 (constant S_ .f32 0x00000000#32),
    StableHlo.unary main_cst_20 main_v70 (broadcastInDim S120001x32x4 ![] bcast_S_S120001x32x4 : (⟨S_, .f32⟩ : BufTy).Contents (Elt F) → (⟨S120001x32x4, .f32⟩ : BufTy).Contents (Elt F)),
    StableHlo.nullary main_c_21 (constantI S_ 32 0#32),
    StableHlo.unary main_c_21 main_v71 (broadcastInDim S2000000 ![] bcast_S_S2000000 : (⟨S_, .i32⟩ : BufTy).Contents (Elt F) → (⟨S2000000, .i32⟩ : BufTy).Contents (Elt F)),
    StableHlo.binary main_v29 main_v71 main_v72 (cmpi .slt : (⟨S2000000, .i32⟩ : BufTy).Contents (Elt F) → (⟨S2000000, .i32⟩ : BufTy).Contents (Elt F) → (⟨S2000000, .i1⟩ : BufTy).Contents (Elt F)),
    StableHlo.nullary main_c_22 (constantI S_ 32 2000000#32),
    StableHlo.unary main_c_22 main_v73 (broadcastInDim S2000000 ![] bcast_S_S2000000 : (⟨S_, .i32⟩ : BufTy).Contents (Elt F) → (⟨S2000000, .i32⟩ : BufTy).Contents (Elt F)),
    StableHlo.binary main_v29 main_v73 main_v74 (addi : (⟨S2000000, .i32⟩ : BufTy).Contents (Elt F) → (⟨S2000000, .i32⟩ : BufTy).Contents (Elt F) → (⟨S2000000, .i32⟩ : BufTy).Contents (Elt F)),
    StableHlo.ternary main_v72 main_v74 main_v29 main_v75 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v75 main_v76 (broadcastInDim S2000000x1 ![0] bcast_S2000000_S2000000x1_0 : (⟨S2000000, .i32⟩ : BufTy).Contents (Elt F) → (⟨S2000000x1, .i32⟩ : BufTy).Contents (Elt F)),
    StableHlo.binary main_arg0 main_v76 main_v77 ((fun x i => Host.gather gather_S2000000x4_S2000000x1_S2000000x4_1_0_n_n_0_1_14 x i) : (⟨S2000000x4, .f32⟩ : BufTy).Contents (Elt F) → (⟨S2000000x1, .i32⟩ : BufTy).Contents (Elt F) → (⟨S2000000x4, .f32⟩ : BufTy).Contents (Elt F)),
    StableHlo.nullary main_c_23 (constantI S_ 32 0#32),
    StableHlo.unary main_c_23 main_v78 (broadcastInDim S2000000 ![] bcast_S_S2000000 : (⟨S_, .i32⟩ : BufTy).Contents (Elt F) → (⟨S2000000, .i32⟩ : BufTy).Contents (Elt F)),
    StableHlo.binary main_v68 main_v78 main_v79 (cmpi .slt : (⟨S2000000, .i32⟩ : BufTy).Contents (Elt F) → (⟨S2000000, .i32⟩ : BufTy).Contents (Elt F) → (⟨S2000000, .i1⟩ : BufTy).Contents (Elt F)),
    StableHlo.nullary main_c_24 (constantI S_ 32 120001#32),
    StableHlo.unary main_c_24 main_v80 (broadcastInDim S2000000 ![] bcast_S_S2000000 : (⟨S_, .i32⟩ : BufTy).Contents (Elt F) → (⟨S2000000, .i32⟩ : BufTy).Contents (Elt F)),
    StableHlo.binary main_v68 main_v80 main_v81 (addi : (⟨S2000000, .i32⟩ : BufTy).Contents (Elt F) → (⟨S2000000, .i32⟩ : BufTy).Contents (Elt F) → (⟨S2000000, .i32⟩ : BufTy).Contents (Elt F)),
    StableHlo.ternary main_v79 main_v81 main_v68 main_v82 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_25 (constantI S_ 32 0#32),
    StableHlo.unary main_c_25 main_v83 (broadcastInDim S2000000 ![] bcast_S_S2000000 : (⟨S_, .i32⟩ : BufTy).Contents (Elt F) → (⟨S2000000, .i32⟩ : BufTy).Contents (Elt F)),
    StableHlo.binary main_v69 main_v83 main_v84 (cmpi .slt : (⟨S2000000, .i32⟩ : BufTy).Contents (Elt F) → (⟨S2000000, .i32⟩ : BufTy).Contents (Elt F) → (⟨S2000000, .i1⟩ : BufTy).Contents (Elt F)),
    StableHlo.nullary main_c_26 (constantI S_ 32 32#32),
    StableHlo.unary main_c_26 main_v85 (broadcastInDim S2000000 ![] bcast_S_S2000000 : (⟨S_, .i32⟩ : BufTy).Contents (Elt F) → (⟨S2000000, .i32⟩ : BufTy).Contents (Elt F)),
    StableHlo.binary main_v69 main_v85 main_v86 (addi : (⟨S2000000, .i32⟩ : BufTy).Contents (Elt F) → (⟨S2000000, .i32⟩ : BufTy).Contents (Elt F) → (⟨S2000000, .i32⟩ : BufTy).Contents (Elt F)),
    StableHlo.ternary main_v84 main_v86 main_v69 main_v87 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v82 main_v88 (broadcastInDim S2000000x1 ![0] bcast_S2000000_S2000000x1_0 : (⟨S2000000, .i32⟩ : BufTy).Contents (Elt F) → (⟨S2000000x1, .i32⟩ : BufTy).Contents (Elt F)),
    StableHlo.unary main_v87 main_v89 (broadcastInDim S2000000x1 ![0] bcast_S2000000_S2000000x1_0 : (⟨S2000000, .i32⟩ : BufTy).Contents (Elt F) → (⟨S2000000x1, .i32⟩ : BufTy).Contents (Elt F)),
    StableHlo.binary main_v88 main_v89 main_v90 ((fun a b => concatenate S2000000x2 1 [⟨S2000000x1, a⟩, ⟨S2000000x1, b⟩] concatenates_S2000000x1_S2000000x1_S2000000x2_d1) : (⟨S2000000x1, .i32⟩ : BufTy).Contents (Elt F) → (⟨S2000000x1, .i32⟩ : BufTy).Contents (Elt F) → (⟨S2000000x2, .i32⟩ : BufTy).Contents (Elt F)) ]
/-- Window 2, stretch 0 (main). -/
abbrev w2_0 : List (HloOp τ sig (Elt F)) :=
  [ StableHlo.ternary main_v70 main_v90 main_v77 main_v91 ((fun x i u => Host.scatter scatter_S120001x32x4_S2000000x2_S2000000x4_1_01_01_1 (fun _ b => b) x i u) : (⟨S120001x32x4, .f32⟩ : BufTy).Contents (Elt F) → (⟨S2000000x2, .i32⟩ : BufTy).Contents (Elt F) → (⟨S2000000x4, .f32⟩ : BufTy).Contents (Elt F) → (⟨S120001x32x4, .f32⟩ : BufTy).Contents (Elt F)),
    StableHlo.unary main_v91 main_v92 ((extractStridedSlice S120000x32x4 ![0, 0, 0] · slices_S120001x32x4_S120000x32x4_0_0_0) : (⟨S120001x32x4, .f32⟩ : BufTy).Contents (Elt F) → (⟨S120000x32x4, .f32⟩ : BufTy).Contents (Elt F)),
    StableHlo.nullary main_c_27 (constantI S_ 32 0#32),
    StableHlo.unary main_c_27 main_v93 (broadcastInDim S2000000 ![] bcast_S_S2000000 : (⟨S_, .i32⟩ : BufTy).Contents (Elt F) → (⟨S2000000, .i32⟩ : BufTy).Contents (Elt F)),
    StableHlo.binary main_v29 main_v93 main_v94 (cmpi .slt : (⟨S2000000, .i32⟩ : BufTy).Contents (Elt F) → (⟨S2000000, .i32⟩ : BufTy).Contents (Elt F) → (⟨S2000000, .i1⟩ : BufTy).Contents (Elt F)),
    StableHlo.nullary main_c_28 (constantI S_ 32 2000000#32),
    StableHlo.unary main_c_28 main_v95 (broadcastInDim S2000000 ![] bcast_S_S2000000 : (⟨S_, .i32⟩ : BufTy).Contents (Elt F) → (⟨S2000000, .i32⟩ : BufTy).Contents (Elt F)),
    StableHlo.binary main_v29 main_v95 main_v96 (addi : (⟨S2000000, .i32⟩ : BufTy).Contents (Elt F) → (⟨S2000000, .i32⟩ : BufTy).Contents (Elt F) → (⟨S2000000, .i32⟩ : BufTy).Contents (Elt F)),
    StableHlo.ternary main_v94 main_v96 main_v29 main_v97 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v97 main_v98 (broadcastInDim S2000000x1 ![0] bcast_S2000000_S2000000x1_0 : (⟨S2000000, .i32⟩ : BufTy).Contents (Elt F) → (⟨S2000000x1, .i32⟩ : BufTy).Contents (Elt F)),
    StableHlo.binary main_v8 main_v98 main_v99 ((fun x i => Host.gather gather_S2000000x3_S2000000x1_S2000000x3_1_0_n_n_0_1_13 x i) : (⟨S2000000x3, .i32⟩ : BufTy).Contents (Elt F) → (⟨S2000000x1, .i32⟩ : BufTy).Contents (Elt F) → (⟨S2000000x3, .i32⟩ : BufTy).Contents (Elt F)),
    StableHlo.unary main_v99 main_v100 (Host.reverse [1] : (⟨S2000000x3, .i32⟩ : BufTy).Contents (Elt F) → (⟨S2000000x3, .i32⟩ : BufTy).Contents (Elt F)),
    StableHlo.binary main_v41 main_v46 main_v101 (andi : (⟨S2000000, .i1⟩ : BufTy).Contents (Elt F) → (⟨S2000000, .i1⟩ : BufTy).Contents (Elt F) → (⟨S2000000, .i1⟩ : BufTy).Contents (Elt F)),
    StableHlo.nullary main_c_29 (constantI S_ 32 120000#32),
    StableHlo.unary main_c_29 main_v102 (broadcastInDim S2000000 ![] bcast_S_S2000000 : (⟨S_, .i32⟩ : BufTy).Contents (Elt F) → (⟨S2000000, .i32⟩ : BufTy).Contents (Elt F)),
    StableHlo.binary main_v57 main_v102 main_v103 (cmpi .slt : (⟨S2000000, .i32⟩ : BufTy).Contents (Elt F) → (⟨S2000000, .i32⟩ : BufTy).Contents (Elt F) → (⟨S2000000, .i1⟩ : BufTy).Contents (Elt F)),
    StableHlo.binary main_v101 main_v103 main_v104 (andi : (⟨S2000000, .i1⟩ : BufTy).Contents (Elt F) → (⟨S2000000, .i1⟩ : BufTy).Contents (Elt F) → (⟨S2000000, .i1⟩ : BufTy).Contents (Elt F)),
    StableHlo.nullary main_c_30 (constantI S_ 32 120000#32) ]
/-- Window 2, stretch 1 (@where, call 9). -/
abbrev w2_1 : List (HloOp τ sig (Elt F)) :=
  [ StableHlo.TRef.unary (.of main_c_30 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S2000000, .i32⟩) (broadcastInDim S2000000 ![] bcast_S_S2000000),
    StableHlo.TRef.ternary (.of main_v104 : StableHlo.TRef sig ⟨S2000000, .i1⟩) (.of main_v57 : StableHlo.TRef sig ⟨S2000000, .i32⟩) (.of main_call9_v1 : StableHlo.TRef sig ⟨S2000000, .i32⟩) (.of main_v105 : StableHlo.TRef sig ⟨S2000000, .i32⟩) select ]
/-- Window 2, stretch 2 (main). -/
abbrev w2_2 : List (HloOp τ sig (Elt F)) :=
  [ StableHlo.nullary main_c_31 (constantI S_ 32 0#32),
    StableHlo.unary main_c_31 main_v106 (broadcastInDim S120001x3 ![] bcast_S_S120001x3 : (⟨S_, .i32⟩ : BufTy).Contents (Elt F) → (⟨S120001x3, .i32⟩ : BufTy).Contents (Elt F)),
    StableHlo.nullary main_c_32 (constantI S_ 32 0#32),
    StableHlo.unary main_c_32 main_v107 (broadcastInDim S2000000 ![] bcast_S_S2000000 : (⟨S_, .i32⟩ : BufTy).Contents (Elt F) → (⟨S2000000, .i32⟩ : BufTy).Contents (Elt F)),
    StableHlo.binary main_v105 main_v107 main_v108 (cmpi .slt : (⟨S2000000, .i32⟩ : BufTy).Contents (Elt F) → (⟨S2000000, .i32⟩ : BufTy).Contents (Elt F) → (⟨S2000000, .i1⟩ : BufTy).Contents (Elt F)),
    StableHlo.nullary main_c_33 (constantI S_ 32 120001#32),
    StableHlo.unary main_c_33 main_v109 (broadcastInDim S2000000 ![] bcast_S_S2000000 : (⟨S_, .i32⟩ : BufTy).Contents (Elt F) → (⟨S2000000, .i32⟩ : BufTy).Contents (Elt F)),
    StableHlo.binary main_v105 main_v109 main_v110 (addi : (⟨S2000000, .i32⟩ : BufTy).Contents (Elt F) → (⟨S2000000, .i32⟩ : BufTy).Contents (Elt F) → (⟨S2000000, .i32⟩ : BufTy).Contents (Elt F)),
    StableHlo.ternary main_v108 main_v110 main_v105 main_v111 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v111 main_v112 (broadcastInDim S2000000x1 ![0] bcast_S2000000_S2000000x1_0 : (⟨S2000000, .i32⟩ : BufTy).Contents (Elt F) → (⟨S2000000x1, .i32⟩ : BufTy).Contents (Elt F)),
    StableHlo.ternary main_v106 main_v112 main_v100 main_v113 ((fun x i u => Host.scatter scatter_S120001x3_S2000000x1_S2000000x3_1_0_0_1 (fun _ b => b) x i u) : (⟨S120001x3, .i32⟩ : BufTy).Contents (Elt F) → (⟨S2000000x1, .i32⟩ : BufTy).Contents (Elt F) → (⟨S2000000x3, .i32⟩ : BufTy).Contents (Elt F) → (⟨S120001x3, .i32⟩ : BufTy).Contents (Elt F)),
    StableHlo.unary main_v113 main_v114 ((extractStridedSlice S120000x3 ![0, 0] · slices_S120001x3_S120000x3_0_0) : (⟨S120001x3, .i32⟩ : BufTy).Contents (Elt F) → (⟨S120000x3, .i32⟩ : BufTy).Contents (Elt F)),
    StableHlo.nullary main_c_34 (constantI S_ 32 0#32),
    StableHlo.unary main_c_34 main_v115 (broadcastInDim S120001 ![] bcast_S_S120001 : (⟨S_, .i32⟩ : BufTy).Contents (Elt F) → (⟨S120001, .i32⟩ : BufTy).Contents (Elt F)),
    StableHlo.unary main_v67 main_v116 ((extui 32 · natLt_1_32) : (⟨S2000000, .i1⟩ : BufTy).Contents (Elt F) → (⟨S2000000, .i32⟩ : BufTy).Contents (Elt F)),
    StableHlo.nullary main_c_35 (constantI S_ 32 0#32),
    StableHlo.unary main_c_35 main_v117 (broadcastInDim S2000000 ![] bcast_S_S2000000 : (⟨S_, .i32⟩ : BufTy).Contents (Elt F) → (⟨S2000000, .i32⟩ : BufTy).Contents (Elt F)),
    StableHlo.binary main_v68 main_v117 main_v118 (cmpi .slt : (⟨S2000000, .i32⟩ : BufTy).Contents (Elt F) → (⟨S2000000, .i32⟩ : BufTy).Contents (Elt F) → (⟨S2000000, .i1⟩ : BufTy).Contents (Elt F)),
    StableHlo.nullary main_c_36 (constantI S_ 32 120001#32),
    StableHlo.unary main_c_36 main_v119 (broadcastInDim S2000000 ![] bcast_S_S2000000 : (⟨S_, .i32⟩ : BufTy).Contents (Elt F) → (⟨S2000000, .i32⟩ : BufTy).Contents (Elt F)),
    StableHlo.binary main_v68 main_v119 main_v120 (addi : (⟨S2000000, .i32⟩ : BufTy).Contents (Elt F) → (⟨S2000000, .i32⟩ : BufTy).Contents (Elt F) → (⟨S2000000, .i32⟩ : BufTy).Contents (Elt F)),
    StableHlo.ternary main_v118 main_v120 main_v68 main_v121 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v121 main_v122 (broadcastInDim S2000000x1 ![0] bcast_S2000000_S2000000x1_0 : (⟨S2000000, .i32⟩ : BufTy).Contents (Elt F) → (⟨S2000000x1, .i32⟩ : BufTy).Contents (Elt F)),
    StableHlo.ternary main_v115 main_v122 main_v116 main_v123 ((fun x i u => Host.scatter scatter_S120001_S2000000x1_S2000000_n_0_0_1 IntOp.addi x i u) : (⟨S120001, .i32⟩ : BufTy).Contents (Elt F) → (⟨S2000000x1, .i32⟩ : BufTy).Contents (Elt F) → (⟨S2000000, .i32⟩ : BufTy).Contents (Elt F) → (⟨S120001, .i32⟩ : BufTy).Contents (Elt F)),
    StableHlo.unary main_v123 main_v124 ((extractStridedSlice S120000 ![0] · slices_S120001_S120000_0) : (⟨S120001, .i32⟩ : BufTy).Contents (Elt F) → (⟨S120000, .i32⟩ : BufTy).Contents (Elt F)) ]

theorem part0_chain (c : Dev nD) : main_part0 (F := F) c = (Pipeline.chainK
  [ seq w0_0, seq w0_1, seq w0_2, seq w0_3, seq w0_4, seq w0_5 ]
  (seq w0_6) : Prog (TpuEff nD τ sig (Elt F) (Pipeline.Sig Λ₀ (Fin 0) fun p => (pcfgs (F := F) p).Adm) .tc) PUnit) := by
  chain_rfl

theorem part1_chain (c : Dev nD) : main_part1 (F := F) c = (Pipeline.chainK
  [ seq w1_0, seq w1_1, seq w1_2, seq w1_3, seq w1_4, seq w1_5, seq w1_6, seq w1_7 ]
  (seq w1_8) : Prog (TpuEff nD τ sig (Elt F) (Pipeline.Sig Λ₀ (Fin 0) fun p => (pcfgs (F := F) p).Adm) .tc) PUnit) := by
  chain_rfl

theorem part2_chain (c : Dev nD) : main_part2 (F := F) c = (Pipeline.chain
  [ seq w2_0, seq w2_1, seq w2_2 ] : Prog (TpuEff nD τ sig (Elt F) (Pipeline.Sig Λ₀ (Fin 0) fun p => (pcfgs (F := F) p).Adm) .tc) PUnit) := by
  chain_rfl

/-- The stretches of the three windows, in order. -/
abbrev stretches : List (List (HloOp τ sig (Elt F))) :=
  [ w0_0, w0_1, w0_2, w0_3, w0_4, w0_5, w0_6, w1_0, w1_1, w1_2, w1_3, w1_4, w1_5, w1_6, w1_7, w1_8, w2_0, w2_1, w2_2 ]

theorem main_chain (c : Dev nD) : main (F := F) c = (Pipeline.chain (stretches.map seq) : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c) = _
  rewrite [part2_chain, part1_chain, Pipeline.chainK_bind_chain, part0_chain, Pipeline.chainK_bind_chain]
  chain_rfl

/-- A chain of lines is the line of their concatenation. -/
theorem chain_map_seq {nD : Nat} {τ : Topo} {sig : RefSig} {Val : EltTy → Type} {Λ : Labels} :
    ∀ ls : List (List (HloOp τ sig Val)),
      (Pipeline.chain (ls.map seq) : Prog (TpuEff nD τ sig Val Λ .tc) PUnit) = seq ls.flatten
  | [] => rfl
  | l :: ls => by
    rw [List.map_cons, Pipeline.chain_cons, List.flatten_cons, seq_append, chain_map_seq ls]

theorem stretches_flatten : (stretches : List (List (HloOp τ sig (Elt F)))).flatten = headR ++ tailR := rfl

theorem main_eq (c : Dev nD) : main (F := F) c = seq (headR ++ tailR) := by
  rw [main_chain c, chain_map_seq, stretches_flatten]

/-! ## The run -/

theorem scopedRefs_eq : (Finset.univ.filter fun b : Ref sig .tc => b.isScoped) = ∅ := by decide
theorem scopedSems_eq : (Finset.univ.filter fun sm : SemLoc sig => sm.isScoped .tc) = ∅ := by decide

theorem headR_sub : (headR : List (HloOp τ sig (Elt F))).Forall fun op => op.bufs ⊆ tcRefs τ sig :=
  ⟨nullary_bufs_sub .., nullary_bufs_sub .., nullary_bufs_sub .., nullary_bufs_sub .., unary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., unary_bufs_sub .., unary_bufs_sub .., binary_bufs_sub .., binary_bufs_sub .., nullary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., binary_bufs_sub .., unary_bufs_sub .., reshape_bufs_sub .., binary_bufs_sub .., nullary_bufs_sub .., unary_bufs_sub .., unary_bufs_sub .., ternary_bufs_sub ..⟩

theorem tailR_sub : (tailR : List (HloOp τ sig (Elt F))).Forall fun op => op.bufs ⊆ tcRefs τ sig :=
  ⟨nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., binary_bufs_sub .., binary_bufs_sub .., nullary_bufs_sub .., unary_bufs_sub .., unary_bufs_sub .., ternary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., nullary_bufs_sub .., binary_bufs_sub .., binary_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., binary_bufs_sub .., nullary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub ..⟩

theorem ops_sub : (headR ++ tailR : List (HloOp τ sig (Elt F))).Forall fun op => op.bufs ⊆ tcRefs τ sig :=
  List.forall_append.mpr ⟨headR_sub, tailR_sub⟩

theorem headR_fresh : (headR : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem tailR_fresh : (tailR : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- On every device, for any float values, from any memory with zero counters: every weakly fair execution of @main
    terminates with each buffer at the fold of the operations over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after (headR ++ tailR) (StableHlo.launchContents m c) (Proc.devRef .tc b) :=
  run_seq scopedRefs_eq scopedSems_eq defs main (fun _ => headR ++ tailR) main_eq (fun _ => ops_sub) m ρ
    (fun _ op h => (List.mem_append.mp h).elim (List.forall_iff_forall_mem.mp headR_fresh op)
      (List.forall_iff_forall_mem.mp tailR_fresh op))

/-- No operation writes the argument: it is kept. -/
theorem kept_arg0 (V : Valuation τ sig (Elt F)) :
    StableHlo.after (headR ++ tailR) V (Proc.devRef .tc main_arg0) = V (Proc.devRef .tc main_arg0) :=
  after_of_forall_not_mem (b := Proc.devRef .tc main_arg0) _ _ (List.forall_iff_forall_mem.mp (by
    simp only [headR, tailR, List.cons_append, List.nil_append, List.Forall, nullary_writes, unary_writes, binary_writes,
      ternary_writes, quaternary_writes, reshape_writes, Finset.mem_singleton]
    repeat' apply And.intro
    all_goals exact devRef_ne_of_ne (by decide)))

end Cert.ReferenceIdeal.RefRun

end
-- ==== Proof.RefHead.lean ====
/-
  What the reference's first forty host lines leave: the vector of linear keys and the three-column array of cell
  coordinates as the two pure functions of the argument array, the one-element constant, and the argument array untouched.

  The forty lines are read in four consecutive stretches — up to the cell coordinates, up to the validity bit, up to
  the linear index, and the final selection —, each stretch's result stated for arbitrary contents before it as a pure
  function of the values it reads, and the four joined.
-/
import proofs.«172231_j28063316312325_2_alg».proof.Proof.RefRun
import proofs.«172231_j28063316312325_2_alg».proof.Proof.HeadDefs
import Idealize.ShloMosaic.Lib.Pipeline.Frame

noncomputable section

namespace Cert.ReferenceIdeal.RefHead

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## The four stretches -/

/-- Up to the cell coordinates `%8`. -/
abbrev headA : List (HloOp τ sig (Elt F)) :=
  [ StableHlo.nullary main_cst (fun i => FloatOps.ofBits .f32 (lit0 (S3.rowMajor i))),
    StableHlo.nullary main_cst_0 (fun i => FloatOps.ofBits .f32 (lit1 (S3.rowMajor i))),
    StableHlo.nullary main_c (fun i => lit2 (S3.rowMajor i)),
    StableHlo.nullary main_c_1 (constantI S1 1 1#1),
    StableHlo.unary main_arg0 main_v0 ((extractStridedSlice S2000000x3 ![0, 0] · slices_S2000000x4_S2000000x3_0_0) : (⟨S2000000x4, .f32⟩ : BufTy).Contents (Elt F) → (⟨S2000000x3, .f32⟩ : BufTy).Contents (Elt F)),
    StableHlo.unary main_cst_0 main_v1 (broadcastInDim S1x3 ![1] bcast_S3_S1x3_1 : (⟨S3, .f32⟩ : BufTy).Contents (Elt F) → (⟨S1x3, .f32⟩ : BufTy).Contents (Elt F)),
    StableHlo.unary main_v1 main_v2 (broadcastInDim S2000000x3 ![0, 1] bcast_S1x3_S2000000x3_0_1 : (⟨S1x3, .f32⟩ : BufTy).Contents (Elt F) → (⟨S2000000x3, .f32⟩ : BufTy).Contents (Elt F)),
    StableHlo.binary main_v0 main_v2 main_v3 (subf : (⟨S2000000x3, .f32⟩ : BufTy).Contents (Elt F) → (⟨S2000000x3, .f32⟩ : BufTy).Contents (Elt F) → (⟨S2000000x3, .f32⟩ : BufTy).Contents (Elt F)),
    StableHlo.unary main_cst main_v4 (broadcastInDim S1x3 ![1] bcast_S3_S1x3_1 : (⟨S3, .f32⟩ : BufTy).Contents (Elt F) → (⟨S1x3, .f32⟩ : BufTy).Contents (Elt F)),
    StableHlo.unary main_v4 main_v5 (broadcastInDim S2000000x3 ![0, 1] bcast_S1x3_S2000000x3_0_1 : (⟨S1x3, .f32⟩ : BufTy).Contents (Elt F) → (⟨S2000000x3, .f32⟩ : BufTy).Contents (Elt F)),
    StableHlo.binary main_v3 main_v5 main_v6 (Host.divf : (⟨S2000000x3, .f32⟩ : BufTy).Contents (Elt F) → (⟨S2000000x3, .f32⟩ : BufTy).Contents (Elt F) → (⟨S2000000x3, .f32⟩ : BufTy).Contents (Elt F)),
    StableHlo.unary main_v6 main_v7 (Host.floor : (⟨S2000000x3, .f32⟩ : BufTy).Contents (Elt F) → (⟨S2000000x3, .f32⟩ : BufTy).Contents (Elt F)),
    StableHlo.unary main_v7 main_v8 (fptosi 32 : (⟨S2000000x3, .f32⟩ : BufTy).Contents (Elt F) → (⟨S2000000x3, .i32⟩ : BufTy).Contents (Elt F)) ]

/-- From there up to the validity bit `%15`. -/
abbrev headB : List (HloOp τ sig (Elt F)) :=
  [ StableHlo.nullary main_c_2 (constantI S_ 32 0#32),
    StableHlo.unary main_c_2 main_v9 (broadcastInDim S2000000x3 ![] bcast_S_S2000000x3 : (⟨S_, .i32⟩ : BufTy).Contents (Elt F) → (⟨S2000000x3, .i32⟩ : BufTy).Contents (Elt F)),
    StableHlo.binary main_v8 main_v9 main_v10 (cmpi .sge : (⟨S2000000x3, .i32⟩ : BufTy).Contents (Elt F) → (⟨S2000000x3, .i32⟩ : BufTy).Contents (Elt F) → (⟨S2000000x3, .i1⟩ : BufTy).Contents (Elt F)),
    StableHlo.unary main_c main_v11 (broadcastInDim S1x3 ![1] bcast_S3_S1x3_1 : (⟨S3, .i32⟩ : BufTy).Contents (Elt F) → (⟨S1x3, .i32⟩ : BufTy).Contents (Elt F)),
    StableHlo.unary main_v11 main_v12 (broadcastInDim S2000000x3 ![0, 1] bcast_S1x3_S2000000x3_0_1 : (⟨S1x3, .i32⟩ : BufTy).Contents (Elt F) → (⟨S2000000x3, .i32⟩ : BufTy).Contents (Elt F)),
    StableHlo.binary main_v8 main_v12 main_v13 (cmpi .slt : (⟨S2000000x3, .i32⟩ : BufTy).Contents (Elt F) → (⟨S2000000x3, .i32⟩ : BufTy).Contents (Elt F) → (⟨S2000000x3, .i1⟩ : BufTy).Contents (Elt F)),
    StableHlo.binary main_v10 main_v13 main_v14 (andi : (⟨S2000000x3, .i1⟩ : BufTy).Contents (Elt F) → (⟨S2000000x3, .i1⟩ : BufTy).Contents (Elt F) → (⟨S2000000x3, .i1⟩ : BufTy).Contents (Elt F)),
    StableHlo.nullary main_c_3 (constantI S_ 1 1#1),
    StableHlo.binary main_v14 main_c_3 main_v15 ((fun x v => Host.reduce IntOp.andi x v reducesTo_S2000000x3_S2000000_d1 h_S_) : (⟨S2000000x3, .i1⟩ : BufTy).Contents (Elt F) → (⟨S_, .i1⟩ : BufTy).Contents (Elt F) → (⟨S2000000, .i1⟩ : BufTy).Contents (Elt F)) ]

/-- From there up to the linear index `%27`. -/
abbrev headC : List (HloOp τ sig (Elt F)) :=
  [ StableHlo.unary main_v8 main_v16 ((extractStridedSlice S2000000x1 ![0, 2] · slices_S2000000x3_S2000000x1_0_2) : (⟨S2000000x3, .i32⟩ : BufTy).Contents (Elt F) → (⟨S2000000x1, .i32⟩ : BufTy).Contents (Elt F)),
    StableHlo.reshape main_v16 main_v17 rfl shapeCasts_S2000000x1_S2000000,
    StableHlo.nullary main_c_4 (constantI S_ 32 2252800#32),
    StableHlo.unary main_c_4 main_v18 (broadcastInDim S2000000 ![] bcast_S_S2000000 : (⟨S_, .i32⟩ : BufTy).Contents (Elt F) → (⟨S2000000, .i32⟩ : BufTy).Contents (Elt F)),
    StableHlo.binary main_v17 main_v18 main_v19 (muli : (⟨S2000000, .i32⟩ : BufTy).Contents (Elt F) → (⟨S2000000, .i32⟩ : BufTy).Contents (Elt F) → (⟨S2000000, .i32⟩ : BufTy).Contents (Elt F)),
    StableHlo.unary main_v8 main_v20 ((extractStridedSlice S2000000x1 ![0, 1] · slices_S2000000x3_S2000000x1_0_1) : (⟨S2000000x3, .i32⟩ : BufTy).Contents (Elt F) → (⟨S2000000x1, .i32⟩ : BufTy).Contents (Elt F)),
    StableHlo.reshape main_v20 main_v21 rfl shapeCasts_S2000000x1_S2000000,
    StableHlo.nullary main_c_5 (constantI S_ 32 1408#32),
    StableHlo.unary main_c_5 main_v22 (broadcastInDim S2000000 ![] bcast_S_S2000000 : (⟨S_, .i32⟩ : BufTy).Contents (Elt F) → (⟨S2000000, .i32⟩ : BufTy).Contents (Elt F)),
    StableHlo.binary main_v21 main_v22 main_v23 (muli : (⟨S2000000, .i32⟩ : BufTy).Contents (Elt F) → (⟨S2000000, .i32⟩ : BufTy).Contents (Elt F) → (⟨S2000000, .i32⟩ : BufTy).Contents (Elt F)),
    StableHlo.binary main_v19 main_v23 main_v24 (addi : (⟨S2000000, .i32⟩ : BufTy).Contents (Elt F) → (⟨S2000000, .i32⟩ : BufTy).Contents (Elt F) → (⟨S2000000, .i32⟩ : BufTy).Contents (Elt F)),
    StableHlo.unary main_v8 main_v25 ((extractStridedSlice S2000000x1 ![0, 0] · slices_S2000000x3_S2000000x1_0_0) : (⟨S2000000x3, .i32⟩ : BufTy).Contents (Elt F) → (⟨S2000000x1, .i32⟩ : BufTy).Contents (Elt F)),
    StableHlo.reshape main_v25 main_v26 rfl shapeCasts_S2000000x1_S2000000,
    StableHlo.binary main_v24 main_v26 main_v27 (addi : (⟨S2000000, .i32⟩ : BufTy).Contents (Elt F) → (⟨S2000000, .i32⟩ : BufTy).Contents (Elt F) → (⟨S2000000, .i32⟩ : BufTy).Contents (Elt F)) ]

/-- The selection against the out-of-range code, `%28`. -/
abbrev headD : List (HloOp τ sig (Elt F)) :=
  [ StableHlo.nullary main_c_6 (constantI S_ 32 90112000#32),
    StableHlo.TRef.unary (.of main_c_6 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S2000000, .i32⟩) (broadcastInDim S2000000 ![] bcast_S_S2000000),
    StableHlo.TRef.ternary (.of main_v15 : StableHlo.TRef sig ⟨S2000000, .i1⟩) (.of main_v27 : StableHlo.TRef sig ⟨S2000000, .i32⟩) (.of main_call0_v1 : StableHlo.TRef sig ⟨S2000000, .i32⟩) (.of main_v28 : StableHlo.TRef sig ⟨S2000000, .i32⟩) select ]

theorem headR_split : (headR : List (HloOp τ sig (Elt F))) = headA ++ (headB ++ (headC ++ headD)) := rfl

/-! ## The pure functions of the later stretches -/

/-- The validity bit from the cell coordinates and the table of upper limits. -/
def validOf (cv : IVec S2000000x3 32) (lim : IVec S3 32) : IVec S2000000 1 :=
  Host.reduce IntOp.andi
    (andi
      (cmpi .sge cv (broadcastInDim S2000000x3 ![] bcast_S_S2000000x3 (constantI S_ 32 0#32)))
      (cmpi .slt cv
        (broadcastInDim S2000000x3 ![0, 1] bcast_S1x3_S2000000x3_0_1 (broadcastInDim S1x3 ![1] bcast_S3_S1x3_1 lim))))
    (constantI S_ 1 1#1) reducesTo_S2000000x3_S2000000_d1 h_S_

/-- The linear index from the cell coordinates. -/
def keyOf (cv : IVec S2000000x3 32) : IVec S2000000 32 :=
  addi
    (addi
      (muli
        (shapeCast S2000000 (extractStridedSlice S2000000x1 ![0, 2] cv slices_S2000000x3_S2000000x1_0_2)
          shapeCasts_S2000000x1_S2000000)
        (broadcastInDim S2000000 ![] bcast_S_S2000000 (constantI S_ 32 2252800#32)))
      (muli
        (shapeCast S2000000 (extractStridedSlice S2000000x1 ![0, 1] cv slices_S2000000x3_S2000000x1_0_1)
          shapeCasts_S2000000x1_S2000000)
        (broadcastInDim S2000000 ![] bcast_S_S2000000 (constantI S_ 32 1408#32))))
    (shapeCast S2000000 (extractStridedSlice S2000000x1 ![0, 0] cv slices_S2000000x3_S2000000x1_0_0)
      shapeCasts_S2000000x1_S2000000)

theorem validR_eq (pts : FVec F S2000000x4 .f32) :
    Head.validR pts = validOf (Head.cR pts) (fun i => lit2 (S3.rowMajor i)) := rfl

theorem keyR_eq (pts : FVec F S2000000x4 .f32) : Head.keyR pts = keyOf (Head.cR pts) := rfl

/-! ## The first stretch -/

theorem headA_c (V : Valuation τ sig (Elt F)) :
    StableHlo.after headA V (Proc.devRef .tc main_v8) = Head.cR (V (Proc.devRef .tc main_arg0)) := by
  after_results_simp
  rfl

theorem headA_lim (V : Valuation τ sig (Elt F)) :
    StableHlo.after headA V (Proc.devRef .tc main_c) = (fun i => lit2 (S3.rowMajor i) : IVec S3 32) := by
  after_results_simp
  rfl

theorem headA_keep_main_arg0 (V : Valuation τ sig (Elt F)) :
    StableHlo.after headA V (Proc.devRef .tc main_arg0) = V (Proc.devRef .tc main_arg0) := by
  after_results_simp

/-! ## The second stretch -/

theorem headB_valid (W : Valuation τ sig (Elt F)) :
    StableHlo.after headB W (Proc.devRef .tc main_v15) = validOf (W (Proc.devRef .tc main_v8)) (W (Proc.devRef .tc main_c)) := by
  after_results_simp
  rfl

theorem headB_keep_main_v8 (W : Valuation τ sig (Elt F)) :
    StableHlo.after headB W (Proc.devRef .tc main_v8) = W (Proc.devRef .tc main_v8) := by
  after_results_simp

/-! ## The third stretch -/

theorem headC_key (W : Valuation τ sig (Elt F)) :
    StableHlo.after headC W (Proc.devRef .tc main_v27) = keyOf (W (Proc.devRef .tc main_v8)) := by
  after_results_simp
  rfl

theorem headC_keep_main_v15 (W : Valuation τ sig (Elt F)) :
    StableHlo.after headC W (Proc.devRef .tc main_v15) = W (Proc.devRef .tc main_v15) := by
  after_results_simp

theorem headC_keep_main_v8 (W : Valuation τ sig (Elt F)) :
    StableHlo.after headC W (Proc.devRef .tc main_v8) = W (Proc.devRef .tc main_v8) := by
  after_results_simp

/-! ## The selection -/

theorem headD_lin (W : Valuation τ sig (Elt F)) :
    StableHlo.after headD W (Proc.devRef .tc main_v28)
      = select (W (Proc.devRef .tc main_v15)) (W (Proc.devRef .tc main_v27))
          (broadcastInDim S2000000 ![] bcast_S_S2000000 (id (constantI S_ 32 90112000#32))) := by
  after_results_simp
  rfl

/-! ## The forty lines -/

/-- The cell coordinates after the first forty lines. -/
theorem head_c (V : Valuation τ sig (Elt F)) :
    StableHlo.after headR V (Proc.devRef .tc main_v8) = Head.cR (V (Proc.devRef .tc main_arg0)) := by
  after_results_simp
  rfl

/-- The linear keys after the first forty lines. -/
theorem head_lin (V : Valuation τ sig (Elt F)) :
    StableHlo.after headR V (Proc.devRef .tc main_v28) = Head.linR (V (Proc.devRef .tc main_arg0)) := by
  rw [headR_split, StableHlo.after_append, StableHlo.after_append, StableHlo.after_append, headD_lin,
    headC_key, headC_keep_main_v15, headB_valid, headB_keep_main_v8, headA_c, headA_lim]
  unfold Head.linR
  rw [validR_eq, keyR_eq]

/-- The one-element constant. -/
theorem head_tru (V : Valuation τ sig (Elt F)) :
    StableHlo.after headR V (Proc.devRef .tc main_c_1) = (constantI S1 1 1#1 : IVec S1 1) := by
  after_results_simp

/-- The argument array is not written. -/
theorem head_arg (V : Valuation τ sig (Elt F)) :
    StableHlo.after headR V (Proc.devRef .tc main_arg0) = V (Proc.devRef .tc main_arg0) := by
  after_results_simp

end Cert.ReferenceIdeal.RefHead

end
-- ==== Proof.Tails.lean ====
/-
  The two host tails agree. After its first three host lines the kernel program runs, operation for operation, the
  reference's tail — the two sorts, the running maximum, the gathers and the three scatters — over buffers of other
  names. So from valuations that agree at the four buffers the tails read from outside (the linear cell index, the cell
  coordinates, the points, the one-element `true`) the four results are equal.
-/
import proofs.«172231_j28063316312325_2_alg».proof.Proof.RefRun
import proofs.«172231_j28063316312325_2_alg».proof.Proof.Gen.KernelIdeal.Launch
import Idealize.ShloMosaic.PureOps.Ideal
import Idealize.ShloMosaic.Lib.Pipeline.Frame

noncomputable section

namespace Cert.Tails

open Idealize.ShloMosaic Idealize.ShloMosaic.TcCoe Idealize.SL.Sem Idealize.ShloMosaic.StableHlo

/-- A concatenation of two vectors depends on the vectors only: equal operands, equal results (the operands sit
    under the list of shaped vectors, where the shape evidence's type mentions the list). -/
theorem concatenate2_congr {α : Type} {t : Shape} {a : Fin t.rank} {s₁ s₂ : Shape}
    {x x' : s₁.Idx → α} {y y' : s₂.Idx → α} (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

attribute [local congr] concatenate2_congr

/-- The kernel program's host operations after the three that read the kernel's output array. -/
abbrev tailK : List (HloOp Cert.KernelIdeal.τ Cert.KernelIdeal.sig (Elt Ideal)) :=
  List.flatten [Cert.KernelIdeal.Gen.hostOps1_1 (F := Ideal), Cert.KernelIdeal.Gen.hostOps1_2 (F := Ideal), Cert.KernelIdeal.Gen.hostOps1_3 (F := Ideal), Cert.KernelIdeal.Gen.hostOps1_4 (F := Ideal), Cert.KernelIdeal.Gen.hostOps1_5 (F := Ideal), Cert.KernelIdeal.Gen.hostOps1_6 (F := Ideal), Cert.KernelIdeal.Gen.hostOps1_7 (F := Ideal), Cert.KernelIdeal.Gen.hostOps1_8 (F := Ideal), Cert.KernelIdeal.Gen.hostOps1_9 (F := Ideal), Cert.KernelIdeal.Gen.hostOps1_10 (F := Ideal), Cert.KernelIdeal.Gen.hostOps1_11 (F := Ideal), Cert.KernelIdeal.Gen.hostOps1_12 (F := Ideal), Cert.KernelIdeal.Gen.hostOps1_13 (F := Ideal), Cert.KernelIdeal.Gen.hostOps1_14 (F := Ideal), Cert.KernelIdeal.Gen.hostOps1_15 (F := Ideal)]

/-! ## The two tails agree

Both folds are unrolled at the result's buffer in one pass; each side is then the same operations applied to its own
valuation at the four buffers the tail reads from outside; those agree by hypothesis, and what is left is an equation
between two spellings of one term (each program's own shape abbreviations, dimension records and comparator unfold to
the same literals). -/

set_option maxRecDepth 16384 in
set_option maxHeartbeats 4000000 in
/-- The number of voxels. -/
theorem tails_v36 (WK : Valuation Cert.KernelIdeal.τ Cert.KernelIdeal.sig (Elt Ideal)) (WR : Valuation Cert.ReferenceIdeal.τ Cert.ReferenceIdeal.sig (Elt Ideal))
    (h_lin : WK (Proc.devRef .tc Cert.KernelIdeal.main_v2) = WR (Proc.devRef .tc Cert.ReferenceIdeal.main_v28))
    (h_c : WK (Proc.devRef .tc Cert.KernelIdeal.main_v3) = WR (Proc.devRef .tc Cert.ReferenceIdeal.main_v8))
    (h_pts : WK (Proc.devRef .tc Cert.KernelIdeal.main_arg0) = WR (Proc.devRef .tc Cert.ReferenceIdeal.main_arg0))
    (h_tru : WK (Proc.devRef .tc Cert.KernelIdeal.main_c) = WR (Proc.devRef .tc Cert.ReferenceIdeal.main_c_1)) :
    after tailK WK (Proc.devRef .tc Cert.KernelIdeal.main_v36) = after (Cert.ReferenceIdeal.RefRun.tailR (F := Ideal)) WR (Proc.devRef .tc Cert.ReferenceIdeal.main_v61) := by
  simp only [tailK, List.flatten_cons, List.flatten_nil, List.append_nil, after_append]
  after_results_simp
  rw [h_lin, h_tru]
  rfl

set_option maxRecDepth 16384 in
set_option maxHeartbeats 4000000 in
/-- The number of points of each voxel. -/
theorem tails_v99 (WK : Valuation Cert.KernelIdeal.τ Cert.KernelIdeal.sig (Elt Ideal)) (WR : Valuation Cert.ReferenceIdeal.τ Cert.ReferenceIdeal.sig (Elt Ideal))
    (h_lin : WK (Proc.devRef .tc Cert.KernelIdeal.main_v2) = WR (Proc.devRef .tc Cert.ReferenceIdeal.main_v28))
    (h_c : WK (Proc.devRef .tc Cert.KernelIdeal.main_v3) = WR (Proc.devRef .tc Cert.ReferenceIdeal.main_v8))
    (h_pts : WK (Proc.devRef .tc Cert.KernelIdeal.main_arg0) = WR (Proc.devRef .tc Cert.ReferenceIdeal.main_arg0))
    (h_tru : WK (Proc.devRef .tc Cert.KernelIdeal.main_c) = WR (Proc.devRef .tc Cert.ReferenceIdeal.main_c_1)) :
    after tailK WK (Proc.devRef .tc Cert.KernelIdeal.main_v99) = after (Cert.ReferenceIdeal.RefRun.tailR (F := Ideal)) WR (Proc.devRef .tc Cert.ReferenceIdeal.main_v124) := by
  simp only [tailK, List.flatten_cons, List.flatten_nil, List.append_nil, after_append]
  after_results_simp
  rw [h_lin, h_tru]
  rfl

set_option maxRecDepth 16384 in
set_option maxHeartbeats 4000000 in
/-- The coordinates of each voxel. -/
theorem tails_v89 (WK : Valuation Cert.KernelIdeal.τ Cert.KernelIdeal.sig (Elt Ideal)) (WR : Valuation Cert.ReferenceIdeal.τ Cert.ReferenceIdeal.sig (Elt Ideal))
    (h_lin : WK (Proc.devRef .tc Cert.KernelIdeal.main_v2) = WR (Proc.devRef .tc Cert.ReferenceIdeal.main_v28))
    (h_c : WK (Proc.devRef .tc Cert.KernelIdeal.main_v3) = WR (Proc.devRef .tc Cert.ReferenceIdeal.main_v8))
    (h_pts : WK (Proc.devRef .tc Cert.KernelIdeal.main_arg0) = WR (Proc.devRef .tc Cert.ReferenceIdeal.main_arg0))
    (h_tru : WK (Proc.devRef .tc Cert.KernelIdeal.main_c) = WR (Proc.devRef .tc Cert.ReferenceIdeal.main_c_1)) :
    after tailK WK (Proc.devRef .tc Cert.KernelIdeal.main_v89) = after (Cert.ReferenceIdeal.RefRun.tailR (F := Ideal)) WR (Proc.devRef .tc Cert.ReferenceIdeal.main_v114) := by
  simp only [tailK, List.flatten_cons, List.flatten_nil, List.append_nil, after_append]
  after_results_simp
  rw [h_lin, h_tru, h_c]
  rfl

set_option maxRecDepth 16384 in
set_option maxHeartbeats 4000000 in
/-- The points of each voxel. -/
theorem tails_v67 (WK : Valuation Cert.KernelIdeal.τ Cert.KernelIdeal.sig (Elt Ideal)) (WR : Valuation Cert.ReferenceIdeal.τ Cert.ReferenceIdeal.sig (Elt Ideal))
    (h_lin : WK (Proc.devRef .tc Cert.KernelIdeal.main_v2) = WR (Proc.devRef .tc Cert.ReferenceIdeal.main_v28))
    (h_c : WK (Proc.devRef .tc Cert.KernelIdeal.main_v3) = WR (Proc.devRef .tc Cert.ReferenceIdeal.main_v8))
    (h_pts : WK (Proc.devRef .tc Cert.KernelIdeal.main_arg0) = WR (Proc.devRef .tc Cert.ReferenceIdeal.main_arg0))
    (h_tru : WK (Proc.devRef .tc Cert.KernelIdeal.main_c) = WR (Proc.devRef .tc Cert.ReferenceIdeal.main_c_1)) :
    after tailK WK (Proc.devRef .tc Cert.KernelIdeal.main_v67) = after (Cert.ReferenceIdeal.RefRun.tailR (F := Ideal)) WR (Proc.devRef .tc Cert.ReferenceIdeal.main_v92) := by
  simp only [tailK, List.flatten_cons, List.flatten_nil, List.append_nil, after_append]
  after_results_simp
  rw [h_lin, h_tru, h_pts]
  rfl

/-- From valuations that agree on the linear cell index, the cell coordinates, the points and the one-element
    `true`, the two tails end with equal results. -/
theorem tails_agree (WK : Valuation Cert.KernelIdeal.τ Cert.KernelIdeal.sig (Elt Ideal)) (WR : Valuation Cert.ReferenceIdeal.τ Cert.ReferenceIdeal.sig (Elt Ideal))
    (h_lin : WK (Proc.devRef .tc Cert.KernelIdeal.main_v2) = WR (Proc.devRef .tc Cert.ReferenceIdeal.main_v28))
    (h_c : WK (Proc.devRef .tc Cert.KernelIdeal.main_v3) = WR (Proc.devRef .tc Cert.ReferenceIdeal.main_v8))
    (h_pts : WK (Proc.devRef .tc Cert.KernelIdeal.main_arg0) = WR (Proc.devRef .tc Cert.ReferenceIdeal.main_arg0))
    (h_tru : WK (Proc.devRef .tc Cert.KernelIdeal.main_c) = WR (Proc.devRef .tc Cert.ReferenceIdeal.main_c_1)) :
    after tailK WK (Proc.devRef .tc Cert.KernelIdeal.main_v67) = after (Cert.ReferenceIdeal.RefRun.tailR (F := Ideal)) WR (Proc.devRef .tc Cert.ReferenceIdeal.main_v92)
    ∧ after tailK WK (Proc.devRef .tc Cert.KernelIdeal.main_v89) = after (Cert.ReferenceIdeal.RefRun.tailR (F := Ideal)) WR (Proc.devRef .tc Cert.ReferenceIdeal.main_v114)
    ∧ after tailK WK (Proc.devRef .tc Cert.KernelIdeal.main_v99) = after (Cert.ReferenceIdeal.RefRun.tailR (F := Ideal)) WR (Proc.devRef .tc Cert.ReferenceIdeal.main_v124)
    ∧ after tailK WK (Proc.devRef .tc Cert.KernelIdeal.main_v36) = after (Cert.ReferenceIdeal.RefRun.tailR (F := Ideal)) WR (Proc.devRef .tc Cert.ReferenceIdeal.main_v61) :=
  ⟨tails_v67 WK WR h_lin h_c h_pts h_tru, tails_v89 WK WR h_lin h_c h_pts h_tru,
    tails_v99 WK WR h_lin h_c h_pts h_tru, tails_v36 WK WR h_lin h_c h_pts h_tru⟩

end Cert.Tails

end
-- ==== Proof.Bridge.lean ====
/-
  The two idealized programs end with equal results. The kernel's region leaves in its result array, row by row,
  [lin, cx, cy, cz] of the argument's row, which is what the reference's first forty host lines compute as the vector
  of linear keys and the three-column array of cell coordinates; the remaining host lines of the two programs are the
  same operations, reading these two values, the argument array and a one-element constant. So the four results agree.
-/
import proofs.«172231_j28063316312325_2_alg».proof.Defs
import proofs.«172231_j28063316312325_2_alg».proof.Proof.FrameBits
import proofs.«172231_j28063316312325_2_alg».proof.Proof.FrameIdeal
import proofs.«172231_j28063316312325_2_alg».proof.Proof.KValue
import proofs.«172231_j28063316312325_2_alg».proof.Proof.KLeaves
import proofs.«172231_j28063316312325_2_alg».proof.Proof.HeadDefs
import proofs.«172231_j28063316312325_2_alg».proof.Proof.BlockPoint
import proofs.«172231_j28063316312325_2_alg».proof.Proof.RefRun
import proofs.«172231_j28063316312325_2_alg».proof.Proof.RefHead
import proofs.«172231_j28063316312325_2_alg».proof.Proof.Tails
import proofs.«172231_j28063316312325_2_alg».proof.Proof.Gen.Pre_finite_inputs

noncomputable section

open Idealize.ShloMosaic Idealize.ShloMosaic.TcCoe Idealize.SL.Sem

namespace Cert.Proof.Bridge

open Cert.KernelIdeal.Hand Cert.KernelIdeal.HandValue Cert.KernelIdeal.HandLeaves
open Cert.ReferenceIdeal.RefRun Cert.ReferenceIdeal.RefHead

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The result array after the region is the reference head's [key | coordinates] of the argument array. -/
theorem meta_eq (c : Dev Cert.KernelIdeal.nD) :
    (dats m 0 c).arrAt 1 Cert.KernelIdeal.cfg0.N
      = Cert.ReferenceIdeal.Head.G (F := Ideal) (m ((c : Thread Cert.KernelIdeal.nD Cert.KernelIdeal.τ).loc Cert.KernelIdeal.main_arg0)) := by
  rw [final m (fun pts => Cert.ReferenceIdeal.Head.G (F := Ideal) pts)
    (fun pts x0 t hx y j => Cert.BlockPoint.block_eq pts x0 t hx y j) c, V_main_arg0]

/-- What the reference's remaining lines start from. -/
abbrev WR (c : Dev Cert.ReferenceIdeal.nD) : Valuation Cert.ReferenceIdeal.τ Cert.ReferenceIdeal.sig (Elt Ideal) :=
  StableHlo.after (headR (F := Ideal)) (StableHlo.launchContents m' c)

variable (c : Dev Cert.KernelIdeal.nD)
  (hag : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0))

include hag in
theorem leaf_lin : WK m c (Proc.devRef .tc Cert.KernelIdeal.main_v2) = WR m' c (Proc.devRef .tc Cert.ReferenceIdeal.main_v28) := by
  rw [WK_v2, meta_eq]
  refine (Cert.ReferenceIdeal.Head.lin_of_G (F := Ideal) _ _ _).trans ?_
  refine Eq.trans ?_ (head_lin (F := Ideal) (StableHlo.launchContents m' c)).symm
  exact congrArg _ hag.symm

include hag in
theorem leaf_c : WK m c (Proc.devRef .tc Cert.KernelIdeal.main_v3) = WR m' c (Proc.devRef .tc Cert.ReferenceIdeal.main_v8) := by
  rw [WK_v3, meta_eq]
  refine (Cert.ReferenceIdeal.Head.c_of_G (F := Ideal) _ _).trans ?_
  refine Eq.trans ?_ (head_c (F := Ideal) (StableHlo.launchContents m' c)).symm
  exact congrArg _ hag.symm

include hag in
theorem leaf_pts : WK m c (Proc.devRef .tc Cert.KernelIdeal.main_arg0) = WR m' c (Proc.devRef .tc Cert.ReferenceIdeal.main_arg0) := by
  rw [WK_arg0]
  refine Eq.trans ?_ (head_arg (F := Ideal) (StableHlo.launchContents m' c)).symm
  exact hag.symm

theorem leaf_tru : WK m c (Proc.devRef .tc Cert.KernelIdeal.main_c) = WR m' c (Proc.devRef .tc Cert.ReferenceIdeal.main_c_1) := by
  rw [WK_c]
  exact (head_tru (F := Ideal) (StableHlo.launchContents m' c)).symm

include hag in
/-- The four results of the two programs agree on a core. -/
theorem results_eq :
    StableHlo.after (headR (F := Ideal) ++ tailR) (StableHlo.launchContents m' c) (Proc.devRef .tc Cert.ReferenceIdeal.main_v92)
        = Pipeline.afterTail₀ Cert.KernelIdeal.cfgs (dats m) 0 (V0 m) tails c Cert.KernelIdeal.main_v67
    ∧ StableHlo.after (headR (F := Ideal) ++ tailR) (StableHlo.launchContents m' c) (Proc.devRef .tc Cert.ReferenceIdeal.main_v114)
        = Pipeline.afterTail₀ Cert.KernelIdeal.cfgs (dats m) 0 (V0 m) tails c Cert.KernelIdeal.main_v89
    ∧ StableHlo.after (headR (F := Ideal) ++ tailR) (StableHlo.launchContents m' c) (Proc.devRef .tc Cert.ReferenceIdeal.main_v124)
        = Pipeline.afterTail₀ Cert.KernelIdeal.cfgs (dats m) 0 (V0 m) tails c Cert.KernelIdeal.main_v99
    ∧ StableHlo.after (headR (F := Ideal) ++ tailR) (StableHlo.launchContents m' c) (Proc.devRef .tc Cert.ReferenceIdeal.main_v61)
        = Pipeline.afterTail₀ Cert.KernelIdeal.cfgs (dats m) 0 (V0 m) tails c Cert.KernelIdeal.main_v36 := by
  have h := Cert.Tails.tails_agree (WK m c) (WR m' c) (leaf_lin m m' c hag) (leaf_c m m' c hag) (leaf_pts m m' c hag) (leaf_tru m m' c)
  simp only [StableHlo.after_append, afterTail_eq]
  exact ⟨h.1.symm, h.2.1.symm, h.2.2.1.symm, h.2.2.2.symm⟩

end Cert.Proof.Bridge

end
-- ==== Proof.lean ====
/-
  The claim: the three programs run to the end, fault nowhere and leave the argument array unchanged; the idealized
  kernel is the kernel's own text read over the extended reals (the ideal pass rewrote nothing); and the idealized
  kernel and the idealized reference, run from memories that agree on the argument array, end with equal results.
  The kernel's two frames and its results come from the region's run around the host lines; the reference's from its
  straight line of host operations; the results agree because the region computes, row by row, what the reference's
  first forty lines compute, and the later lines of the two programs are the same operations.
-/
import proofs.«172231_j28063316312325_2_alg».proof.Defs
import proofs.«172231_j28063316312325_2_alg».proof.Proof.Bridge
import proofs.«172231_j28063316312325_2_alg».proof.Proof.Gen.Kernel
import proofs.«172231_j28063316312325_2_alg».proof.Proof.Gen.KernelIdeal
import proofs.«172231_j28063316312325_2_alg».proof.Proof.Gen.ReferenceIdeal
import proofs.«172231_j28063316312325_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference is a straight line of host operations, none of which writes the argument array. -/
theorem frame_ri : Cert.frame_ReferenceIdeal := fun m ρ _ =>
  (θ_run Cert.ReferenceIdeal.defs _ _).mono
    (fun _ h c => (h c Cert.ReferenceIdeal.main_arg0).trans (Cert.ReferenceIdeal.RefRun.kept_arg0 _))
    (Cert.ReferenceIdeal.RefRun.run (F := Ideal) m ρ)

/-- Both idealized programs run; each of the kernel's four results is the later host lines' fold over what the region
    left, and the reference's four results are equal to them. -/
theorem algebraic : Cert.algebraic_KernelIdeal_ReferenceIdeal := by
  intro m ρ m' ρ' _ hagree
  refine ⟨fun c => Pipeline.afterTail₀ Cert.KernelIdeal.cfgs (Cert.KernelIdeal.Hand.dats m) 0 (Cert.KernelIdeal.Hand.V0 m) Cert.KernelIdeal.Hand.tails c Cert.KernelIdeal.main_v67,
    fun c => Pipeline.afterTail₀ Cert.KernelIdeal.cfgs (Cert.KernelIdeal.Hand.dats m) 0 (Cert.KernelIdeal.Hand.V0 m) Cert.KernelIdeal.Hand.tails c Cert.KernelIdeal.main_v89,
    fun c => Pipeline.afterTail₀ Cert.KernelIdeal.cfgs (Cert.KernelIdeal.Hand.dats m) 0 (Cert.KernelIdeal.Hand.V0 m) Cert.KernelIdeal.Hand.tails c Cert.KernelIdeal.main_v99,
    fun c => Pipeline.afterTail₀ Cert.KernelIdeal.cfgs (Cert.KernelIdeal.Hand.dats m) 0 (Cert.KernelIdeal.Hand.V0 m) Cert.KernelIdeal.Hand.tails c Cert.KernelIdeal.main_v36,
    ?_, ?_⟩
  · refine (θ_run Cert.KernelIdeal.defs _ _).mono (fun r h c => ⟨?_, ?_, ?_, ?_, ?_⟩) (Cert.KernelIdeal.Hand.run_main (F := Ideal) m ρ)
    · exact (h c).2 Cert.KernelIdeal.main_v67 (Pipeline.mem_restRefs_of _ (by decide) (by decide))
    · exact (h c).2 Cert.KernelIdeal.main_v89 (Pipeline.mem_restRefs_of _ (by decide) (by decide))
    · exact (h c).2 Cert.KernelIdeal.main_v99 (Pipeline.mem_restRefs_of _ (by decide) (by decide))
    · exact (h c).2 Cert.KernelIdeal.main_v36 (Pipeline.mem_restRefs_of _ (by decide) (by decide))
    · exact ((h c).1 0).trans (((Cert.KernelIdeal.Hand.dats m 0 c).arrAt_in 0 rfl _).trans
        ((Cert.KernelIdeal.Hand.A_eq m c 0).trans (Cert.KernelIdeal.Hand.V_main_arg0 m c)))
  · refine (θ_run Cert.ReferenceIdeal.defs _ _).mono (fun r h c => ?_) (Cert.ReferenceIdeal.RefRun.run (F := Ideal) m' ρ')
    obtain ⟨e0, e1, e2, e3⟩ := Cert.Proof.Bridge.results_eq m m' c (hagree c)
    exact ⟨(h c Cert.ReferenceIdeal.main_v92).trans e0, (h c Cert.ReferenceIdeal.main_v114).trans e1,
      (h c Cert.ReferenceIdeal.main_v124).trans e2, (h c Cert.ReferenceIdeal.main_v61).trans e3,
      (h c Cert.ReferenceIdeal.main_arg0).trans (Cert.ReferenceIdeal.RefRun.kept_arg0 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
